-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52_1)) (v1 : (c : Dev Cert.KernelIdeal.nD) → Buf (Elt Ideal) ((c.tc : Thread Cert.KernelIdeal.nD Cert.KernelIdeal.τ).loc Cert.KernelIdeal.main_v52_0)) (v2 : (c : Dev Cert.KernelIdeal.nD) → Buf (Elt Ideal) ((c.tc : Thread Cert.KernelIdeal.nD Cert.KernelIdeal.τ).loc Cert.KernelIdeal.main_v52_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_1) = v0 c
          ∧ r.2.mem ((c.tc : Thread Cert.KernelIdeal.nD Cert.KernelIdeal.τ).loc Cert.KernelIdeal.main_v52_0) = v1 c
          ∧ r.2.mem ((c.tc : Thread Cert.KernelIdeal.nD Cert.KernelIdeal.τ).loc Cert.KernelIdeal.main_v52_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S10000x256 .f32) (main_arg1 : IVec S2x320000 32) (main_arg2 : FVec F S256x256 .f32) (main_arg3 : FVec F S256 .f32) (main_arg4 : FVec F S256x256 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S10000x10000 : Shape := ⟨2, ![10000, 10000]⟩
abbrev S320000x1 : Shape := ⟨2, ![320000, 1]⟩
abbrev S320000x2 : Shape := ⟨2, ![320000, 2]⟩
abbrev S10000x1 : Shape := ⟨2, ![10000, 1]⟩
abbrev S1x10000 : Shape := ⟨2, ![1, 10000]⟩
abbrev S200x10000 : Shape := ⟨2, ![200, 10000]⟩
abbrev S200x1 : Shape := ⟨2, ![200, 1]⟩
abbrev S200 : Shape := ⟨1, ![200]⟩
abbrev S10000 : Shape := ⟨1, ![10000]⟩
abbrev S1000x256 : Shape := ⟨2, ![1000, 256]⟩
abbrev S1x256 : Shape := ⟨2, ![1, 256]⟩
abbrev S400x10000 : Shape := ⟨2, ![400, 10000]⟩
abbrev S400x1 : Shape := ⟨2, ![400, 1]⟩
abbrev S400x256 : Shape := ⟨2, ![400, 256]⟩

abbrev nBuf : Space → Nat
  | .hbm => 78
  | .vmem => 50
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .bf16⟩
  | .hbm, ⟨11, _⟩ => ⟨S10000x10000, .bf16⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x1, .i32⟩
  | .hbm, ⟨28, _⟩ => ⟨S320000x2, .i32⟩
  | .hbm, ⟨29, _⟩ => ⟨S_, .bf16⟩
  | .hbm, ⟨30, _⟩ => ⟨S320000, .bf16⟩
  | .hbm, ⟨31, _⟩ => ⟨S10000x10000, .bf16⟩
  | .hbm, ⟨32, _⟩ => ⟨S10000x1, .f32⟩
  | .hbm, ⟨33, _⟩ => ⟨S1x10000, .f32⟩
  | .hbm, ⟨34, _⟩ => ⟨S_, .f32⟩
  | .hbm, ⟨35, _⟩ => ⟨S10000x1, .f32⟩
  | .hbm, ⟨36, _⟩ => ⟨S10000x1, .i1⟩
  | .hbm, ⟨37, _⟩ => ⟨S_, .f32⟩
  | .hbm, ⟨38, _⟩ => ⟨S10000x1, .f32⟩
  | .hbm, ⟨39, _⟩ => ⟨S10000x1, .f32⟩
  | .hbm, ⟨40, _⟩ => ⟨S10000x1, .f32⟩
  | .hbm, ⟨41, _⟩ => ⟨S_, .f32⟩
  | .hbm, ⟨42, _⟩ => ⟨S_, .f32⟩
  | .hbm, ⟨43, _⟩ => ⟨S10000x1, .f32⟩
  | .hbm, ⟨44, _⟩ => ⟨S10000x1, .f32⟩
  | .hbm, ⟨45, _⟩ => ⟨S_, .f32⟩
  | .hbm, ⟨46, _⟩ => ⟨S1x10000, .f32⟩
  | .hbm, ⟨47, _⟩ => ⟨S1x10000, .i1⟩
  | .hbm, ⟨48, _⟩ => ⟨S_, .f32⟩
  | .hbm, ⟨49, _⟩ => ⟨S1x10000, .f32⟩
  | .hbm, ⟨50, _⟩ => ⟨S1x10000, .f32⟩
  | .hbm, ⟨51, _⟩ => ⟨S1x10000, .f32⟩
  | .hbm, ⟨52, _⟩ => ⟨S_, .f32⟩
  | .hbm, ⟨53, _⟩ => ⟨S_, .f32⟩
  | .hbm, ⟨54, _⟩ => ⟨S1x10000, .f32⟩
  | .hbm, ⟨55, _⟩ => ⟨S1x10000, .f32⟩
  | .hbm, ⟨56, _⟩ => ⟨S10000x1, .f32⟩
  | .hbm, ⟨57, _⟩ => ⟨S10000x256, .f32⟩
  | .hbm, ⟨58, _⟩ => ⟨S10000x256, .f32⟩
  | .hbm, ⟨59, _⟩ => ⟨S10000x256, .f32⟩
  | .hbm, ⟨60, _⟩ => ⟨S10000x256, .bf16⟩
  | .hbm, ⟨61, _⟩ => ⟨S10000x256, .f32⟩
  | .hbm, ⟨62, _⟩ => ⟨S10000x256, .f32⟩
  | .hbm, ⟨63, _⟩ => ⟨S10000x256, .bf16⟩
  | .hbm, ⟨64, _⟩ => ⟨S1x256, .f32⟩
  | .hbm, ⟨65, _⟩ => ⟨S10000x256, .f32⟩
  | .hbm, ⟨66, _⟩ => ⟨S10000x256, .f32⟩
  | .hbm, ⟨67, _⟩ => ⟨S10000x256, .f32⟩
  | .hbm, ⟨68, _⟩ => ⟨S10000x256, .f32⟩
  | .hbm, ⟨69, _⟩ => ⟨S10000x256, .f32⟩
  | .hbm, ⟨70, _⟩ => ⟨S10000x256, .f32⟩
  | .hbm, ⟨71, _⟩ => ⟨S10000x256, .bf16⟩
  | .hbm, ⟨72, _⟩ => ⟨S10000x256, .f32⟩
  | .hbm, ⟨73, _⟩ => ⟨S10000x256, .f32⟩
  | .hbm, ⟨74, _⟩ => ⟨S10000x256, .bf16⟩
  | .hbm, ⟨75, _⟩ => ⟨S1x256, .f32⟩
  | .hbm, ⟨76, _⟩ => ⟨S10000x256, .f32⟩
  | .hbm, ⟨77, _⟩ => ⟨S10000x256, .f32⟩
  | .local _ .vmem, ⟨0, _⟩ => ⟨S200x10000, .bf16⟩
  | .local _ .vmem, ⟨1, _⟩ => ⟨S200x10000, .bf16⟩
  | .local _ .vmem, ⟨2, _⟩ => ⟨S200x1, .f32⟩
  | .local _ .vmem, ⟨3, _⟩ => ⟨S200x1, .f32⟩
  | .local _ .vmem, ⟨4, _⟩ => ⟨S1x10000, .f32⟩
  | .local _ .vmem, ⟨5, _⟩ => ⟨S1000x256, .f32⟩
  | .local _ .vmem, ⟨6, _⟩ => ⟨S1000x256, .f32⟩
  | .local _ .vmem, ⟨7, _⟩ => ⟨S256x256, .f32⟩
  | .local _ .vmem, ⟨8, _⟩ => ⟨S1000x256, .f32⟩
  | .local _ .vmem, ⟨9, _⟩ => ⟨S1000x256, .f32⟩
  | .local _ .vmem, ⟨10, _⟩ => ⟨S400x10000, .bf16⟩
  | .local _ .vmem, ⟨11, _⟩ => ⟨S400x10000, .bf16⟩
  | .local _ .vmem, ⟨12, _⟩ => ⟨S10000x256, .bf16⟩
  | .local _ .vmem, ⟨13, _⟩ => ⟨S10000x256, .bf16⟩
  | .local _ .vmem, ⟨14, _⟩ => ⟨S400x1, .f32⟩
  | .local _ .vmem, ⟨15, _⟩ => ⟨S400x1, .f32⟩
  | .local _ .vmem, ⟨16, _⟩ => ⟨S400x1, .f32⟩
  | .local _ .vmem, ⟨17, _⟩ => ⟨S400x1, .f32⟩
  | .local _ .vmem, ⟨18, _⟩ => ⟨S400x256, .f32⟩
  | .local _ .vmem, ⟨19, _⟩ => ⟨S400x256, .f32⟩
  | .local _ .vmem, ⟨20, _⟩ => ⟨S1x256, .f32⟩
  | .local _ .vmem, ⟨21, _⟩ => ⟨S400x256, .f32⟩
  | .local _ .vmem, ⟨22, _⟩ => ⟨S400x256, .f32⟩
  | .local _ .vmem, ⟨23, _⟩ => ⟨S400x256, .f32⟩
  | .local _ .vmem, ⟨24, _⟩ => ⟨S400x256, .f32⟩
  | .local _ .vmem, ⟨25, _⟩ => ⟨S1000x256, .f32⟩
  | .local _ .vmem, ⟨26, _⟩ => ⟨S1000x256, .f32⟩
  | .local _ .vmem, ⟨27, _⟩ => ⟨S256x256, .f32⟩
  | .local _ .vmem, ⟨28, _⟩ => ⟨S1000x256, .f32⟩
  | .local _ .vmem, ⟨29, _⟩ => ⟨S1000x256, .f32⟩
  | .local _ .vmem, ⟨30, _⟩ => ⟨S1000x256, .f32⟩
  | .local _ .vmem, ⟨31, _⟩ => ⟨S1000x256, .f32⟩
  | .local _ .vmem, ⟨32, _⟩ => ⟨S256x256, .f32⟩
  | .local _ .vmem, ⟨33, _⟩ => ⟨S1000x256, .f32⟩
  | .local _ .vmem, ⟨34, _⟩ => ⟨S1000x256, .f32⟩
  | .local _ .vmem, ⟨35, _⟩ => ⟨S400x10000, .bf16⟩
  | .local _ .vmem, ⟨36, _⟩ => ⟨S400x10000, .bf16⟩
  | .local _ .vmem, ⟨37, _⟩ => ⟨S10000x256, .bf16⟩
  | .local _ .vmem, ⟨38, _⟩ => ⟨S10000x256, .bf16⟩
  | .local _ .vmem, ⟨39, _⟩ => ⟨S400x1, .f32⟩
  | .local _ .vmem, ⟨40, _⟩ => ⟨S400x1, .f32⟩
  | .local _ .vmem, ⟨41, _⟩ => ⟨S400x1, .f32⟩
  | .local _ .vmem, ⟨42, _⟩ => ⟨S400x1, .f32⟩
  | .local _ .vmem, ⟨43, _⟩ => ⟨S400x256, .f32⟩
  | .local _ .vmem, ⟨44, _⟩ => ⟨S400x256, .f32⟩
  | .local _ .vmem, ⟨45, _⟩ => ⟨S1x256, .f32⟩
  | .local _ .vmem, ⟨46, _⟩ => ⟨S400x256, .f32⟩
  | .local _ .vmem, ⟨47, _⟩ => ⟨S400x256, .f32⟩
  | .local _ .vmem, ⟨48, _⟩ => ⟨S400x256, .f32⟩
  | .local _ .vmem, ⟨49, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_call1_v0 : Ref sig .tc := ⟨.hbm, 53, rfl⟩
abbrev main_call1_v1 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52_0 : Ref sig .tc := ⟨.hbm, 76, rfl⟩
abbrev main_v52_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg7_1 : Ref sig .tc := ⟨.vmem, 22, rfl⟩
abbrev cc2_stg8_0 : Ref sig .tc := ⟨.vmem, 23, rfl⟩
abbrev cc2_stg8_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc5_stg4_0 : Ref sig .tc := ⟨.vmem, 41, rfl⟩
abbrev cc5_stg4_1 : Ref sig .tc := ⟨.vmem, 42, rfl⟩
abbrev cc5_stg5_0 : Ref sig .tc := ⟨.vmem, 43, rfl⟩
abbrev cc5_stg5_1 : Ref sig .tc := ⟨.vmem, 44, rfl⟩
abbrev cc5_stg6_0 : Ref sig .tc := ⟨.vmem, 45, rfl⟩
abbrev cc5_stg7_0 : Ref sig .tc := ⟨.vmem, 46, rfl⟩
abbrev cc5_stg7_1 : Ref sig .tc := ⟨.vmem, 47, rfl⟩
abbrev cc5_stg8_0 : Ref sig .tc := ⟨.vmem, 48, rfl⟩
abbrev cc5_stg8_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem5_1 : DmaSem sig := 19
abbrev cc2_sem6_0 : DmaSem sig := 20
abbrev cc2_sem7_0 : DmaSem sig := 21
abbrev cc2_sem7_1 : DmaSem sig := 22
abbrev cc2_sem8_0 : DmaSem sig := 23
abbrev cc2_sem8_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem3_1 : DmaSem sig := 40
abbrev cc5_sem4_0 : DmaSem sig := 41
abbrev cc5_sem4_1 : DmaSem sig := 42
abbrev cc5_sem5_0 : DmaSem sig := 43
abbrev cc5_sem5_1 : DmaSem sig := 44
abbrev cc5_sem6_0 : DmaSem sig := 45
abbrev cc5_sem7_0 : DmaSem sig := 46
abbrev cc5_sem7_1 : DmaSem sig := 47
abbrev cc5_sem8_0 : DmaSem sig := 48
abbrev cc5_sem8_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x10000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10000x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S400x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S400x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S10000x256 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S400x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S400x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S400x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S400x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S400x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000x10000 : S_.BroadcastsInDim S10000x10000 (![] : Fin 0 → Fin S10000x10000.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  inb_S200x10000_S200x10000_0_0 : ∀ a, (![0, 0] : Fin 2 → Nat) a + S200x10000.size a ≤ S200x10000.size a
  h_S200x10000 : 0 < S200x10000.numel
  shapeCasts_S200x10000_S200x10000 : S200x10000.ShapeCasts S200x10000
  bitsLt_bf16_f32 : FTy.bits .bf16 < FTy.bits .f32
  reduces_S200x10000_S200 : S200x10000.Reduces [1] S200
  shapeCasts_S200_S200x1 : S200.ShapeCasts S200x1
  inb_S200x1_S200x1_0_0 : ∀ a, (![0, 0] : Fin 2 → Nat) a + S200x1.size a ≤ S200x1.size a
  h_S200x1 : 0 < S200x1.numel
  reduces_S200x10000_S10000 : S200x10000.Reduces [0] S10000
  shapeCasts_S10000_S1x10000 : S10000.ShapeCasts S1x10000
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  bcast_S_S10000x1 : S_.BroadcastsInDim S10000x1 (![] : Fin 0 → Fin S10000x1.rank)
  bcast_S_S1x10000 : S_.BroadcastsInDim S1x10000 (![] : Fin 0 → Fin S1x10000.rank)
  shapeCasts_S1x10000_S10000x1 : S1x10000.ShapeCasts S10000x1
  inb_S1000x256_S1000x256_0_0 : ∀ a, (![0, 0] : Fin 2 → Nat) a + S1000x256.size a ≤ S1000x256.size a
  h_S1000x256 : 0 < S1000x256.numel
  inb_S256x256_S256x256_0_0 : ∀ a, (![0, 0] : Fin 2 → Nat) a + S256x256.size a ≤ S256x256.size a
  h_S256x256 : 0 < S256x256.numel
  bcast_S10000x1_S10000x256_0_1 : S10000x1.BroadcastsInDim S10000x256 (![0, 1] : Fin 2 → Fin S10000x256.rank)
  shapeCasts_S256_S1x256 : S256.ShapeCasts S1x256
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S400x256_S400x256_0_0 : ∀ a, (![0, 0] : Fin 2 → Nat) a + S400x256.size a ≤ S400x256.size a
  h_S400x256 : 0 < S400x256.numel
  shapeCasts_S400x256_S400x256 : S400x256.ShapeCasts S400x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x256 : S400x1.Broadcasts S400x256
  broadcasts_S1x256_S400x256 : S1x256.Broadcasts S400x256
  shapeCasts_S1000x256_S1000x256 : S1000x256.ShapeCasts S1000x256
  scatter_S10000x10000_S320000x2_S320000_n_01_01_1_wf : ScatterDims.WF S10000x10000 S320000x2 S320000 [] [0, 1] [0, 1] 1
  dot_S1000x256_S256x256_S1000x256_1_0_0_1_n_n_wf : DotDims.WF S1000x256 S256x256 S1000x256 [1] [0] [0] [1] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .bf16 = 32 ∨ (Rect.block (s := S10000x10000) S200x10000.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x1.size a ≤ S10000x1.size a
  hwx0_1 : ∀ i : grid0.Coords, EltTy.bits .f32 = 32 ∨ (Rect.block (s := S10000x1) S200x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10000.size a ≤ S1x10000.size a
  hwx0_2 : ∀ i : grid0.Coords, EltTy.bits .f32 = 32 ∨ (Rect.block (s := S1x10000) S1x10000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S10000x256.size a
  hwx1_2 : ∀ i : grid1.Coords, EltTy.bits .f32 = 32 ∨ (Rect.block (s := S10000x256) S1000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x256.size a ≤ S10000x256.size a
  hwx2_2 : ∀ i : grid2.Coords, EltTy.bits .bf16 = 32 ∨ (Rect.block (s := S10000x256) S10000x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x1.size a ≤ S10000x1.size a
  hwx2_3 : ∀ i : grid2.Coords, EltTy.bits .f32 = 32 ∨ (Rect.block (s := S10000x1) S400x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x1.size a ≤ S10000x1.size a
  hwx2_4 : ∀ i : grid2.Coords, EltTy.bits .f32 = 32 ∨ (Rect.block (s := S10000x1) S400x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x256.size a ≤ S10000x256.size a
  hwx2_5 : ∀ i : grid2.Coords, EltTy.bits .f32 = 32 ∨ (Rect.block (s := S10000x256) S400x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S400x256.size a ≤ S10000x256.size a
  hwx2_7 : ∀ i : grid2.Coords, EltTy.bits .f32 = 32 ∨ (Rect.block (s := S10000x256) S400x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S400x256.size a ≤ S10000x256.size a
  hwx2_8 : ∀ i : grid2.Coords, EltTy.bits .f32 = 32 ∨ (Rect.block (s := S10000x256) S400x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S10000x256.size a
  hwx3_0 : ∀ i : grid3.Coords, EltTy.bits .f32 = 32 ∨ (Rect.block (s := S10000x256) S1000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x256.size a ≤ S10000x256.size a
  hwx3_2 : ∀ i : grid3.Coords, EltTy.bits .f32 = 32 ∨ (Rect.block (s := S10000x256) S1000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S10000x256.size a
  hwx4_0 : ∀ i : grid4.Coords, EltTy.bits .f32 = 32 ∨ (Rect.block (s := S10000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x256.size a ≤ S10000x256.size a
  hwx4_2 : ∀ i : grid4.Coords, EltTy.bits .f32 = 32 ∨ (Rect.block (s := S10000x256) S1000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .bf16 = 32 ∨ (Rect.block (s := S10000x10000) S400x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x256.size a ≤ S10000x256.size a
  hwx5_1 : ∀ i : grid5.Coords, EltTy.bits .bf16 = 32 ∨ (Rect.block (s := S10000x256) S10000x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S10000x256.size a ≤ S10000x256.size a
  hwx5_2 : ∀ i : grid5.Coords, EltTy.bits .bf16 = 32 ∨ (Rect.block (s := S10000x256) S10000x256.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x1.size a ≤ S10000x1.size a
  hwx5_3 : ∀ i : grid5.Coords, EltTy.bits .f32 = 32 ∨ (Rect.block (s := S10000x1) S400x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S400x1.size a ≤ S10000x1.size a
  hwx5_4 : ∀ i : grid5.Coords, EltTy.bits .f32 = 32 ∨ (Rect.block (s := S10000x1) S400x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S400x256.size a ≤ S10000x256.size a
  hwx5_5 : ∀ i : grid5.Coords, EltTy.bits .f32 = 32 ∨ (Rect.block (s := S10000x256) S400x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S400x256.size a ≤ S10000x256.size a
  hwx5_7 : ∀ i : grid5.Coords, EltTy.bits .f32 = 32 ∨ (Rect.block (s := S10000x256) S400x256.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S400x256.size a ≤ S10000x256.size a
  hwx5_8 : ∀ i : grid5.Coords, EltTy.bits .f32 = 32 ∨ (Rect.block (s := S10000x256) S400x256.size (cc5_transform_8 i) (hinb5_8 i)).WholeWords (EltTy.packing .f32)

variable [Facts₀]

def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_v19) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20_0) S200x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20_1) S1x10000.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S10000x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S400x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v33) S400x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v34) S400x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v41) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42_0) S400x256.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v42_1) S400x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v42_0) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v42_1) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44) S1000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v19) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v47) S10000x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v50) S10000x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v26) S400x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v33) S400x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v43) S400x256.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v51) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v52_0) S400x256.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v52_1) S400x256.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S10000x10000 : Shape := ⟨2, ![10000, 10000]⟩
abbrev S320000x1 : Shape := ⟨2, ![320000, 1]⟩
abbrev S320000x2 : Shape := ⟨2, ![320000, 2]⟩
abbrev S10000 : Shape := ⟨1, ![10000]⟩
abbrev S10000x1 : Shape := ⟨2, ![10000, 1]⟩
abbrev S1x10000 : Shape := ⟨2, ![1, 10000]⟩
abbrev S1x256 : Shape := ⟨2, ![1, 256]⟩

abbrev nBuf : Space → Nat
  | .hbm => 104
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .f32⟩
  | .hbm, ⟨11, _⟩ => ⟨S10000x10000, .f32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x1, .i32⟩
  | .hbm, ⟨28, _⟩ => ⟨S320000x2, .i32⟩
  | .hbm, ⟨29, _⟩ => ⟨S_, .f32⟩
  | .hbm, ⟨30, _⟩ => ⟨S320000, .f32⟩
  | .hbm, ⟨31, _⟩ => ⟨S10000x10000, .f32⟩
  | .hbm, ⟨32, _⟩ => ⟨S_, .f32⟩
  | .hbm, ⟨33, _⟩ => ⟨S10000, .f32⟩
  | .hbm, ⟨34, _⟩ => ⟨S_, .f32⟩
  | .hbm, ⟨35, _⟩ => ⟨S10000, .f32⟩
  | .hbm, ⟨36, _⟩ => ⟨S10000, .i1⟩
  | .hbm, ⟨37, _⟩ => ⟨S_, .f32⟩
  | .hbm, ⟨38, _⟩ => ⟨S10000, .f32⟩
  | .hbm, ⟨39, _⟩ => ⟨S10000, .f32⟩
  | .hbm, ⟨40, _⟩ => ⟨S10000, .f32⟩
  | .hbm, ⟨41, _⟩ => ⟨S_, .f32⟩
  | .hbm, ⟨42, _⟩ => ⟨S_, .f32⟩
  | .hbm, ⟨43, _⟩ => ⟨S10000, .f32⟩
  | .hbm, ⟨44, _⟩ => ⟨S10000, .f32⟩
  | .hbm, ⟨45, _⟩ => ⟨S10000x1, .f32⟩
  | .hbm, ⟨46, _⟩ => ⟨S10000x10000, .f32⟩
  | .hbm, ⟨47, _⟩ => ⟨S10000x10000, .f32⟩
  | .hbm, ⟨48, _⟩ => ⟨S1x10000, .f32⟩
  | .hbm, ⟨49, _⟩ => ⟨S10000x10000, .f32⟩
  | .hbm, ⟨50, _⟩ => ⟨S10000x10000, .f32⟩
  | .hbm, ⟨51, _⟩ => ⟨S_, .f32⟩
  | .hbm, ⟨52, _⟩ => ⟨S10000, .f32⟩
  | .hbm, ⟨53, _⟩ => ⟨S_, .f32⟩
  | .hbm, ⟨54, _⟩ => ⟨S10000, .f32⟩
  | .hbm, ⟨55, _⟩ => ⟨S10000, .i1⟩
  | .hbm, ⟨56, _⟩ => ⟨S_, .f32⟩
  | .hbm, ⟨57, _⟩ => ⟨S10000, .f32⟩
  | .hbm, ⟨58, _⟩ => ⟨S10000, .f32⟩
  | .hbm, ⟨59, _⟩ => ⟨S10000, .f32⟩
  | .hbm, ⟨60, _⟩ => ⟨S_, .f32⟩
  | .hbm, ⟨61, _⟩ => ⟨S_, .f32⟩
  | .hbm, ⟨62, _⟩ => ⟨S10000, .f32⟩
  | .hbm, ⟨63, _⟩ => ⟨S10000, .f32⟩
  | .hbm, ⟨64, _⟩ => ⟨S10000x10000, .i32⟩
  | .hbm, ⟨65, _⟩ => ⟨S10000x10000, .i32⟩
  | .hbm, ⟨66, _⟩ => ⟨S_, .i32⟩
  | .hbm, ⟨67, _⟩ => ⟨S10000x10000, .i32⟩
  | .hbm, ⟨68, _⟩ => ⟨S10000x10000, .i32⟩
  | .hbm, ⟨69, _⟩ => ⟨S10000x10000, .i1⟩
  | .hbm, ⟨70, _⟩ => ⟨S10000x10000, .f32⟩
  | .hbm, ⟨71, _⟩ => ⟨S10000x1, .f32⟩
  | .hbm, ⟨72, _⟩ => ⟨S10000x10000, .f32⟩
  | .hbm, ⟨73, _⟩ => ⟨S10000x10000, .f32⟩
  | .hbm, ⟨74, _⟩ => ⟨S1x10000, .f32⟩
  | .hbm, ⟨75, _⟩ => ⟨S10000x10000, .f32⟩
  | .hbm, ⟨76, _⟩ => ⟨S10000x10000, .f32⟩
  | .hbm, ⟨77, _⟩ => ⟨S10000x10000, .f32⟩
  | .hbm, ⟨78, _⟩ => ⟨S10000x256, .f32⟩
  | .hbm, ⟨79, _⟩ => ⟨S10000x256, .f32⟩
  | .hbm, ⟨80, _⟩ => ⟨S1x256, .f32⟩
  | .hbm, ⟨81, _⟩ => ⟨S10000x256, .f32⟩
  | .hbm, ⟨82, _⟩ => ⟨S10000x256, .f32⟩
  | .hbm, ⟨83, _⟩ => ⟨S_, .f32⟩
  | .hbm, ⟨84, _⟩ => ⟨S10000x256, .f32⟩
  | .hbm, ⟨85, _⟩ => ⟨S10000x256, .f32⟩
  | .hbm, ⟨86, _⟩ => ⟨S10000x256, .f32⟩
  | .hbm, ⟨87, _⟩ => ⟨S10000x256, .f32⟩
  | .hbm, ⟨88, _⟩ => ⟨S1x256, .f32⟩
  | .hbm, ⟨89, _⟩ => ⟨S10000x256, .f32⟩
  | .hbm, ⟨90, _⟩ => ⟨S10000x256, .f32⟩
  | .hbm, ⟨91, _⟩ => ⟨S10000x256, .f32⟩
  | .hbm, ⟨92, _⟩ => ⟨S10000x256, .f32⟩
  | .hbm, ⟨93, _⟩ => ⟨S1x256, .f32⟩
  | .hbm, ⟨94, _⟩ => ⟨S10000x256, .f32⟩
  | .hbm, ⟨95, _⟩ => ⟨S10000x256, .f32⟩
  | .hbm, ⟨96, _⟩ => ⟨S_, .f32⟩
  | .hbm, ⟨97, _⟩ => ⟨S10000x256, .f32⟩
  | .hbm, ⟨98, _⟩ => ⟨S10000x256, .f32⟩
  | .hbm, ⟨99, _⟩ => ⟨S10000x256, .f32⟩
  | .hbm, ⟨100, _⟩ => ⟨S10000x256, .f32⟩
  | .hbm, ⟨101, _⟩ => ⟨S1x256, .f32⟩
  | .hbm, ⟨102, _⟩ => ⟨S10000x256, .f32⟩
  | .hbm, ⟨103, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_call0_v0 : Ref sig .tc := ⟨.hbm, 42, rfl⟩
abbrev main_call0_v1 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_call1_v0 : Ref sig .tc := ⟨.hbm, 61, rfl⟩
abbrev main_call1_v1 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_12 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call2_cst : Ref sig .tc := ⟨.hbm, 83, rfl⟩
abbrev main_call2_v0 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call3_cst : Ref sig .tc := ⟨.hbm, 96, rfl⟩
abbrev main_call3_v0 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000x10000 : S_.BroadcastsInDim S10000x10000 (![] : Fin 0 → Fin S10000x10000.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  reducesTo_S10000x10000_S10000_d0 : S10000x10000.ReducesTo [0] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10000_0_1 : S10000x1.BroadcastsInDim S10000x10000 (![0, 1] : Fin 2 → Fin S10000x10000.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  reducesTo_S10000x10000_S10000_d1 : S10000x10000.ReducesTo [1] S10000
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  scatter_S10000x10000_S320000x2_S320000_n_01_01_1_wf : ScatterDims.WF S10000x10000 S320000x2 S320000 [] [0, 1] [0, 1] 1
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.KerRun.lean ====
/-
  The idealized kernel program's run with its results named. Every weakly fair execution of its @main terminates without a
  fault; in the final state each of the two result buffers holds what the last region's pipeline leaves in its output
  array — the contents of the buffers at the last segment boundary, the fold of the host stretches and the regions'
  write-backs from the launch memory — and each argument holds what it was launched with. The launch over the segments is
  the one that proves the frame; only what is read off the last boundary differs: here the two results as well.
-/
import proofs.«165336_j42056319762462_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the results: the second result buffer `main_v52_1` and the first `main_v52_0` end at the last boundary's
    contents `W14`, the arguments as launched. -/
theorem run_results : θ_run defs (onTc (τ := τ) (main (F := F))) ⟨m, fun _ => 0, ρ⟩ (fun r => ∀ c : Dev nD,
      r.2.mem ((c.tc : Thread nD τ).loc main_v52_1) = W14 m ρ c (Proc.devRef .tc main_v52_1)
      ∧ r.2.mem ((c.tc : Thread nD τ).loc main_v52_0) = W14 m ρ c (Proc.devRef .tc main_v52_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v52_1 (by decide)),
       h c _ (mem_uc main_v52_0 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.KernelIdeal.Gen

end
-- ==== Proof.KerWalk.lean ====
/-
  Buffers that a stretch of host operations or a kernel region leaves alone, followed through the idealized kernel program's
  segment boundaries. The contents `Wk` at boundary `k` are a fold from the launch memory: a host stretch rewrites only the
  buffers its operations name, and a region rewrites only its output arrays — an array it reads through an input window ends
  as it was found, and a buffer that is none of its arrays is untouched. Each lemma here says that one buffer at a later
  boundary still holds what it held at an earlier one (or, for an argument, what it was launched with): the composition of
  one such step per segment in between.
-/
import proofs.«165336_j42056319762462_2_alg».proof.Proof.Gen.KernelIdeal.Frame
import Idealize.ShloMosaic.Lib.StableHlo.Run
import Idealize.ShloMosaic.PureOps.Ideal

set_option maxRecDepth 16384

noncomputable section

namespace Cert.KernelIdeal.Walk

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-- A stretch of host operations none of which writes the buffer leaves it as it was: every operation of the stretch
    names the one buffer it writes, and that buffer is another one. -/
macro "host_skip" : tactic => `(tactic| exact StableHlo.after_of_forall_not_mem _ _ (List.forall_iff_forall_mem.mp (by
  simp only [hostOps0, hostOps1, hostOps1_1, hostOps1_2, hostOps1_3, hostOps1_4, hostOps2, hostOps5, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide))))

/-! ## Intermediate buffers between the boundary that writes them and the boundary that reads them -/

theorem keep_v19_9_1 : W9 (F := Ideal) m ρ c (Proc.devRef .tc main_v19) = W1 (F := Ideal) m ρ c (Proc.devRef .tc main_v19) := by
  have h9 : W9 (F := Ideal) m ρ c (Proc.devRef .tc main_v19) = W8 (F := Ideal) m ρ c (Proc.devRef .tc main_v19) := by host_skip
  have h8 : W8 (F := Ideal) m ρ c (Proc.devRef .tc main_v19) = W7 (F := Ideal) m ρ c (Proc.devRef .tc main_v19) := W8_of_ne m ρ c main_v19 (by decide)
  have h7 : W7 (F := Ideal) m ρ c (Proc.devRef .tc main_v19) = W6 (F := Ideal) m ρ c (Proc.devRef .tc main_v19) := by host_skip
  have h6 : W6 (F := Ideal) m ρ c (Proc.devRef .tc main_v19) = W5 (F := Ideal) m ρ c (Proc.devRef .tc main_v19) := by host_skip
  have h5 : W5 (F := Ideal) m ρ c (Proc.devRef .tc main_v19) = W4 (F := Ideal) m ρ c (Proc.devRef .tc main_v19) := by host_skip
  have h4 : W4 (F := Ideal) m ρ c (Proc.devRef .tc main_v19) = W3 (F := Ideal) m ρ c (Proc.devRef .tc main_v19) := by host_skip
  have h3 : W3 (F := Ideal) m ρ c (Proc.devRef .tc main_v19) = W2 (F := Ideal) m ρ c (Proc.devRef .tc main_v19) := by host_skip
  have h2 : W2 (F := Ideal) m ρ c (Proc.devRef .tc main_v19) = W1 (F := Ideal) m ρ c (Proc.devRef .tc main_v19) := (W2_arr m ρ c 0).trans (((dat0 (V1 m ρ) c).arrAt_in 0 rfl _).trans (A_eq0 (V1 m ρ) c 0))
  exact h9.trans (h8.trans (h7.trans (h6.trans (h5.trans (h4.trans (h3.trans (h2)))))))

theorem keep_v19_13_9 : W13 (F := Ideal) m ρ c (Proc.devRef .tc main_v19) = W9 (F := Ideal) m ρ c (Proc.devRef .tc main_v19) := by
  have h13 : W13 (F := Ideal) m ρ c (Proc.devRef .tc main_v19) = W12 (F := Ideal) m ρ c (Proc.devRef .tc main_v19) := by host_skip
  have h12 : W12 (F := Ideal) m ρ c (Proc.devRef .tc main_v19) = W11 (F := Ideal) m ρ c (Proc.devRef .tc main_v19) := W12_of_ne m ρ c main_v19 (by decide)
  have h11 : W11 (F := Ideal) m ρ c (Proc.devRef .tc main_v19) = W10 (F := Ideal) m ρ c (Proc.devRef .tc main_v19) := W11_of_ne m ρ c main_v19 (by decide)
  have h10 : W10 (F := Ideal) m ρ c (Proc.devRef .tc main_v19) = W9 (F := Ideal) m ρ c (Proc.devRef .tc main_v19) := (W10_arr m ρ c 0).trans (((dat2 (V9 m ρ) c).arrAt_in 0 rfl _).trans (A_eq2 (V9 m ρ) c 0))
  exact h13.trans (h12.trans (h11.trans (h10)))

theorem keep_v20_1_4_2 : W4 (F := Ideal) m ρ c (Proc.devRef .tc main_v20_1) = W2 (F := Ideal) m ρ c (Proc.devRef .tc main_v20_1) := by
  have h4 : W4 (F := Ideal) m ρ c (Proc.devRef .tc main_v20_1) = W3 (F := Ideal) m ρ c (Proc.devRef .tc main_v20_1) := by host_skip
  have h3 : W3 (F := Ideal) m ρ c (Proc.devRef .tc main_v20_1) = W2 (F := Ideal) m ρ c (Proc.devRef .tc main_v20_1) := by host_skip
  exact h4.trans (h3)

theorem keep_v26_8_4 : W8 (F := Ideal) m ρ c (Proc.devRef .tc main_v26) = W4 (F := Ideal) m ρ c (Proc.devRef .tc main_v26) := by
  have h8 : W8 (F := Ideal) m ρ c (Proc.devRef .tc main_v26) = W7 (F := Ideal) m ρ c (Proc.devRef .tc main_v26) := W8_of_ne m ρ c main_v26 (by decide)
  have h7 : W7 (F := Ideal) m ρ c (Proc.devRef .tc main_v26) = W6 (F := Ideal) m ρ c (Proc.devRef .tc main_v26) := by host_skip
  have h6 : W6 (F := Ideal) m ρ c (Proc.devRef .tc main_v26) = W5 (F := Ideal) m ρ c (Proc.devRef .tc main_v26) := by host_skip
  have h5 : W5 (F := Ideal) m ρ c (Proc.devRef .tc main_v26) = W4 (F := Ideal) m ρ c (Proc.devRef .tc main_v26) := by host_skip
  exact h8.trans (h7.trans (h6.trans (h5)))

theorem keep_v26_9_8 : W9 (F := Ideal) m ρ c (Proc.devRef .tc main_v26) = W8 (F := Ideal) m ρ c (Proc.devRef .tc main_v26) := by
  have h9 : W9 (F := Ideal) m ρ c (Proc.devRef .tc main_v26) = W8 (F := Ideal) m ρ c (Proc.devRef .tc main_v26) := by host_skip
  exact h9

theorem keep_v26_12_9 : W12 (F := Ideal) m ρ c (Proc.devRef .tc main_v26) = W9 (F := Ideal) m ρ c (Proc.devRef .tc main_v26) := by
  have h12 : W12 (F := Ideal) m ρ c (Proc.devRef .tc main_v26) = W11 (F := Ideal) m ρ c (Proc.devRef .tc main_v26) := W12_of_ne m ρ c main_v26 (by decide)
  have h11 : W11 (F := Ideal) m ρ c (Proc.devRef .tc main_v26) = W10 (F := Ideal) m ρ c (Proc.devRef .tc main_v26) := W11_of_ne m ρ c main_v26 (by decide)
  have h10 : W10 (F := Ideal) m ρ c (Proc.devRef .tc main_v26) = W9 (F := Ideal) m ρ c (Proc.devRef .tc main_v26) := (W10_arr m ρ c 3).trans (((dat2 (V9 m ρ) c).arrAt_in 3 rfl _).trans (A_eq2 (V9 m ρ) c 3))
  exact h12.trans (h11.trans (h10))

theorem keep_v26_13_12 : W13 (F := Ideal) m ρ c (Proc.devRef .tc main_v26) = W12 (F := Ideal) m ρ c (Proc.devRef .tc main_v26) := by
  have h13 : W13 (F := Ideal) m ρ c (Proc.devRef .tc main_v26) = W12 (F := Ideal) m ρ c (Proc.devRef .tc main_v26) := by host_skip
  exact h13

theorem keep_v33_8_7 : W8 (F := Ideal) m ρ c (Proc.devRef .tc main_v33) = W7 (F := Ideal) m ρ c (Proc.devRef .tc main_v33) := by
  have h8 : W8 (F := Ideal) m ρ c (Proc.devRef .tc main_v33) = W7 (F := Ideal) m ρ c (Proc.devRef .tc main_v33) := W8_of_ne m ρ c main_v33 (by decide)
  exact h8

theorem keep_v33_9_8 : W9 (F := Ideal) m ρ c (Proc.devRef .tc main_v33) = W8 (F := Ideal) m ρ c (Proc.devRef .tc main_v33) := by
  have h9 : W9 (F := Ideal) m ρ c (Proc.devRef .tc main_v33) = W8 (F := Ideal) m ρ c (Proc.devRef .tc main_v33) := by host_skip
  exact h9

theorem keep_v33_12_9 : W12 (F := Ideal) m ρ c (Proc.devRef .tc main_v33) = W9 (F := Ideal) m ρ c (Proc.devRef .tc main_v33) := by
  have h12 : W12 (F := Ideal) m ρ c (Proc.devRef .tc main_v33) = W11 (F := Ideal) m ρ c (Proc.devRef .tc main_v33) := W12_of_ne m ρ c main_v33 (by decide)
  have h11 : W11 (F := Ideal) m ρ c (Proc.devRef .tc main_v33) = W10 (F := Ideal) m ρ c (Proc.devRef .tc main_v33) := W11_of_ne m ρ c main_v33 (by decide)
  have h10 : W10 (F := Ideal) m ρ c (Proc.devRef .tc main_v33) = W9 (F := Ideal) m ρ c (Proc.devRef .tc main_v33) := (W10_arr m ρ c 4).trans (((dat2 (V9 m ρ) c).arrAt_in 4 rfl _).trans (A_eq2 (V9 m ρ) c 4))
  exact h12.trans (h11.trans (h10))

theorem keep_v33_13_12 : W13 (F := Ideal) m ρ c (Proc.devRef .tc main_v33) = W12 (F := Ideal) m ρ c (Proc.devRef .tc main_v33) := by
  have h13 : W13 (F := Ideal) m ρ c (Proc.devRef .tc main_v33) = W12 (F := Ideal) m ρ c (Proc.devRef .tc main_v33) := by host_skip
  exact h13

theorem keep_v34_9_8 : W9 (F := Ideal) m ρ c (Proc.devRef .tc main_v34) = W8 (F := Ideal) m ρ c (Proc.devRef .tc main_v34) := by
  have h9 : W9 (F := Ideal) m ρ c (Proc.devRef .tc main_v34) = W8 (F := Ideal) m ρ c (Proc.devRef .tc main_v34) := by host_skip
  exact h9

theorem keep_v42_1_11_10 : W11 (F := Ideal) m ρ c (Proc.devRef .tc main_v42_1) = W10 (F := Ideal) m ρ c (Proc.devRef .tc main_v42_1) := by
  have h11 : W11 (F := Ideal) m ρ c (Proc.devRef .tc main_v42_1) = W10 (F := Ideal) m ρ c (Proc.devRef .tc main_v42_1) := W11_of_ne m ρ c main_v42_1 (by decide)
  exact h11

theorem keep_v43_12_11 : W12 (F := Ideal) m ρ c (Proc.devRef .tc main_v43) = W11 (F := Ideal) m ρ c (Proc.devRef .tc main_v43) := by
  have h12 : W12 (F := Ideal) m ρ c (Proc.devRef .tc main_v43) = W11 (F := Ideal) m ρ c (Proc.devRef .tc main_v43) := W12_of_ne m ρ c main_v43 (by decide)
  exact h12

theorem keep_v43_13_12 : W13 (F := Ideal) m ρ c (Proc.devRef .tc main_v43) = W12 (F := Ideal) m ρ c (Proc.devRef .tc main_v43) := by
  have h13 : W13 (F := Ideal) m ρ c (Proc.devRef .tc main_v43) = W12 (F := Ideal) m ρ c (Proc.devRef .tc main_v43) := by host_skip
  exact h13

theorem keep_arg4_11_10 : W11 (F := Ideal) m ρ c (Proc.devRef .tc main_arg4) = W10 (F := Ideal) m ρ c (Proc.devRef .tc main_arg4) := by
  have h11 : W11 (F := Ideal) m ρ c (Proc.devRef .tc main_arg4) = W10 (F := Ideal) m ρ c (Proc.devRef .tc main_arg4) := (W11_arr m ρ c 1).trans (((dat3 (V10 m ρ) c).arrAt_in 1 rfl _).trans (A_eq3 (V10 m ρ) c 1))
  exact h11

/-! ## The arguments, as launched, at the boundaries where a region or a host operation reads them -/

theorem at_arg0_7 : W7 (F := Ideal) m ρ c (Proc.devRef .tc main_arg0) = m ((c.tc : Thread nD τ).loc main_arg0) := by
  have h7 : W7 (F := Ideal) m ρ c (Proc.devRef .tc main_arg0) = W6 (F := Ideal) m ρ c (Proc.devRef .tc main_arg0) := by host_skip
  have h6 : W6 (F := Ideal) m ρ c (Proc.devRef .tc main_arg0) = W5 (F := Ideal) m ρ c (Proc.devRef .tc main_arg0) := by host_skip
  have h5 : W5 (F := Ideal) m ρ c (Proc.devRef .tc main_arg0) = W4 (F := Ideal) m ρ c (Proc.devRef .tc main_arg0) := by host_skip
  have h4 : W4 (F := Ideal) m ρ c (Proc.devRef .tc main_arg0) = W3 (F := Ideal) m ρ c (Proc.devRef .tc main_arg0) := by host_skip
  have h3 : W3 (F := Ideal) m ρ c (Proc.devRef .tc main_arg0) = W2 (F := Ideal) m ρ c (Proc.devRef .tc main_arg0) := by host_skip
  have h2 : W2 (F := Ideal) m ρ c (Proc.devRef .tc main_arg0) = W1 (F := Ideal) m ρ c (Proc.devRef .tc main_arg0) := W2_of_ne m ρ c main_arg0 (by decide)
  have h1 : W1 (F := Ideal) m ρ c (Proc.devRef .tc main_arg0) = W0 (F := Ideal) m ρ c (Proc.devRef .tc main_arg0) := by host_skip
  exact (h7.trans (h6.trans (h5.trans (h4.trans (h3.trans (h2.trans (h1))))))).trans rfl

theorem at_arg2_7 : W7 (F := Ideal) m ρ c (Proc.devRef .tc main_arg2) = m ((c.tc : Thread nD τ).loc main_arg2) := by
  have h7 : W7 (F := Ideal) m ρ c (Proc.devRef .tc main_arg2) = W6 (F := Ideal) m ρ c (Proc.devRef .tc main_arg2) := by host_skip
  have h6 : W6 (F := Ideal) m ρ c (Proc.devRef .tc main_arg2) = W5 (F := Ideal) m ρ c (Proc.devRef .tc main_arg2) := by host_skip
  have h5 : W5 (F := Ideal) m ρ c (Proc.devRef .tc main_arg2) = W4 (F := Ideal) m ρ c (Proc.devRef .tc main_arg2) := by host_skip
  have h4 : W4 (F := Ideal) m ρ c (Proc.devRef .tc main_arg2) = W3 (F := Ideal) m ρ c (Proc.devRef .tc main_arg2) := by host_skip
  have h3 : W3 (F := Ideal) m ρ c (Proc.devRef .tc main_arg2) = W2 (F := Ideal) m ρ c (Proc.devRef .tc main_arg2) := by host_skip
  have h2 : W2 (F := Ideal) m ρ c (Proc.devRef .tc main_arg2) = W1 (F := Ideal) m ρ c (Proc.devRef .tc main_arg2) := W2_of_ne m ρ c main_arg2 (by decide)
  have h1 : W1 (F := Ideal) m ρ c (Proc.devRef .tc main_arg2) = W0 (F := Ideal) m ρ c (Proc.devRef .tc main_arg2) := by host_skip
  exact (h7.trans (h6.trans (h5.trans (h4.trans (h3.trans (h2.trans (h1))))))).trans rfl

theorem at_arg3_8 : W8 (F := Ideal) m ρ c (Proc.devRef .tc main_arg3) = m ((c.tc : Thread nD τ).loc main_arg3) := by
  have h8 : W8 (F := Ideal) m ρ c (Proc.devRef .tc main_arg3) = W7 (F := Ideal) m ρ c (Proc.devRef .tc main_arg3) := W8_of_ne m ρ c main_arg3 (by decide)
  have h7 : W7 (F := Ideal) m ρ c (Proc.devRef .tc main_arg3) = W6 (F := Ideal) m ρ c (Proc.devRef .tc main_arg3) := by host_skip
  have h6 : W6 (F := Ideal) m ρ c (Proc.devRef .tc main_arg3) = W5 (F := Ideal) m ρ c (Proc.devRef .tc main_arg3) := by host_skip
  have h5 : W5 (F := Ideal) m ρ c (Proc.devRef .tc main_arg3) = W4 (F := Ideal) m ρ c (Proc.devRef .tc main_arg3) := by host_skip
  have h4 : W4 (F := Ideal) m ρ c (Proc.devRef .tc main_arg3) = W3 (F := Ideal) m ρ c (Proc.devRef .tc main_arg3) := by host_skip
  have h3 : W3 (F := Ideal) m ρ c (Proc.devRef .tc main_arg3) = W2 (F := Ideal) m ρ c (Proc.devRef .tc main_arg3) := by host_skip
  have h2 : W2 (F := Ideal) m ρ c (Proc.devRef .tc main_arg3) = W1 (F := Ideal) m ρ c (Proc.devRef .tc main_arg3) := W2_of_ne m ρ c main_arg3 (by decide)
  have h1 : W1 (F := Ideal) m ρ c (Proc.devRef .tc main_arg3) = W0 (F := Ideal) m ρ c (Proc.devRef .tc main_arg3) := by host_skip
  exact (h8.trans (h7.trans (h6.trans (h5.trans (h4.trans (h3.trans (h2.trans (h1)))))))).trans rfl

theorem at_arg4_10 : W10 (F := Ideal) m ρ c (Proc.devRef .tc main_arg4) = m ((c.tc : Thread nD τ).loc main_arg4) := by
  have h10 : W10 (F := Ideal) m ρ c (Proc.devRef .tc main_arg4) = W9 (F := Ideal) m ρ c (Proc.devRef .tc main_arg4) := W10_of_ne m ρ c main_arg4 (by decide)
  have h9 : W9 (F := Ideal) m ρ c (Proc.devRef .tc main_arg4) = W8 (F := Ideal) m ρ c (Proc.devRef .tc main_arg4) := by host_skip
  have h8 : W8 (F := Ideal) m ρ c (Proc.devRef .tc main_arg4) = W7 (F := Ideal) m ρ c (Proc.devRef .tc main_arg4) := W8_of_ne m ρ c main_arg4 (by decide)
  have h7 : W7 (F := Ideal) m ρ c (Proc.devRef .tc main_arg4) = W6 (F := Ideal) m ρ c (Proc.devRef .tc main_arg4) := by host_skip
  have h6 : W6 (F := Ideal) m ρ c (Proc.devRef .tc main_arg4) = W5 (F := Ideal) m ρ c (Proc.devRef .tc main_arg4) := by host_skip
  have h5 : W5 (F := Ideal) m ρ c (Proc.devRef .tc main_arg4) = W4 (F := Ideal) m ρ c (Proc.devRef .tc main_arg4) := by host_skip
  have h4 : W4 (F := Ideal) m ρ c (Proc.devRef .tc main_arg4) = W3 (F := Ideal) m ρ c (Proc.devRef .tc main_arg4) := by host_skip
  have h3 : W3 (F := Ideal) m ρ c (Proc.devRef .tc main_arg4) = W2 (F := Ideal) m ρ c (Proc.devRef .tc main_arg4) := by host_skip
  have h2 : W2 (F := Ideal) m ρ c (Proc.devRef .tc main_arg4) = W1 (F := Ideal) m ρ c (Proc.devRef .tc main_arg4) := W2_of_ne m ρ c main_arg4 (by decide)
  have h1 : W1 (F := Ideal) m ρ c (Proc.devRef .tc main_arg4) = W0 (F := Ideal) m ρ c (Proc.devRef .tc main_arg4) := by host_skip
  exact (h10.trans (h9.trans (h8.trans (h7.trans (h6.trans (h5.trans (h4.trans (h3.trans (h2.trans (h1)))))))))).trans rfl

theorem at_arg5_12 : W12 (F := Ideal) m ρ c (Proc.devRef .tc main_arg5) = m ((c.tc : Thread nD τ).loc main_arg5) := by
  have h12 : W12 (F := Ideal) m ρ c (Proc.devRef .tc main_arg5) = W11 (F := Ideal) m ρ c (Proc.devRef .tc main_arg5) := W12_of_ne m ρ c main_arg5 (by decide)
  have h11 : W11 (F := Ideal) m ρ c (Proc.devRef .tc main_arg5) = W10 (F := Ideal) m ρ c (Proc.devRef .tc main_arg5) := W11_of_ne m ρ c main_arg5 (by decide)
  have h10 : W10 (F := Ideal) m ρ c (Proc.devRef .tc main_arg5) = W9 (F := Ideal) m ρ c (Proc.devRef .tc main_arg5) := W10_of_ne m ρ c main_arg5 (by decide)
  have h9 : W9 (F := Ideal) m ρ c (Proc.devRef .tc main_arg5) = W8 (F := Ideal) m ρ c (Proc.devRef .tc main_arg5) := by host_skip
  have h8 : W8 (F := Ideal) m ρ c (Proc.devRef .tc main_arg5) = W7 (F := Ideal) m ρ c (Proc.devRef .tc main_arg5) := W8_of_ne m ρ c main_arg5 (by decide)
  have h7 : W7 (F := Ideal) m ρ c (Proc.devRef .tc main_arg5) = W6 (F := Ideal) m ρ c (Proc.devRef .tc main_arg5) := by host_skip
  have h6 : W6 (F := Ideal) m ρ c (Proc.devRef .tc main_arg5) = W5 (F := Ideal) m ρ c (Proc.devRef .tc main_arg5) := by host_skip
  have h5 : W5 (F := Ideal) m ρ c (Proc.devRef .tc main_arg5) = W4 (F := Ideal) m ρ c (Proc.devRef .tc main_arg5) := by host_skip
  have h4 : W4 (F := Ideal) m ρ c (Proc.devRef .tc main_arg5) = W3 (F := Ideal) m ρ c (Proc.devRef .tc main_arg5) := by host_skip
  have h3 : W3 (F := Ideal) m ρ c (Proc.devRef .tc main_arg5) = W2 (F := Ideal) m ρ c (Proc.devRef .tc main_arg5) := by host_skip
  have h2 : W2 (F := Ideal) m ρ c (Proc.devRef .tc main_arg5) = W1 (F := Ideal) m ρ c (Proc.devRef .tc main_arg5) := W2_of_ne m ρ c main_arg5 (by decide)
  have h1 : W1 (F := Ideal) m ρ c (Proc.devRef .tc main_arg5) = W0 (F := Ideal) m ρ c (Proc.devRef .tc main_arg5) := by host_skip
  exact (h12.trans (h11.trans (h10.trans (h9.trans (h8.trans (h7.trans (h6.trans (h5.trans (h4.trans (h3.trans (h2.trans (h1)))))))))))).trans rfl

end Cert.KernelIdeal.Walk

end
-- ==== Proof.LibBroadcastLayout.lean ====
/-
  Two host broadcasts read at an index given by coordinates: a column `[n, 1]` and a row `[1, d]`, each placed along
  both axes of `[n, d]`. The column's copy reads the column's entry of the same row; the row's copy reads the row's
  entry of the same position in the row.
-/
import Idealize.ShloMosaic.Lib.Pipeline.Value
import Idealize.ShloMosaic.Lib.ValueIdx

namespace Cert.BroadcastLayout

open Idealize.ShloMosaic Idealize.ShloMosaic.ValueIdx

variable {α : Type}

/-- A column `[n, 1]` placed along both axes of `[n, d]` reads, at `(p, q)`, the column's entry of row `p`. -/
theorem broadcastInDim_col_apply {n d : ℕ} (v : (⟨2, ![n, 1]⟩ : Shape).Idx → α)
    (h : (⟨2, ![n, 1]⟩ : Shape).BroadcastsInDim ⟨2, ![n, d]⟩ ![0, 1]) (p : Fin n) (q : Fin d) :
    broadcastInDim ⟨2, ![n, d]⟩ ![0, 1] h v (ix2 p q) = v (ix2 p (0 : Fin 1)) := by
  refine broadcastInDim_apply _ h v (ix2 p q) (ix2 p (0 : Fin 1)) fun a => ?_
  match a with
  | ⟨0, _⟩ =>
    show p.val = if n = 1 then 0 else p.val
    split
    · have := p.isLt; omega
    · rfl
  | ⟨1, _⟩ => rfl

/-- A row `[1, d]` placed along both axes of `[n, d]` reads, at `(p, q)`, the row's entry at `q`. -/
theorem broadcastInDim_row_apply {n d : ℕ} (v : (⟨2, ![1, d]⟩ : Shape).Idx → α)
    (h : (⟨2, ![1, d]⟩ : Shape).BroadcastsInDim ⟨2, ![n, d]⟩ ![0, 1]) (p : Fin n) (q : Fin d) :
    broadcastInDim ⟨2, ![n, d]⟩ ![0, 1] h v (ix2 p q) = v (ix2 (0 : Fin 1) q) := by
  refine broadcastInDim_apply _ h v (ix2 p q) (ix2 (0 : Fin 1) q) fun a => ?_
  match a with
  | ⟨0, _⟩ => rfl
  | ⟨1, _⟩ =>
    show q.val = if d = 1 then 0 else q.val
    split
    · have := q.isLt; omega
    · rfl

end Cert.BroadcastLayout
-- ==== Proof.GcnSpec.lean ====
/-
  A two-layer graph convolution over a dense adjacency, as plain functions of indices on the extended reals.

  `A r c` is the adjacency (row `r`, column `c`), `d` a vector of degree factors, `Y` a feature matrix, `b` a bias.
  One propagation step is written in two arrangements:

  * separated (`propSep`): scale the rows of `Y` by `d`, multiply by the raw adjacency, scale the result's rows by `d`;
  * dense (`lapDense`, `adjDense`): first form the normalised matrix `d r · A r c · d c` (for the Laplacian branch the
    identity minus it), then multiply it by `Y`.

  The Laplacian layer is `Y − propSep` in the first arrangement and `(I − D A D) · Y` in the second; the adjacency layer is
  `propSep` and `(D A D) · Y`. A network is two layers with a rectifier between them, `mm` the feature projections.
  Nothing here mentions a program: the statements that these arrangements agree on finite entries are in GcnLaws.
-/
import Idealize.ShloMosaic.PureOps.Ideal.Laws

noncomputable section

namespace Cert.Gcn

open scoped BigOperators

variable {n k h : ℕ}

/-- An extended real that is a real number. -/
def IsFin (v : EReal) : Prop := ∃ x : ℝ, v = (x : EReal)

/-- The matrix product of `X : [n, k]` and `W : [k, h]`. -/
def mm (X : Fin n → Fin k → EReal) (W : Fin k → Fin h → EReal) (r : Fin n) (j : Fin h) : EReal :=
  ∑ q : Fin k, X r q * W q j

/-- The propagation step, separated: `d r · Σ_c A r c · (d c · Y c j)`. -/
def propSep (A : Fin n → Fin n → EReal) (d : Fin n → EReal) (Y : Fin n → Fin h → EReal) (r : Fin n) (j : Fin h) : EReal :=
  d r * ∑ c : Fin n, A r c * (d c * Y c j)

/-- The Laplacian layer, separated: `Y − propSep`, plus the bias. -/
def lapSep (A : Fin n → Fin n → EReal) (d : Fin n → EReal) (Y : Fin n → Fin h → EReal) (b : Fin h → EReal)
    (r : Fin n) (j : Fin h) : EReal :=
  (Y r j - propSep A d Y r j) + b j

/-- The adjacency layer, separated: `propSep` plus the bias. -/
def adjSep (A : Fin n → Fin n → EReal) (d : Fin n → EReal) (Y : Fin n → Fin h → EReal) (b : Fin h → EReal)
    (r : Fin n) (j : Fin h) : EReal :=
  propSep A d Y r j + b j

/-- The identity matrix. -/
def eye (r c : Fin n) : EReal := if r = c then 1 else 0

/-- The Laplacian layer, dense: `Σ_c (eye r c − d r · A r c · d c) · Y c j`, plus the bias. -/
def lapDense (A : Fin n → Fin n → EReal) (d : Fin n → EReal) (Y : Fin n → Fin h → EReal) (b : Fin h → EReal)
    (r : Fin n) (j : Fin h) : EReal :=
  (∑ c : Fin n, (eye r c - d r * A r c * d c) * Y c j) + b j

/-- The adjacency layer, dense: `Σ_c (d r · A r c · d c) · Y c j`, plus the bias. -/
def adjDense (A : Fin n → Fin n → EReal) (d : Fin n → EReal) (Y : Fin n → Fin h → EReal) (b : Fin h → EReal)
    (r : Fin n) (j : Fin h) : EReal :=
  (∑ c : Fin n, (d r * A r c * d c) * Y c j) + b j

/-- The rectifier, entry by entry. -/
def relu (Z : Fin n → Fin h → EReal) (r : Fin n) (j : Fin h) : EReal := max (Z r j) 0

/-- Two Laplacian layers, separated arrangement. -/
def lapNetSep (A : Fin n → Fin n → EReal) (d : Fin n → EReal) (x : Fin n → Fin k → EReal) (W1 : Fin k → Fin h → EReal)
    (b1 : Fin h → EReal) (W2 : Fin h → Fin h → EReal) (b2 : Fin h → EReal) : Fin n → Fin h → EReal :=
  lapSep A d (mm (relu (lapSep A d (mm x W1) b1)) W2) b2

/-- Two Laplacian layers, dense arrangement. -/
def lapNetDense (A : Fin n → Fin n → EReal) (d : Fin n → EReal) (x : Fin n → Fin k → EReal) (W1 : Fin k → Fin h → EReal)
    (b1 : Fin h → EReal) (W2 : Fin h → Fin h → EReal) (b2 : Fin h → EReal) : Fin n → Fin h → EReal :=
  lapDense A d (mm (relu (lapDense A d (mm x W1) b1)) W2) b2

/-- Two adjacency layers, separated arrangement. -/
def adjNetSep (A : Fin n → Fin n → EReal) (d : Fin n → EReal) (x : Fin n → Fin k → EReal) (W1 : Fin k → Fin h → EReal)
    (b1 : Fin h → EReal) (W2 : Fin h → Fin h → EReal) (b2 : Fin h → EReal) : Fin n → Fin h → EReal :=
  adjSep A d (mm (relu (adjSep A d (mm x W1) b1)) W2) b2

/-- Two adjacency layers, dense arrangement. -/
def adjNetDense (A : Fin n → Fin n → EReal) (d : Fin n → EReal) (x : Fin n → Fin k → EReal) (W1 : Fin k → Fin h → EReal)
    (b1 : Fin h → EReal) (W2 : Fin h → Fin h → EReal) (b2 : Fin h → EReal) : Fin n → Fin h → EReal :=
  adjDense A d (mm (relu (adjDense A d (mm x W1) b1)) W2) b2

end Cert.Gcn

end
-- ==== Proof.GcnFactor.lean ====
/-
  The degree factor of one node, as both programs compute it from the node's degree `x`: where the degree is positive,
  the reciprocal square root of the larger of the degree and a small positive constant; elsewhere zero.
-/
import proofs.«165336_j42056319762462_2_alg».proof.Proof.GcnSpec

noncomputable section

namespace Cert.Gcn

open Idealize.ShloMosaic

/-- `x ↦ if 0 < x then 1 / √(max x ε) else 0`, in the operations' own spelling at the ideal values (ε the value of the
    word `0x2B8CBCCC`, about 1e-12). -/
def facOf (x : EReal) : EReal :=
  Scalar.select (FloatOps.cmpf (F := Ideal) (φ := .f32) .ogt x (FloatOps.ofBits (F := Ideal) .f32 0x00000000#32))
    (FloatOps.hostUnary (F := Ideal) (φ := .f32) .rsqrt
      (FloatOps.maximumf (F := Ideal) (φ := .f32) x (FloatOps.ofBits (F := Ideal) .f32 0x2B8CBCCC#32)))
    (FloatOps.ofBits (F := Ideal) .f32 0x00000000#32)

end Cert.Gcn

end
-- ==== Proof.IdealRead.lean ====
/-
  A buffer's contents at the ideal values, typed as an extended-real function of its index: every float format's
  element is an extended real there, so this is the identity; it only fixes the type a sum or a product is stated at.
-/
import proofs.«165336_j42056319762462_2_alg».proof.Proof.GcnSpec

noncomputable section

namespace Cert.Gcn

open Idealize.ShloMosaic

/-- The contents `f` of a buffer of shape `S` and float format `φ`, as a function `S.Idx → EReal`. -/
def asE (S : Shape) (φ : FTy) (f : FVec Ideal S φ) : S.Idx → EReal := f

theorem asE_apply (S : Shape) (φ : FTy) (f : FVec Ideal S φ) (i : S.Idx) : asE S φ f i = f i := rfl

end Cert.Gcn

end
-- ==== Proof.KerHost.lean ====
/-
  The host operations between the idealized kernel program's regions, read at an index. From the row sums and the column
  sums of the adjacency the host forms the two vectors of degree factors, one entry at a time by the same rule
  (`Cert.Gcn.facOf`); it turns the column factors, computed as a row, into a column; before each graph layer it scales the
  rows of the projected features by a factor vector (one scaled copy per branch; the change to a shorter float format that
  follows is the identity on the ideal values); and it lays each bias vector out as one row. Each lemma states one of these
  results at coordinates, from the contents of the buffers at the boundary before the stretch.
-/
import proofs.«165336_j42056319762462_2_alg».proof.Proof.Gen.KernelIdeal.Frame
import proofs.«165336_j42056319762462_2_alg».proof.Proof.LibBroadcastLayout
import proofs.«165336_j42056319762462_2_alg».proof.Proof.GcnFactor
import proofs.«165336_j42056319762462_2_alg».proof.Proof.IdealRead
import Idealize.ShloMosaic.Lib.StableHlo.Run
import Idealize.ShloMosaic.Lib.ValueIdx
import Idealize.ShloMosaic.Lib.ValueLayout

set_option maxRecDepth 16384

noncomputable section

namespace Cert.KernelIdeal.HostStages

open Cert.KernelIdeal Cert.KernelIdeal.Gen Idealize.ShloMosaic Idealize.ShloMosaic.TcCoe Idealize.ShloMosaic.ValueIdx Idealize.SL.Sem Cert.Gcn

variable (m : (ℓ : Loc nD τ sig) → Buf (Elt Ideal) ℓ) (ρ : Dev nD → PrngReg) (c : Dev nD)

/-! ## The degree factors -/

/-- The row factor of node `r` is `facOf` of the `r`-th row sum: compare with zero, take the reciprocal square root of the
    larger of the sum and the small constant, select. -/
theorem fac_rows (r : Fin 10000) :
    asE S10000x1 .f32 (W4 (F := Ideal) m ρ c (Proc.devRef .tc main_v26)) (ix2 r (0 : Fin 1))
      = facOf (asE S10000x1 .f32 (W2 (F := Ideal) m ρ c (Proc.devRef .tc main_v20_0)) (ix2 r (0 : Fin 1))) := by
  unfold asE facOf
  show StableHlo.after hostOps1_1 (StableHlo.after hostOps1 (W2 (F := Ideal) m ρ c)) (Proc.devRef .tc main_v26) (ix2 r (0 : Fin 1)) = _
  after_results
  rfl

/-- The column factor of node `q`, still laid out as a row, is `facOf` of the `q`-th column sum. -/
theorem fac_cols (q : Fin 10000) :
    asE S1x10000 .f32 (W6 (F := Ideal) m ρ c (Proc.devRef .tc main_v32)) (ix2 (0 : Fin 1) q)
      = facOf (asE S1x10000 .f32 (W4 (F := Ideal) m ρ c (Proc.devRef .tc main_v20_1)) (ix2 (0 : Fin 1) q)) := by
  unfold asE facOf
  show StableHlo.after hostOps1_3 (StableHlo.after hostOps1_2 (W4 (F := Ideal) m ρ c)) (Proc.devRef .tc main_v32) (ix2 (0 : Fin 1) q) = _
  after_results
  rfl

/-- The row of column factors re-laid as a column: entry `(r, 0)` of the column is entry `(0, r)` of the row (the same
    row-major position). -/
theorem col_of_row (r : Fin 10000) :
    asE S10000x1 .f32 (W7 (F := Ideal) m ρ c (Proc.devRef .tc main_v33)) (ix2 r (0 : Fin 1))
      = asE S1x10000 .f32 (W6 (F := Ideal) m ρ c (Proc.devRef .tc main_v32)) (ix2 (0 : Fin 1) r) := by
  unfold asE
  show StableHlo.after hostOps1_4 (W6 (F := Ideal) m ρ c) (Proc.devRef .tc main_v33) (ix2 r (0 : Fin 1))
    = W6 (F := Ideal) m ρ c (Proc.devRef .tc main_v32) (ix2 (0 : Fin 1) r)
  generalize W6 (F := Ideal) m ρ c = W
  after_results
  show shapeCast S10000x1 (W (Proc.devRef .tc main_v32) : FVec Ideal S1x10000 .f32) shapeCasts_S1x10000_S10000x1 (ix2 r (0 : Fin 1)) = _
  refine shapeCast_apply _ _ (ix2 r (0 : Fin 1)) (ix2 (0 : Fin 1) r) ?_
  rw [Shape.rowMajor_val_two, Shape.rowMajor_val_two]
  show 0 * 10000 + r.val = r.val * 1 + 0
  omega

/-! ## The scaled features and the bias row of each layer -/

/-- Layer 1, Laplacian branch: the projected features' row `r` scaled by the row factor of `r`. -/
theorem pre_lap1 (r : Fin 10000) (j : Fin 256) :
    asE S10000x256 .bf16 (W9 (F := Ideal) m ρ c (Proc.devRef .tc main_v37)) (ix2 r j)
      = asE S10000x1 .f32 (W8 (F := Ideal) m ρ c (Proc.devRef .tc main_v26)) (ix2 r (0 : Fin 1)) * asE S10000x256 .f32 (W8 (F := Ideal) m ρ c (Proc.devRef .tc main_v34)) (ix2 r j) := by
  have e : (W9 (F := Ideal) m ρ c (Proc.devRef .tc main_v37) : FVec Ideal S10000x256 .bf16)
      = truncf (F := Ideal) .bf16 (mulf (F := Ideal) (broadcastInDim S10000x256 ![0, 1] bcast_S10000x1_S10000x256_0_1
          (W8 (F := Ideal) m ρ c (Proc.devRef .tc main_v26) : FVec Ideal S10000x1 .f32))
          (W8 (F := Ideal) m ρ c (Proc.devRef .tc main_v34) : FVec Ideal S10000x256 .f32)) bitsLt_bf16_f32 := by
    show StableHlo.after hostOps2 (W8 (F := Ideal) m ρ c) (Proc.devRef .tc main_v37) = _
    after_results
    all_goals rfl
  unfold asE
  rw [e, truncf_apply, mulf_apply]
  exact congrArg (· * _) (Cert.BroadcastLayout.broadcastInDim_col_apply _ _ r j)

/-- Layer 1, adjacency branch: the projected features' row `r` scaled by the column factor of `r`. -/
theorem pre_adj1 (r : Fin 10000) (j : Fin 256) :
    asE S10000x256 .bf16 (W9 (F := Ideal) m ρ c (Proc.devRef .tc main_v40)) (ix2 r j)
      = asE S10000x1 .f32 (W8 (F := Ideal) m ρ c (Proc.devRef .tc main_v33)) (ix2 r (0 : Fin 1)) * asE S10000x256 .f32 (W8 (F := Ideal) m ρ c (Proc.devRef .tc main_v34)) (ix2 r j) := by
  have e : (W9 (F := Ideal) m ρ c (Proc.devRef .tc main_v40) : FVec Ideal S10000x256 .bf16)
      = truncf (F := Ideal) .bf16 (mulf (F := Ideal) (broadcastInDim S10000x256 ![0, 1] bcast_S10000x1_S10000x256_0_1
          (W8 (F := Ideal) m ρ c (Proc.devRef .tc main_v33) : FVec Ideal S10000x1 .f32))
          (W8 (F := Ideal) m ρ c (Proc.devRef .tc main_v34) : FVec Ideal S10000x256 .f32)) bitsLt_bf16_f32 := by
    show StableHlo.after hostOps2 (W8 (F := Ideal) m ρ c) (Proc.devRef .tc main_v40) = _
    after_results
    all_goals rfl
  unfold asE
  rw [e, truncf_apply, mulf_apply]
  exact congrArg (· * _) (Cert.BroadcastLayout.broadcastInDim_col_apply _ _ r j)

/-- Layer 1's bias vector as one row. -/
theorem bias1 (j : Fin 256) :
    asE S1x256 .f32 (W9 (F := Ideal) m ρ c (Proc.devRef .tc main_v41)) (ix2 (0 : Fin 1) j) = asE S256 .f32 (W8 (F := Ideal) m ρ c (Proc.devRef .tc main_arg3)) (ix1 j) := by
  unfold asE
  show StableHlo.after hostOps2 (W8 (F := Ideal) m ρ c) (Proc.devRef .tc main_v41) (ix2 (0 : Fin 1) j)
    = W8 (F := Ideal) m ρ c (Proc.devRef .tc main_arg3) (ix1 j)
  generalize W8 (F := Ideal) m ρ c = W
  after_results
  show shapeCast S1x256 (W (Proc.devRef .tc main_arg3) : FVec Ideal S256 .f32) shapeCasts_S256_S1x256 (ix2 (0 : Fin 1) j) = _
  exact shapeCast_a_1a_apply _ _ 0 j

/-- Layer 2, Laplacian branch: that branch's projected hidden features scaled by the row factors. -/
theorem pre_lap2 (r : Fin 10000) (j : Fin 256) :
    asE S10000x256 .bf16 (W13 (F := Ideal) m ρ c (Proc.devRef .tc main_v47)) (ix2 r j)
      = asE S10000x1 .f32 (W12 (F := Ideal) m ρ c (Proc.devRef .tc main_v26)) (ix2 r (0 : Fin 1)) * asE S10000x256 .f32 (W12 (F := Ideal) m ρ c (Proc.devRef .tc main_v43)) (ix2 r j) := by
  have e : (W13 (F := Ideal) m ρ c (Proc.devRef .tc main_v47) : FVec Ideal S10000x256 .bf16)
      = truncf (F := Ideal) .bf16 (mulf (F := Ideal) (broadcastInDim S10000x256 ![0, 1] bcast_S10000x1_S10000x256_0_1
          (W12 (F := Ideal) m ρ c (Proc.devRef .tc main_v26) : FVec Ideal S10000x1 .f32))
          (W12 (F := Ideal) m ρ c (Proc.devRef .tc main_v43) : FVec Ideal S10000x256 .f32)) bitsLt_bf16_f32 := by
    show StableHlo.after hostOps5 (W12 (F := Ideal) m ρ c) (Proc.devRef .tc main_v47) = _
    after_results
    all_goals rfl
  unfold asE
  rw [e, truncf_apply, mulf_apply]
  exact congrArg (· * _) (Cert.BroadcastLayout.broadcastInDim_col_apply _ _ r j)

/-- Layer 2, adjacency branch: that branch's projected hidden features scaled by the column factors. -/
theorem pre_adj2 (r : Fin 10000) (j : Fin 256) :
    asE S10000x256 .bf16 (W13 (F := Ideal) m ρ c (Proc.devRef .tc main_v50)) (ix2 r j)
      = asE S10000x1 .f32 (W12 (F := Ideal) m ρ c (Proc.devRef .tc main_v33)) (ix2 r (0 : Fin 1)) * asE S10000x256 .f32 (W12 (F := Ideal) m ρ c (Proc.devRef .tc main_v44)) (ix2 r j) := by
  have e : (W13 (F := Ideal) m ρ c (Proc.devRef .tc main_v50) : FVec Ideal S10000x256 .bf16)
      = truncf (F := Ideal) .bf16 (mulf (F := Ideal) (broadcastInDim S10000x256 ![0, 1] bcast_S10000x1_S10000x256_0_1
          (W12 (F := Ideal) m ρ c (Proc.devRef .tc main_v33) : FVec Ideal S10000x1 .f32))
          (W12 (F := Ideal) m ρ c (Proc.devRef .tc main_v44) : FVec Ideal S10000x256 .f32)) bitsLt_bf16_f32 := by
    show StableHlo.after hostOps5 (W12 (F := Ideal) m ρ c) (Proc.devRef .tc main_v50) = _
    after_results
    all_goals rfl
  unfold asE
  rw [e, truncf_apply, mulf_apply]
  exact congrArg (· * _) (Cert.BroadcastLayout.broadcastInDim_col_apply _ _ r j)

/-- Layer 2's bias vector as one row. -/
theorem bias2 (j : Fin 256) :
    asE S1x256 .f32 (W13 (F := Ideal) m ρ c (Proc.devRef .tc main_v51)) (ix2 (0 : Fin 1) j) = asE S256 .f32 (W12 (F := Ideal) m ρ c (Proc.devRef .tc main_arg5)) (ix1 j) := by
  unfold asE
  show StableHlo.after hostOps5 (W12 (F := Ideal) m ρ c) (Proc.devRef .tc main_v51) (ix2 (0 : Fin 1) j)
    = W12 (F := Ideal) m ρ c (Proc.devRef .tc main_arg5) (ix1 j)
  generalize W12 (F := Ideal) m ρ c = W
  after_results
  show shapeCast S1x256 (W (Proc.devRef .tc main_arg5) : FVec Ideal S256 .f32) shapeCasts_S256_S1x256 (ix2 (0 : Fin 1) j) = _
  exact shapeCast_a_1a_apply _ _ 0 j

end Cert.KernelIdeal.HostStages

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.KerDense.lean ====
/-
  The arrays the three feature projections leave: each is the matrix product of its row operand and its weight,
  entry by entry, as one function of the two input arrays.
-/
import proofs.«165336_j42056319762462_2_alg».proof.Proof.Gen.KernelIdeal.Frame
import proofs.«165336_j42056319762462_2_alg».proof.Proof.LibDenseRows
import proofs.«165336_j42056319762462_2_alg».proof.Proof.IdealRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KerValue

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Gcn (asE)
open scoped BigOperators

variable (V : (c : Dev nD) → (b : Ref sig .tc) → Buf (Elt Ideal) ((c : Thread nD τ).loc b))

/-- The zero offset of a whole-block access, as a constant function. -/
theorem zero_offset : (![0, 0] : Fin 2 → Nat) = fun _ => 0 := funext fun a => by fin_cases a <;> rfl

/-- The product `X · W` of a `[10000, 256]` array and a `[256, 256]` weight, entry by entry. -/
def projArr (X : S10000x256.Idx → EReal) (W : S256x256.Idx → EReal) : S10000x256.Idx → EReal :=
  fun i => ∑ k : Fin 256, X (ix2 (n0 := 10000) (i 0) k) * W (ix2 (n1 := 256) k (i 1))

/-! ## The first projection -/

/-- The body's arithmetic at an entry of the block: row `p` of the row block times column `q` of the weight. -/
theorem pay1_apply (x0 : Vec Ideal S1000x256 .f32) (x1 : Vec Ideal S256x256 .f32) (p : Fin 1000) (q : Fin 256) :
    k1_pay1 x0 x1 (ix2 p q) = ∑ k : Fin 256, x0 (ix2 p k) * x1 (ix2 k q) := by
  unfold k1_pay1
  exact Cert.DenseRows.matmul_zero_plain_apply _ rfl rfl rfl rfl (fun _ _ => rfl) (fun _ _ => rfl) x0 x1 p q

/-- The index maps over the grid: the row operand's block moves with the output's, the weight's block stays. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

theorem flushed1_eq (c : Dev nD) (t : Fin cfg1.N) :
    (dat1 V c).flushed 2 t = ((cfg1.win 2).blk t).view.read (Elt Ideal)
      (projArr (asE S10000x256 .f32 (V c (Pipeline.arrRef spec1 0))) (asE S256x256 .f32 (V c (Pipeline.arrRef spec1 1)))) := by
  show (cfg1.win 2).cut (grid1.coords t) ((dat1 V c).after 2 t) = _
  rw [after1_2]
  unfold out1_2
  rw [View.canon_unit_zero zero_offset]
  simp only [View.ld_unit_zero (S := S1000x256) zero_offset, View.ld_unit_zero (S := S256x256) zero_offset]
  obtain ⟨e0, e1, e2, e3, e4, e5⟩ := idx_facts1 t
  funext j
  obtain ⟨p, q, rfl⟩ : ∃ (p : Fin 1000) (q : Fin 256), j = ix2 p q := ⟨j 0, j 1, eq_ix2 j⟩
  show k1_pay1 (iblk1 V c 0 t) (iblk1 V c 1 t) (ix2 p q)
    = projArr (asE S10000x256 .f32 (V c (Pipeline.arrRef spec1 0))) (asE S256x256 .f32 (V c (Pipeline.arrRef spec1 1))) (((cfg1.win 2).blk t).view.emb (ix2 p q))
  refine (pay1_apply _ _ p q).trans ?_
  refine Finset.sum_congr rfl fun k _ => ?_
  have hX : iblk1 V c 0 t (ix2 p k)
      = asE S10000x256 .f32 (V c (Pipeline.arrRef spec1 0)) (ix2 (n0 := 10000) ((((cfg1.win 2).blk t).view.emb (ix2 p q)) 0) k) := by
    show asE S10000x256 .f32 (V c (Pipeline.arrRef spec1 0)) (((cfg1.win 0).blk t).view.emb (ix2 p k)) = _
    refine congrArg _ ?_
    funext a; apply Fin.ext
    match a with
    | ⟨0, _⟩ => show win1_0.index t (0 : Fin 2) * 1000 + 1 * p.val = win1_2.index t (0 : Fin 2) * 1000 + 1 * p.val; omega
    | ⟨1, _⟩ => show win1_0.index t (1 : Fin 2) * 256 + 1 * k.val = k.val; omega
  have hW : iblk1 V c 1 t (ix2 k q)
      = asE S256x256 .f32 (V c (Pipeline.arrRef spec1 1)) (ix2 (n1 := 256) k ((((cfg1.win 2).blk t).view.emb (ix2 p q)) 1)) := by
    show asE S256x256 .f32 (V c (Pipeline.arrRef spec1 1)) (((cfg1.win 1).blk t).view.emb (ix2 k q)) = _
    refine congrArg _ ?_
    funext a; apply Fin.ext
    match a with
    | ⟨0, _⟩ => show win1_1.index t (0 : Fin 2) * 256 + 1 * k.val = k.val; omega
    | ⟨1, _⟩ => show win1_1.index t (1 : Fin 2) * 256 + 1 * q.val = win1_2.index t (1 : Fin 2) * 256 + 1 * q.val; omega
  exact congrArg₂ (· * ·) hX hW

/-- An index of the array is in point `t`'s block iff each coordinate is in the block's range on its axis. -/
theorem mem_blk1 (t : Fin cfg1.N) (i : S10000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole main_v34).slice (win1_2.rect t)).set ↔ _
  rw [View.set_slice_whole, Rect.mem_set_unit]
  exact Iff.rfl

/-- Row `r` lies in the block of point `r / 1000`: the row blocks cover the array. -/
theorem cover1 (i : S10000x256.Idx) : ∃ t : Fin cfg1.N, (cfg1.win 2).flush t = true ∧ i ∈ ((cfg1.win 2).blk t).view.set := by
  have hi0 : (i 0).val < 10000 := (i 0).isLt
  have hi1 : (i 1).val < 256 := (i 1).isLt
  obtain ⟨t, ht⟩ := idx_onto1 ⟨(i 0).val / 1000, by omega⟩
  have q0 : win1_2.index t (0 : Fin 2) = (i 0).val / 1000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 256 ≤ (i 1).val ∧ (i 1).val < win1_2.index t (1 : Fin 2) * 256 + 256; omega

/-- The array the first projection leaves is the product of its two input arrays. -/
theorem proj1_arr (c : Dev nD) :
    (dat1 V c).arrAt 2 cfg1.N = projArr (asE S10000x256 .f32 (V c (Pipeline.arrRef spec1 0))) (asE S256x256 .f32 (V c (Pipeline.arrRef spec1 1))) :=
  (dat1 V c).arrAt_eq_of_cover 2 _ (fun t _ => flushed1_eq V c t) cover1

/-- Entry by entry. -/
theorem proj1_apply (c : Dev nD) (r : Fin 10000) (j : Fin 256) :
    asE S10000x256 .f32 ((dat1 V c).arrAt 2 cfg1.N) (ix2 r j)
      = ∑ q : Fin 256, asE S10000x256 .f32 (V c (Pipeline.arrRef spec1 0)) (ix2 r q) * asE S256x256 .f32 (V c (Pipeline.arrRef spec1 1)) (ix2 q j) := by
  rw [proj1_arr]; rfl

/-! ## The second layer's projection on the Laplacian branch -/

/-- The body's arithmetic at an entry of the block: row `p` of the row block times column `q` of the weight. -/
theorem pay3_apply (x0 : Vec Ideal S1000x256 .f32) (x1 : Vec Ideal S256x256 .f32) (p : Fin 1000) (q : Fin 256) :
    k3_pay1 x0 x1 (ix2 p q) = ∑ k : Fin 256, x0 (ix2 p k) * x1 (ix2 k q) := by
  unfold k3_pay1
  rw [shapeCast_self]
  exact Cert.DenseRows.matmul_zero_plain_apply _ rfl rfl rfl rfl (fun _ _ => rfl) (fun _ _ => rfl) x0 x1 p q

/-- The index maps over the grid: the row operand's block moves with the output's, the weight's block stays. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every row block is some point's. -/
theorem idx_onto3 : ∀ q0 : Fin 10, ∃ t : Fin cfg3.N, win3_2.index t = ![q0.val, 0] :=
  (by decide +kernel : ∀ q0 : Fin 10, ∃ t : Fin grid3.N, win3_2.index t = ![q0.val, 0])

theorem flushed3_eq (c : Dev nD) (t : Fin cfg3.N) :
    (dat3 V c).flushed 2 t = ((cfg3.win 2).blk t).view.read (Elt Ideal)
      (projArr (asE S10000x256 .f32 (V c (Pipeline.arrRef spec3 0))) (asE S256x256 .f32 (V c (Pipeline.arrRef spec3 1)))) := by
  show (cfg3.win 2).cut (grid3.coords t) ((dat3 V c).after 2 t) = _
  rw [after3_2]
  unfold out3_2
  rw [View.canon_unit_zero zero_offset]
  simp only [View.ld_unit_zero (S := S1000x256) zero_offset, View.ld_unit_zero (S := S256x256) zero_offset]
  obtain ⟨e0, e1, e2, e3, e4, e5⟩ := idx_facts3 t
  funext j
  obtain ⟨p, q, rfl⟩ : ∃ (p : Fin 1000) (q : Fin 256), j = ix2 p q := ⟨j 0, j 1, eq_ix2 j⟩
  show k3_pay1 (iblk3 V c 0 t) (iblk3 V c 1 t) (ix2 p q)
    = projArr (asE S10000x256 .f32 (V c (Pipeline.arrRef spec3 0))) (asE S256x256 .f32 (V c (Pipeline.arrRef spec3 1))) (((cfg3.win 2).blk t).view.emb (ix2 p q))
  refine (pay3_apply _ _ p q).trans ?_
  refine Finset.sum_congr rfl fun k _ => ?_
  have hX : iblk3 V c 0 t (ix2 p k)
      = asE S10000x256 .f32 (V c (Pipeline.arrRef spec3 0)) (ix2 (n0 := 10000) ((((cfg3.win 2).blk t).view.emb (ix2 p q)) 0) k) := by
    show asE S10000x256 .f32 (V c (Pipeline.arrRef spec3 0)) (((cfg3.win 0).blk t).view.emb (ix2 p k)) = _
    refine congrArg _ ?_
    funext a; apply Fin.ext
    match a with
    | ⟨0, _⟩ => show win3_0.index t (0 : Fin 2) * 1000 + 1 * p.val = win3_2.index t (0 : Fin 2) * 1000 + 1 * p.val; omega
    | ⟨1, _⟩ => show win3_0.index t (1 : Fin 2) * 256 + 1 * k.val = k.val; omega
  have hW : iblk3 V c 1 t (ix2 k q)
      = asE S256x256 .f32 (V c (Pipeline.arrRef spec3 1)) (ix2 (n1 := 256) k ((((cfg3.win 2).blk t).view.emb (ix2 p q)) 1)) := by
    show asE S256x256 .f32 (V c (Pipeline.arrRef spec3 1)) (((cfg3.win 1).blk t).view.emb (ix2 k q)) = _
    refine congrArg _ ?_
    funext a; apply Fin.ext
    match a with
    | ⟨0, _⟩ => show win3_1.index t (0 : Fin 2) * 256 + 1 * k.val = k.val; omega
    | ⟨1, _⟩ => show win3_1.index t (1 : Fin 2) * 256 + 1 * q.val = win3_2.index t (1 : Fin 2) * 256 + 1 * q.val; omega
  exact congrArg₂ (· * ·) hX hW

/-- An index of the array is in point `t`'s block iff each coordinate is in the block's range on its axis. -/
theorem mem_blk3 (t : Fin cfg3.N) (i : S10000x256.Idx) :
    i ∈ ((cfg3.win 2).blk t).view.set ↔ ∀ a : Fin 2, win3_2.index t a * S1000x256.size a ≤ (i a).val ∧ (i a).val < win3_2.index t a * S1000x256.size a + S1000x256.size a := by
  show i ∈ ((View.whole main_v43).slice (win3_2.rect t)).set ↔ _
  rw [View.set_slice_whole, Rect.mem_set_unit]
  exact Iff.rfl

/-- Row `r` lies in the block of point `r / 1000`: the row blocks cover the array. -/
theorem cover3 (i : S10000x256.Idx) : ∃ t : Fin cfg3.N, (cfg3.win 2).flush t = true ∧ i ∈ ((cfg3.win 2).blk t).view.set := by
  have hi0 : (i 0).val < 10000 := (i 0).isLt
  have hi1 : (i 1).val < 256 := (i 1).isLt
  obtain ⟨t, ht⟩ := idx_onto3 ⟨(i 0).val / 1000, by omega⟩
  have q0 : win3_2.index t (0 : Fin 2) = (i 0).val / 1000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 1000 ≤ (i 0).val ∧ (i 0).val < win3_2.index t (0 : Fin 2) * 1000 + 1000; omega
  | ⟨1, _⟩ => show win3_2.index t (1 : Fin 2) * 256 ≤ (i 1).val ∧ (i 1).val < win3_2.index t (1 : Fin 2) * 256 + 256; omega

/-- The array this projection leaves is the product of its two input arrays. -/
theorem proj3_arr (c : Dev nD) :
    (dat3 V c).arrAt 2 cfg3.N = projArr (asE S10000x256 .f32 (V c (Pipeline.arrRef spec3 0))) (asE S256x256 .f32 (V c (Pipeline.arrRef spec3 1))) :=
  (dat3 V c).arrAt_eq_of_cover 2 _ (fun t _ => flushed3_eq V c t) cover3

/-- Entry by entry. -/
theorem proj3_apply (c : Dev nD) (r : Fin 10000) (j : Fin 256) :
    asE S10000x256 .f32 ((dat3 V c).arrAt 2 cfg3.N) (ix2 r j)
      = ∑ q : Fin 256, asE S10000x256 .f32 (V c (Pipeline.arrRef spec3 0)) (ix2 r q) * asE S256x256 .f32 (V c (Pipeline.arrRef spec3 1)) (ix2 q j) := by
  rw [proj3_arr]; rfl

/-! ## The second layer's projection on the adjacency branch -/

/-- The body's arithmetic at an entry of the block: row `p` of the row block times column `q` of the weight. -/
theorem pay4_apply (x0 : Vec Ideal S1000x256 .f32) (x1 : Vec Ideal S256x256 .f32) (p : Fin 1000) (q : Fin 256) :
    k4_pay1 x0 x1 (ix2 p q) = ∑ k : Fin 256, x0 (ix2 p k) * x1 (ix2 k q) := by
  unfold k4_pay1
  rw [shapeCast_self]
  exact Cert.DenseRows.matmul_zero_plain_apply _ rfl rfl rfl rfl (fun _ _ => rfl) (fun _ _ => rfl) x0 x1 p q

/-- The index maps over the grid: the row operand's block moves with the output's, the weight's block stays. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Every row block is some point's. -/
theorem idx_onto4 : ∀ q0 : Fin 10, ∃ t : Fin cfg4.N, win4_2.index t = ![q0.val, 0] :=
  (by decide +kernel : ∀ q0 : Fin 10, ∃ t : Fin grid4.N, win4_2.index t = ![q0.val, 0])

theorem flushed4_eq (c : Dev nD) (t : Fin cfg4.N) :
    (dat4 V c).flushed 2 t = ((cfg4.win 2).blk t).view.read (Elt Ideal)
      (projArr (asE S10000x256 .f32 (V c (Pipeline.arrRef spec4 0))) (asE S256x256 .f32 (V c (Pipeline.arrRef spec4 1)))) := by
  show (cfg4.win 2).cut (grid4.coords t) ((dat4 V c).after 2 t) = _
  rw [after4_2]
  unfold out4_2
  rw [View.canon_unit_zero zero_offset]
  simp only [View.ld_unit_zero (S := S1000x256) zero_offset, View.ld_unit_zero (S := S256x256) zero_offset]
  obtain ⟨e0, e1, e2, e3, e4, e5⟩ := idx_facts4 t
  funext j
  obtain ⟨p, q, rfl⟩ : ∃ (p : Fin 1000) (q : Fin 256), j = ix2 p q := ⟨j 0, j 1, eq_ix2 j⟩
  show k4_pay1 (iblk4 V c 0 t) (iblk4 V c 1 t) (ix2 p q)
    = projArr (asE S10000x256 .f32 (V c (Pipeline.arrRef spec4 0))) (asE S256x256 .f32 (V c (Pipeline.arrRef spec4 1))) (((cfg4.win 2).blk t).view.emb (ix2 p q))
  refine (pay4_apply _ _ p q).trans ?_
  refine Finset.sum_congr rfl fun k _ => ?_
  have hX : iblk4 V c 0 t (ix2 p k)
      = asE S10000x256 .f32 (V c (Pipeline.arrRef spec4 0)) (ix2 (n0 := 10000) ((((cfg4.win 2).blk t).view.emb (ix2 p q)) 0) k) := by
    show asE S10000x256 .f32 (V c (Pipeline.arrRef spec4 0)) (((cfg4.win 0).blk t).view.emb (ix2 p k)) = _
    refine congrArg _ ?_
    funext a; apply Fin.ext
    match a with
    | ⟨0, _⟩ => show win4_0.index t (0 : Fin 2) * 1000 + 1 * p.val = win4_2.index t (0 : Fin 2) * 1000 + 1 * p.val; omega
    | ⟨1, _⟩ => show win4_0.index t (1 : Fin 2) * 256 + 1 * k.val = k.val; omega
  have hW : iblk4 V c 1 t (ix2 k q)
      = asE S256x256 .f32 (V c (Pipeline.arrRef spec4 1)) (ix2 (n1 := 256) k ((((cfg4.win 2).blk t).view.emb (ix2 p q)) 1)) := by
    show asE S256x256 .f32 (V c (Pipeline.arrRef spec4 1)) (((cfg4.win 1).blk t).view.emb (ix2 k q)) = _
    refine congrArg _ ?_
    funext a; apply Fin.ext
    match a with
    | ⟨0, _⟩ => show win4_1.index t (0 : Fin 2) * 256 + 1 * k.val = k.val; omega
    | ⟨1, _⟩ => show win4_1.index t (1 : Fin 2) * 256 + 1 * q.val = win4_2.index t (1 : Fin 2) * 256 + 1 * q.val; omega
  exact congrArg₂ (· * ·) hX hW

/-- An index of the array is in point `t`'s block iff each coordinate is in the block's range on its axis. -/
theorem mem_blk4 (t : Fin cfg4.N) (i : S10000x256.Idx) :
    i ∈ ((cfg4.win 2).blk t).view.set ↔ ∀ a : Fin 2, win4_2.index t a * S1000x256.size a ≤ (i a).val ∧ (i a).val < win4_2.index t a * S1000x256.size a + S1000x256.size a := by
  show i ∈ ((View.whole main_v44).slice (win4_2.rect t)).set ↔ _
  rw [View.set_slice_whole, Rect.mem_set_unit]
  exact Iff.rfl

/-- Row `r` lies in the block of point `r / 1000`: the row blocks cover the array. -/
theorem cover4 (i : S10000x256.Idx) : ∃ t : Fin cfg4.N, (cfg4.win 2).flush t = true ∧ i ∈ ((cfg4.win 2).blk t).view.set := by
  have hi0 : (i 0).val < 10000 := (i 0).isLt
  have hi1 : (i 1).val < 256 := (i 1).isLt
  obtain ⟨t, ht⟩ := idx_onto4 ⟨(i 0).val / 1000, by omega⟩
  have q0 : win4_2.index t (0 : Fin 2) = (i 0).val / 1000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 1000 ≤ (i 0).val ∧ (i 0).val < win4_2.index t (0 : Fin 2) * 1000 + 1000; omega
  | ⟨1, _⟩ => show win4_2.index t (1 : Fin 2) * 256 ≤ (i 1).val ∧ (i 1).val < win4_2.index t (1 : Fin 2) * 256 + 256; omega

/-- The array this projection leaves is the product of its two input arrays. -/
theorem proj4_arr (c : Dev nD) :
    (dat4 V c).arrAt 2 cfg4.N = projArr (asE S10000x256 .f32 (V c (Pipeline.arrRef spec4 0))) (asE S256x256 .f32 (V c (Pipeline.arrRef spec4 1))) :=
  (dat4 V c).arrAt_eq_of_cover 2 _ (fun t _ => flushed4_eq V c t) cover4

/-- Entry by entry. -/
theorem proj4_apply (c : Dev nD) (r : Fin 10000) (j : Fin 256) :
    asE S10000x256 .f32 ((dat4 V c).arrAt 2 cfg4.N) (ix2 r j)
      = ∑ q : Fin 256, asE S10000x256 .f32 (V c (Pipeline.arrRef spec4 0)) (ix2 r q) * asE S256x256 .f32 (V c (Pipeline.arrRef spec4 1)) (ix2 q j) := by
  rw [proj4_arr]; rfl

end Cert.KerValue

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KerFused.lean ====
/-
  The arrays the two fused propagation steps leave. Each step multiplies a block of rows of the adjacency by a whole
  feature array, scales the rows of the product by a degree factor, and then, on the Laplacian branch, subtracts the result
  from the residual and adds the bias, on the adjacency branch adds the bias; the first of the two steps ends with the
  rectifier. Each output array is stated as one function of the input arrays, entry by entry.
-/
import proofs.«165336_j42056319762462_2_alg».proof.Proof.Gen.KernelIdeal.Frame
import proofs.«165336_j42056319762462_2_alg».proof.Proof.LibDenseRows
import proofs.«165336_j42056319762462_2_alg».proof.Proof.LibColumnLayout
import proofs.«165336_j42056319762462_2_alg».proof.Proof.IdealRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KerValue

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Gcn (asE)
open scoped BigOperators

variable (V : (c : Dev nD) → (b : Ref sig .tc) → Buf (Elt Ideal) ((c : Thread nD τ).loc b))

/-- The zero offset of a whole-block access, as a constant function. -/
theorem zero_offset2 : (![0, 0] : Fin 2 → Nat) = fun _ => 0 := funext fun a => by fin_cases a <;> rfl

/-- The Laplacian branch of a step, entry by entry: residual minus the scaled product, plus the bias. -/
def lapArr (A : S10000x10000.Idx → EReal) (Y : S10000x256.Idx → EReal) (d : S10000x1.Idx → EReal)
    (R : S10000x256.Idx → EReal) (b : S1x256.Idx → EReal) : S10000x256.Idx → EReal :=
  fun i => (R i - d (ix2 (n0 := 10000) (i 0) (0 : Fin 1)) * ∑ k : Fin 10000, A (ix2 (n0 := 10000) (i 0) k) * Y (ix2 (n1 := 256) k (i 1)))
    + b (ix2 (n1 := 256) (0 : Fin 1) (i 1))

/-- The adjacency branch of a step, entry by entry: the scaled product plus the bias. -/
def adjArr (A : S10000x10000.Idx → EReal) (Y : S10000x256.Idx → EReal) (d : S10000x1.Idx → EReal)
    (b : S1x256.Idx → EReal) : S10000x256.Idx → EReal :=
  fun i => (d (ix2 (n0 := 10000) (i 0) (0 : Fin 1)) * ∑ k : Fin 10000, A (ix2 (n0 := 10000) (i 0) k) * Y (ix2 (n1 := 256) k (i 1)))
    + b (ix2 (n1 := 256) (0 : Fin 1) (i 1))

/-- The Laplacian branch followed by the rectifier. -/
def lapReluArr (A : S10000x10000.Idx → EReal) (Y : S10000x256.Idx → EReal) (d : S10000x1.Idx → EReal)
    (R : S10000x256.Idx → EReal) (b : S1x256.Idx → EReal) : S10000x256.Idx → EReal :=
  fun i => max (lapArr A Y d R b i) 0

/-- The adjacency branch followed by the rectifier. -/
def adjReluArr (A : S10000x10000.Idx → EReal) (Y : S10000x256.Idx → EReal) (d : S10000x1.Idx → EReal)
    (b : S1x256.Idx → EReal) : S10000x256.Idx → EReal :=
  fun i => max (adjArr A Y d b i) 0

/-! ## The second step (no rectifier) -/

/-- The Laplacian branch's arithmetic at an entry of the block. -/
theorem pay5_lap_apply (x0 : Vec Ideal S400x10000 .bf16) (x1 : Vec Ideal S10000x256 .bf16) (x5 : Vec Ideal S400x256 .f32)
    (x6 : Vec Ideal S1x256 .f32) (x3 : Vec Ideal S400x1 .f32) (p : Fin 400) (q : Fin 256) :
    k5_pay3 x0 x1 x5 x6 x3 (ix2 p q)
      = (x5 (ix2 p q) - x3 (ix2 p (0 : Fin 1)) * ∑ k : Fin 10000, x0 (ix2 p k) * x1 (ix2 k q)) + x6 (ix2 (0 : Fin 1) q) := by
  unfold k5_pay3 k5_pay1 k5_pay2
  simp only [shapeCast_self]
  show (x5 (ix2 p q) - broadcastTo S400x256 x3 broadcasts_S400x1_S400x256 (ix2 p q)
      * matmul dot_S400x10000_S10000x256_S400x256_1_0_0_1_n_n none x0 x1 (constant (F := Ideal) S400x256 .f32 0x00000000#32) (ix2 p q))
      + broadcastTo S400x256 x6 broadcasts_S1x256_S400x256 (ix2 p q) = _
  rw [Cert.ColumnLayout.broadcastTo_a1_ab_apply, broadcastTo_1b_ab_apply,
    Cert.DenseRows.matmul_zero_plain_apply _ rfl rfl rfl rfl (fun _ _ => rfl) (fun _ _ => rfl)]

/-- The adjacency branch's arithmetic at an entry of the block. -/
theorem pay5_adj_apply (x0 : Vec Ideal S400x10000 .bf16) (x2 : Vec Ideal S10000x256 .bf16)
    (x6 : Vec Ideal S1x256 .f32) (x4 : Vec Ideal S400x1 .f32) (p : Fin 400) (q : Fin 256) :
    k5_pay4 x0 x2 x6 x4 (ix2 p q)
      = (x4 (ix2 p (0 : Fin 1)) * ∑ k : Fin 10000, x0 (ix2 p k) * x2 (ix2 k q)) + x6 (ix2 (0 : Fin 1) q) := by
  unfold k5_pay4 k5_pay1 k5_pay2
  simp only [shapeCast_self]
  show broadcastTo S400x256 x4 broadcasts_S400x1_S400x256 (ix2 p q)
      * matmul dot_S400x10000_S10000x256_S400x256_1_0_0_1_n_n none x0 x2 (constant (F := Ideal) S400x256 .f32 0x00000000#32) (ix2 p q)
      + broadcastTo S400x256 x6 broadcasts_S1x256_S400x256 (ix2 p q) = _
  rw [Cert.ColumnLayout.broadcastTo_a1_ab_apply, broadcastTo_1b_ab_apply,
    Cert.DenseRows.matmul_zero_plain_apply _ rfl rfl rfl rfl (fun _ _ => rfl) (fun _ _ => rfl)]

/-- The index maps over the grid: every row-blocked window moves with the outputs, the whole-array windows stay. -/
theorem idx_facts5 : ∀ t : Fin cfg5.N,
    (win5_0.index t (0 : Fin 2) = win5_7.index t (0 : Fin 2) ∧ win5_0.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = win5_7.index t (0 : Fin 2) ∧ win5_3.index t (1 : Fin 2) = 0)
    ∧ (win5_4.index t (0 : Fin 2) = win5_7.index t (0 : Fin 2) ∧ win5_4.index t (1 : Fin 2) = 0)
    ∧ (win5_5.index t (0 : Fin 2) = win5_7.index t (0 : Fin 2) ∧ win5_5.index t (1 : Fin 2) = 0)
    ∧ (win5_6.index t (0 : Fin 2) = 0 ∧ win5_6.index t (1 : Fin 2) = 0)
    ∧ (win5_8.index t (0 : Fin 2) = win5_7.index t (0 : Fin 2) ∧ win5_8.index t (1 : Fin 2) = 0)
    ∧ win5_7.index t (1 : Fin 2) = 0 :=
  (by decide +kernel : ∀ t : Fin grid5.N, _)

/-- Every row block is some point's, for both outputs. -/
theorem idx_onto5 : ∀ q0 : Fin 25, ∃ t : Fin cfg5.N, win5_7.index t = ![q0.val, 0] ∧ win5_8.index t = ![q0.val, 0] :=
  (by decide +kernel : ∀ q0 : Fin 25, ∃ t : Fin grid5.N, win5_7.index t = ![q0.val, 0] ∧ win5_8.index t = ![q0.val, 0])

/-- The two outputs' blocks sit at the same rows and columns. -/
theorem emb8_eq5 (t : Fin cfg5.N) (p : Fin 400) (q : Fin 256) :
    ((cfg5.win 8).blk t).view.emb (ix2 p q) = (((cfg5.win 7).blk t).view.emb (ix2 p q)) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts5 t
  funext a; apply Fin.ext
  match a with
  | ⟨0, _⟩ => show win5_8.index t (0 : Fin 2) * 400 + 1 * p.val = win5_7.index t (0 : Fin 2) * 400 + 1 * p.val; omega
  | ⟨1, _⟩ => show win5_8.index t (1 : Fin 2) * 256 + 1 * q.val = win5_7.index t (1 : Fin 2) * 256 + 1 * q.val; omega

/-- Row `p` of the adjacency block is the adjacency's row at the output block's row. -/
theorem blkA5 (c : Dev nD) (t : Fin cfg5.N) (p : Fin 400) (q : Fin 256) (k : Fin 10000) :
    iblk5 V c 0 t (ix2 p k) = asE S10000x10000 .bf16 (V c (Pipeline.arrRef spec5 0)) (ix2 (n0 := 10000) ((((cfg5.win 7).blk t).view.emb (ix2 p q)) 0) k) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts5 t
  show asE S10000x10000 .bf16 (V c (Pipeline.arrRef spec5 0)) (((cfg5.win 0).blk t).view.emb (ix2 p k)) = _
  refine congrArg _ ?_
  funext a; apply Fin.ext
  match a with
  | ⟨0, _⟩ => show win5_0.index t (0 : Fin 2) * 400 + 1 * p.val = win5_7.index t (0 : Fin 2) * 400 + 1 * p.val; omega
  | ⟨1, _⟩ => show win5_0.index t (1 : Fin 2) * 10000 + 1 * k.val = k.val; omega

/-- Column `q` of the whole feature array of window 1, read through its block. -/
theorem blkYl5 (c : Dev nD) (t : Fin cfg5.N) (p : Fin 400) (q : Fin 256) (k : Fin 10000) :
    iblk5 V c 1 t (ix2 k q) = asE S10000x256 .bf16 (V c (Pipeline.arrRef spec5 1)) (ix2 (n1 := 256) k ((((cfg5.win 7).blk t).view.emb (ix2 p q)) 1)) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts5 t
  show asE S10000x256 .bf16 (V c (Pipeline.arrRef spec5 1)) (((cfg5.win 1).blk t).view.emb (ix2 k q)) = _
  refine congrArg _ ?_
  funext a; apply Fin.ext
  match a with
  | ⟨0, _⟩ => show win5_1.index t (0 : Fin 2) * 10000 + 1 * k.val = k.val; omega
  | ⟨1, _⟩ => show win5_1.index t (1 : Fin 2) * 256 + 1 * q.val = win5_7.index t (1 : Fin 2) * 256 + 1 * q.val; omega

/-- Column `q` of the whole feature array of window 2, read through its block. -/
theorem blkYa5 (c : Dev nD) (t : Fin cfg5.N) (p : Fin 400) (q : Fin 256) (k : Fin 10000) :
    iblk5 V c 2 t (ix2 k q) = asE S10000x256 .bf16 (V c (Pipeline.arrRef spec5 2)) (ix2 (n1 := 256) k ((((cfg5.win 7).blk t).view.emb (ix2 p q)) 1)) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts5 t
  show asE S10000x256 .bf16 (V c (Pipeline.arrRef spec5 2)) (((cfg5.win 2).blk t).view.emb (ix2 k q)) = _
  refine congrArg _ ?_
  funext a; apply Fin.ext
  match a with
  | ⟨0, _⟩ => show win5_2.index t (0 : Fin 2) * 10000 + 1 * k.val = k.val; omega
  | ⟨1, _⟩ => show win5_2.index t (1 : Fin 2) * 256 + 1 * q.val = win5_7.index t (1 : Fin 2) * 256 + 1 * q.val; omega

/-- Row `p` of the degree-factor column of window 3, read through its block. -/
theorem blkDr5 (c : Dev nD) (t : Fin cfg5.N) (p : Fin 400) (q : Fin 256) :
    iblk5 V c 3 t (ix2 p (0 : Fin 1)) = asE S10000x1 .f32 (V c (Pipeline.arrRef spec5 3)) (ix2 (n0 := 10000) ((((cfg5.win 7).blk t).view.emb (ix2 p q)) 0) (0 : Fin 1)) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts5 t
  show asE S10000x1 .f32 (V c (Pipeline.arrRef spec5 3)) (((cfg5.win 3).blk t).view.emb (ix2 p (0 : Fin 1))) = _
  refine congrArg _ ?_
  funext a; apply Fin.ext
  match a with
  | ⟨0, _⟩ => show win5_3.index t (0 : Fin 2) * 400 + 1 * p.val = win5_7.index t (0 : Fin 2) * 400 + 1 * p.val; omega
  | ⟨1, _⟩ => show win5_3.index t (1 : Fin 2) * 1 + 1 * 0 = 0; omega

/-- Row `p` of the degree-factor column of window 4, read through its block. -/
theorem blkDc5 (c : Dev nD) (t : Fin cfg5.N) (p : Fin 400) (q : Fin 256) :
    iblk5 V c 4 t (ix2 p (0 : Fin 1)) = asE S10000x1 .f32 (V c (Pipeline.arrRef spec5 4)) (ix2 (n0 := 10000) ((((cfg5.win 7).blk t).view.emb (ix2 p q)) 0) (0 : Fin 1)) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts5 t
  show asE S10000x1 .f32 (V c (Pipeline.arrRef spec5 4)) (((cfg5.win 4).blk t).view.emb (ix2 p (0 : Fin 1))) = _
  refine congrArg _ ?_
  funext a; apply Fin.ext
  match a with
  | ⟨0, _⟩ => show win5_4.index t (0 : Fin 2) * 400 + 1 * p.val = win5_7.index t (0 : Fin 2) * 400 + 1 * p.val; omega
  | ⟨1, _⟩ => show win5_4.index t (1 : Fin 2) * 1 + 1 * 0 = 0; omega

/-- The residual block is the residual array at the output block's entries. -/
theorem blkR5 (c : Dev nD) (t : Fin cfg5.N) (p : Fin 400) (q : Fin 256) :
    iblk5 V c 5 t (ix2 p q) = asE S10000x256 .f32 (V c (Pipeline.arrRef spec5 5)) (((cfg5.win 7).blk t).view.emb (ix2 p q)) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts5 t
  show asE S10000x256 .f32 (V c (Pipeline.arrRef spec5 5)) (((cfg5.win 5).blk t).view.emb (ix2 p q)) = _
  refine congrArg _ ?_
  funext a; apply Fin.ext
  match a with
  | ⟨0, _⟩ => show win5_5.index t (0 : Fin 2) * 400 + 1 * p.val = win5_7.index t (0 : Fin 2) * 400 + 1 * p.val; omega
  | ⟨1, _⟩ => show win5_5.index t (1 : Fin 2) * 256 + 1 * q.val = win5_7.index t (1 : Fin 2) * 256 + 1 * q.val; omega

/-- The bias row, read through its block. -/
theorem blkB5 (c : Dev nD) (t : Fin cfg5.N) (p : Fin 400) (q : Fin 256) :
    iblk5 V c 6 t (ix2 (0 : Fin 1) q) = asE S1x256 .f32 (V c (Pipeline.arrRef spec5 6)) (ix2 (n1 := 256) (0 : Fin 1) ((((cfg5.win 7).blk t).view.emb (ix2 p q)) 1)) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts5 t
  show asE S1x256 .f32 (V c (Pipeline.arrRef spec5 6)) (((cfg5.win 6).blk t).view.emb (ix2 (0 : Fin 1) q)) = _
  refine congrArg _ ?_
  funext a; apply Fin.ext
  match a with
  | ⟨0, _⟩ => show win5_6.index t (0 : Fin 2) * 1 + 1 * 0 = 0; omega
  | ⟨1, _⟩ => show win5_6.index t (1 : Fin 2) * 256 + 1 * q.val = win5_7.index t (1 : Fin 2) * 256 + 1 * q.val; omega

/-- What point `t` writes back to the Laplacian output is block `t` of the Laplacian branch of the input arrays. -/
theorem flushed5_7_eq (c : Dev nD) (t : Fin cfg5.N) :
    (dat5 V c).flushed 7 t = ((cfg5.win 7).blk t).view.read (Elt Ideal)
      (lapArr (asE S10000x10000 .bf16 (V c (Pipeline.arrRef spec5 0))) (asE S10000x256 .bf16 (V c (Pipeline.arrRef spec5 1)))
        (asE S10000x1 .f32 (V c (Pipeline.arrRef spec5 3))) (asE S10000x256 .f32 (V c (Pipeline.arrRef spec5 5))) (asE S1x256 .f32 (V c (Pipeline.arrRef spec5 6)))) := by
  show (cfg5.win 7).cut (grid5.coords t) ((dat5 V c).after 7 t) = _
  rw [after5_7]
  unfold out5_7
  rw [View.canon_unit_zero zero_offset2]
  simp only [View.ld_unit_zero (S := S400x10000) zero_offset2, View.ld_unit_zero (S := S10000x256) zero_offset2,
    View.ld_unit_zero (S := S400x256) zero_offset2, View.ld_unit_zero (S := S1x256) zero_offset2, View.ld_unit_zero (S := S400x1) zero_offset2]
  funext j
  obtain ⟨p, q, rfl⟩ : ∃ (p : Fin 400) (q : Fin 256), j = ix2 p q := ⟨j 0, j 1, eq_ix2 j⟩
  show k5_pay3 (iblk5 V c 0 t) (iblk5 V c 1 t) (iblk5 V c 5 t) (iblk5 V c 6 t) (iblk5 V c 3 t) (ix2 p q)
    = (lapArr (asE S10000x10000 .bf16 (V c (Pipeline.arrRef spec5 0))) (asE S10000x256 .bf16 (V c (Pipeline.arrRef spec5 1)))
        (asE S10000x1 .f32 (V c (Pipeline.arrRef spec5 3))) (asE S10000x256 .f32 (V c (Pipeline.arrRef spec5 5))) (asE S1x256 .f32 (V c (Pipeline.arrRef spec5 6)))) (((cfg5.win 7).blk t).view.emb (ix2 p q))
  refine (pay5_lap_apply _ _ _ _ _ p q).trans ?_
  rw [blkR5 V c t p q, blkDr5 V c t p q, blkB5 V c t p q]
  simp only [blkA5 V c t p q, blkYl5 V c t p q]
  rfl

/-- What point `t` writes back to the adjacency output is block `t` of the adjacency branch of the input arrays. -/
theorem flushed5_8_eq (c : Dev nD) (t : Fin cfg5.N) :
    (dat5 V c).flushed 8 t = ((cfg5.win 8).blk t).view.read (Elt Ideal)
      (adjArr (asE S10000x10000 .bf16 (V c (Pipeline.arrRef spec5 0))) (asE S10000x256 .bf16 (V c (Pipeline.arrRef spec5 2)))
        (asE S10000x1 .f32 (V c (Pipeline.arrRef spec5 4))) (asE S1x256 .f32 (V c (Pipeline.arrRef spec5 6)))) := by
  show (cfg5.win 8).cut (grid5.coords t) ((dat5 V c).after 8 t) = _
  rw [after5_8]
  unfold out5_8
  rw [View.canon_unit_zero zero_offset2]
  simp only [View.ld_unit_zero (S := S400x10000) zero_offset2, View.ld_unit_zero (S := S10000x256) zero_offset2,
    View.ld_unit_zero (S := S400x256) zero_offset2, View.ld_unit_zero (S := S1x256) zero_offset2, View.ld_unit_zero (S := S400x1) zero_offset2]
  funext j
  obtain ⟨p, q, rfl⟩ : ∃ (p : Fin 400) (q : Fin 256), j = ix2 p q := ⟨j 0, j 1, eq_ix2 j⟩
  show k5_pay4 (iblk5 V c 0 t) (iblk5 V c 2 t) (iblk5 V c 6 t) (iblk5 V c 4 t) (ix2 p q)
    = (adjArr (asE S10000x10000 .bf16 (V c (Pipeline.arrRef spec5 0))) (asE S10000x256 .bf16 (V c (Pipeline.arrRef spec5 2)))
        (asE S10000x1 .f32 (V c (Pipeline.arrRef spec5 4))) (asE S1x256 .f32 (V c (Pipeline.arrRef spec5 6)))) (((cfg5.win 8).blk t).view.emb (ix2 p q))
  rw [emb8_eq5 t p q]
  refine (pay5_adj_apply _ _ _ _ p q).trans ?_
  rw [blkDc5 V c t p q, blkB5 V c t p q]
  simp only [blkA5 V c t p q, blkYa5 V c t p q]
  rfl

/-- An index of the array is in point `t`'s block of output 7 iff each coordinate is in the block's range on its axis. -/
theorem mem_blk5_7 (t : Fin cfg5.N) (i : S10000x256.Idx) :
    i ∈ ((cfg5.win 7).blk t).view.set ↔ ∀ a : Fin 2, win5_7.index t a * S400x256.size a ≤ (i a).val ∧ (i a).val < win5_7.index t a * S400x256.size a + S400x256.size a := by
  show i ∈ ((View.whole main_v52_0).slice (win5_7.rect t)).set ↔ _
  rw [View.set_slice_whole, Rect.mem_set_unit]
  exact Iff.rfl

/-- Row `r` lies in the block of point `r / 400`: the row blocks of output 7 cover the array. -/
theorem cover5_7 (i : S10000x256.Idx) : ∃ t : Fin cfg5.N, (cfg5.win 7).flush t = true ∧ i ∈ ((cfg5.win 7).blk t).view.set := by
  have hi0 : (i 0).val < 10000 := (i 0).isLt
  have hi1 : (i 1).val < 256 := (i 1).isLt
  obtain ⟨t, ht7, ht8⟩ := idx_onto5 ⟨(i 0).val / 400, by omega⟩
  have q0 : win5_7.index t (0 : Fin 2) = (i 0).val / 400 := congrFun ht7 0
  have q1 : win5_7.index t (1 : Fin 2) = 0 := congrFun ht7 1
  refine ⟨t, flush5_7 t, ?_⟩
  rw [mem_blk5_7]
  intro a
  match a with
  | ⟨0, _⟩ => show win5_7.index t (0 : Fin 2) * 400 ≤ (i 0).val ∧ (i 0).val < win5_7.index t (0 : Fin 2) * 400 + 400; omega
  | ⟨1, _⟩ => show win5_7.index t (1 : Fin 2) * 256 ≤ (i 1).val ∧ (i 1).val < win5_7.index t (1 : Fin 2) * 256 + 256; omega

/-- An index of the array is in point `t`'s block of output 8 iff each coordinate is in the block's range on its axis. -/
theorem mem_blk5_8 (t : Fin cfg5.N) (i : S10000x256.Idx) :
    i ∈ ((cfg5.win 8).blk t).view.set ↔ ∀ a : Fin 2, win5_8.index t a * S400x256.size a ≤ (i a).val ∧ (i a).val < win5_8.index t a * S400x256.size a + S400x256.size a := by
  show i ∈ ((View.whole main_v52_1).slice (win5_8.rect t)).set ↔ _
  rw [View.set_slice_whole, Rect.mem_set_unit]
  exact Iff.rfl

/-- Row `r` lies in the block of point `r / 400`: the row blocks of output 8 cover the array. -/
theorem cover5_8 (i : S10000x256.Idx) : ∃ t : Fin cfg5.N, (cfg5.win 8).flush t = true ∧ i ∈ ((cfg5.win 8).blk t).view.set := by
  have hi0 : (i 0).val < 10000 := (i 0).isLt
  have hi1 : (i 1).val < 256 := (i 1).isLt
  obtain ⟨t, ht7, ht8⟩ := idx_onto5 ⟨(i 0).val / 400, by omega⟩
  have q0 : win5_8.index t (0 : Fin 2) = (i 0).val / 400 := congrFun ht8 0
  have q1 : win5_8.index t (1 : Fin 2) = 0 := congrFun ht8 1
  refine ⟨t, flush5_8 t, ?_⟩
  rw [mem_blk5_8]
  intro a
  match a with
  | ⟨0, _⟩ => show win5_8.index t (0 : Fin 2) * 400 ≤ (i 0).val ∧ (i 0).val < win5_8.index t (0 : Fin 2) * 400 + 400; omega
  | ⟨1, _⟩ => show win5_8.index t (1 : Fin 2) * 256 ≤ (i 1).val ∧ (i 1).val < win5_8.index t (1 : Fin 2) * 256 + 256; omega

/-- The Laplacian output array of this step. -/
theorem fused5_lap_arr (c : Dev nD) :
    (dat5 V c).arrAt 7 cfg5.N = (lapArr (asE S10000x10000 .bf16 (V c (Pipeline.arrRef spec5 0))) (asE S10000x256 .bf16 (V c (Pipeline.arrRef spec5 1)))
        (asE S10000x1 .f32 (V c (Pipeline.arrRef spec5 3))) (asE S10000x256 .f32 (V c (Pipeline.arrRef spec5 5))) (asE S1x256 .f32 (V c (Pipeline.arrRef spec5 6)))) :=
  (dat5 V c).arrAt_eq_of_cover 7 _ (fun t _ => flushed5_7_eq V c t) cover5_7

/-- The adjacency output array of this step. -/
theorem fused5_adj_arr (c : Dev nD) :
    (dat5 V c).arrAt 8 cfg5.N = (adjArr (asE S10000x10000 .bf16 (V c (Pipeline.arrRef spec5 0))) (asE S10000x256 .bf16 (V c (Pipeline.arrRef spec5 2)))
        (asE S10000x1 .f32 (V c (Pipeline.arrRef spec5 4))) (asE S1x256 .f32 (V c (Pipeline.arrRef spec5 6)))) :=
  (dat5 V c).arrAt_eq_of_cover 8 _ (fun t _ => flushed5_8_eq V c t) cover5_8

/-- The Laplacian output, entry by entry. -/
theorem fused5_lap_apply (c : Dev nD) (r : Fin 10000) (j : Fin 256) :
    asE S10000x256 .f32 ((dat5 V c).arrAt 7 cfg5.N) (ix2 r j)
      = (asE S10000x256 .f32 (V c (Pipeline.arrRef spec5 5)) (ix2 r j)
          - asE S10000x1 .f32 (V c (Pipeline.arrRef spec5 3)) (ix2 r (0 : Fin 1))
            * ∑ q : Fin 10000, asE S10000x10000 .bf16 (V c (Pipeline.arrRef spec5 0)) (ix2 r q) * asE S10000x256 .bf16 (V c (Pipeline.arrRef spec5 1)) (ix2 q j))
        + asE S1x256 .f32 (V c (Pipeline.arrRef spec5 6)) (ix2 (0 : Fin 1) j) := by
  rw [fused5_lap_arr]; rfl

/-- The adjacency output, entry by entry. -/
theorem fused5_adj_apply (c : Dev nD) (r : Fin 10000) (j : Fin 256) :
    asE S10000x256 .f32 ((dat5 V c).arrAt 8 cfg5.N) (ix2 r j)
      = (asE S10000x1 .f32 (V c (Pipeline.arrRef spec5 4)) (ix2 r (0 : Fin 1))
            * ∑ q : Fin 10000, asE S10000x10000 .bf16 (V c (Pipeline.arrRef spec5 0)) (ix2 r q) * asE S10000x256 .bf16 (V c (Pipeline.arrRef spec5 2)) (ix2 q j))
        + asE S1x256 .f32 (V c (Pipeline.arrRef spec5 6)) (ix2 (0 : Fin 1) j) := by
  rw [fused5_adj_arr]; rfl

/-! ## The first step (with the rectifier) -/

/-- The Laplacian branch's arithmetic at an entry of the block, rectified. -/
theorem pay2_lap_apply (x0 : Vec Ideal S400x10000 .bf16) (x1 : Vec Ideal S10000x256 .bf16) (x5 : Vec Ideal S400x256 .f32)
    (x6 : Vec Ideal S1x256 .f32) (x3 : Vec Ideal S400x1 .f32) (p : Fin 400) (q : Fin 256) :
    k2_pay3 x0 x1 x5 x6 x3 (ix2 p q)
      = max ((x5 (ix2 p q) - x3 (ix2 p (0 : Fin 1)) * ∑ k : Fin 10000, x0 (ix2 p k) * x1 (ix2 k q)) + x6 (ix2 (0 : Fin 1) q)) 0 := by
  unfold k2_pay3 k2_pay1 k2_pay2
  simp only [shapeCast_self]
  show max ((x5 (ix2 p q) - broadcastTo S400x256 x3 broadcasts_S400x1_S400x256 (ix2 p q)
      * matmul dot_S400x10000_S10000x256_S400x256_1_0_0_1_n_n none x0 x1 (constant (F := Ideal) S400x256 .f32 0x00000000#32) (ix2 p q))
      + broadcastTo S400x256 x6 broadcasts_S1x256_S400x256 (ix2 p q)) (Ideal.ofBits .f32 0x00000000#32) = _
  rw [Ideal.ofBits_zero_f32, Cert.ColumnLayout.broadcastTo_a1_ab_apply, broadcastTo_1b_ab_apply,
    Cert.DenseRows.matmul_zero_plain_apply _ rfl rfl rfl rfl (fun _ _ => rfl) (fun _ _ => rfl)]

/-- The adjacency branch's arithmetic at an entry of the block, rectified. -/
theorem pay2_adj_apply (x0 : Vec Ideal S400x10000 .bf16) (x2 : Vec Ideal S10000x256 .bf16)
    (x6 : Vec Ideal S1x256 .f32) (x4 : Vec Ideal S400x1 .f32) (p : Fin 400) (q : Fin 256) :
    k2_pay4 x0 x2 x6 x4 (ix2 p q)
      = max ((x4 (ix2 p (0 : Fin 1)) * ∑ k : Fin 10000, x0 (ix2 p k) * x2 (ix2 k q)) + x6 (ix2 (0 : Fin 1) q)) 0 := by
  unfold k2_pay4 k2_pay1 k2_pay2
  simp only [shapeCast_self]
  show max (broadcastTo S400x256 x4 broadcasts_S400x1_S400x256 (ix2 p q)
      * matmul dot_S400x10000_S10000x256_S400x256_1_0_0_1_n_n none x0 x2 (constant (F := Ideal) S400x256 .f32 0x00000000#32) (ix2 p q)
      + broadcastTo S400x256 x6 broadcasts_S1x256_S400x256 (ix2 p q)) (Ideal.ofBits .f32 0x00000000#32) = _
  rw [Ideal.ofBits_zero_f32, Cert.ColumnLayout.broadcastTo_a1_ab_apply, broadcastTo_1b_ab_apply,
    Cert.DenseRows.matmul_zero_plain_apply _ rfl rfl rfl rfl (fun _ _ => rfl) (fun _ _ => rfl)]

/-- The index maps over the grid: every row-blocked window moves with the outputs, the whole-array windows stay. -/
theorem idx_facts2 : ∀ t : Fin cfg2.N,
    (win2_0.index t (0 : Fin 2) = win2_7.index t (0 : Fin 2) ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = win2_7.index t (0 : Fin 2) ∧ win2_3.index t (1 : Fin 2) = 0)
    ∧ (win2_4.index t (0 : Fin 2) = win2_7.index t (0 : Fin 2) ∧ win2_4.index t (1 : Fin 2) = 0)
    ∧ (win2_5.index t (0 : Fin 2) = win2_7.index t (0 : Fin 2) ∧ win2_5.index t (1 : Fin 2) = 0)
    ∧ (win2_6.index t (0 : Fin 2) = 0 ∧ win2_6.index t (1 : Fin 2) = 0)
    ∧ (win2_8.index t (0 : Fin 2) = win2_7.index t (0 : Fin 2) ∧ win2_8.index t (1 : Fin 2) = 0)
    ∧ win2_7.index t (1 : Fin 2) = 0 :=
  (by decide +kernel : ∀ t : Fin grid2.N, _)

/-- Every row block is some point's, for both outputs. -/
theorem idx_onto2 : ∀ q0 : Fin 25, ∃ t : Fin cfg2.N, win2_7.index t = ![q0.val, 0] ∧ win2_8.index t = ![q0.val, 0] :=
  (by decide +kernel : ∀ q0 : Fin 25, ∃ t : Fin grid2.N, win2_7.index t = ![q0.val, 0] ∧ win2_8.index t = ![q0.val, 0])

/-- The two outputs' blocks sit at the same rows and columns. -/
theorem emb8_eq2 (t : Fin cfg2.N) (p : Fin 400) (q : Fin 256) :
    ((cfg2.win 8).blk t).view.emb (ix2 p q) = (((cfg2.win 7).blk t).view.emb (ix2 p q)) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts2 t
  funext a; apply Fin.ext
  match a with
  | ⟨0, _⟩ => show win2_8.index t (0 : Fin 2) * 400 + 1 * p.val = win2_7.index t (0 : Fin 2) * 400 + 1 * p.val; omega
  | ⟨1, _⟩ => show win2_8.index t (1 : Fin 2) * 256 + 1 * q.val = win2_7.index t (1 : Fin 2) * 256 + 1 * q.val; omega

/-- Row `p` of the adjacency block is the adjacency's row at the output block's row. -/
theorem blkA2 (c : Dev nD) (t : Fin cfg2.N) (p : Fin 400) (q : Fin 256) (k : Fin 10000) :
    iblk2 V c 0 t (ix2 p k) = asE S10000x10000 .bf16 (V c (Pipeline.arrRef spec2 0)) (ix2 (n0 := 10000) ((((cfg2.win 7).blk t).view.emb (ix2 p q)) 0) k) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts2 t
  show asE S10000x10000 .bf16 (V c (Pipeline.arrRef spec2 0)) (((cfg2.win 0).blk t).view.emb (ix2 p k)) = _
  refine congrArg _ ?_
  funext a; apply Fin.ext
  match a with
  | ⟨0, _⟩ => show win2_0.index t (0 : Fin 2) * 400 + 1 * p.val = win2_7.index t (0 : Fin 2) * 400 + 1 * p.val; omega
  | ⟨1, _⟩ => show win2_0.index t (1 : Fin 2) * 10000 + 1 * k.val = k.val; omega

/-- Column `q` of the whole feature array of window 1, read through its block. -/
theorem blkYl2 (c : Dev nD) (t : Fin cfg2.N) (p : Fin 400) (q : Fin 256) (k : Fin 10000) :
    iblk2 V c 1 t (ix2 k q) = asE S10000x256 .bf16 (V c (Pipeline.arrRef spec2 1)) (ix2 (n1 := 256) k ((((cfg2.win 7).blk t).view.emb (ix2 p q)) 1)) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts2 t
  show asE S10000x256 .bf16 (V c (Pipeline.arrRef spec2 1)) (((cfg2.win 1).blk t).view.emb (ix2 k q)) = _
  refine congrArg _ ?_
  funext a; apply Fin.ext
  match a with
  | ⟨0, _⟩ => show win2_1.index t (0 : Fin 2) * 10000 + 1 * k.val = k.val; omega
  | ⟨1, _⟩ => show win2_1.index t (1 : Fin 2) * 256 + 1 * q.val = win2_7.index t (1 : Fin 2) * 256 + 1 * q.val; omega

/-- Column `q` of the whole feature array of window 2, read through its block. -/
theorem blkYa2 (c : Dev nD) (t : Fin cfg2.N) (p : Fin 400) (q : Fin 256) (k : Fin 10000) :
    iblk2 V c 2 t (ix2 k q) = asE S10000x256 .bf16 (V c (Pipeline.arrRef spec2 2)) (ix2 (n1 := 256) k ((((cfg2.win 7).blk t).view.emb (ix2 p q)) 1)) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts2 t
  show asE S10000x256 .bf16 (V c (Pipeline.arrRef spec2 2)) (((cfg2.win 2).blk t).view.emb (ix2 k q)) = _
  refine congrArg _ ?_
  funext a; apply Fin.ext
  match a with
  | ⟨0, _⟩ => show win2_2.index t (0 : Fin 2) * 10000 + 1 * k.val = k.val; omega
  | ⟨1, _⟩ => show win2_2.index t (1 : Fin 2) * 256 + 1 * q.val = win2_7.index t (1 : Fin 2) * 256 + 1 * q.val; omega

/-- Row `p` of the degree-factor column of window 3, read through its block. -/
theorem blkDr2 (c : Dev nD) (t : Fin cfg2.N) (p : Fin 400) (q : Fin 256) :
    iblk2 V c 3 t (ix2 p (0 : Fin 1)) = asE S10000x1 .f32 (V c (Pipeline.arrRef spec2 3)) (ix2 (n0 := 10000) ((((cfg2.win 7).blk t).view.emb (ix2 p q)) 0) (0 : Fin 1)) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts2 t
  show asE S10000x1 .f32 (V c (Pipeline.arrRef spec2 3)) (((cfg2.win 3).blk t).view.emb (ix2 p (0 : Fin 1))) = _
  refine congrArg _ ?_
  funext a; apply Fin.ext
  match a with
  | ⟨0, _⟩ => show win2_3.index t (0 : Fin 2) * 400 + 1 * p.val = win2_7.index t (0 : Fin 2) * 400 + 1 * p.val; omega
  | ⟨1, _⟩ => show win2_3.index t (1 : Fin 2) * 1 + 1 * 0 = 0; omega

/-- Row `p` of the degree-factor column of window 4, read through its block. -/
theorem blkDc2 (c : Dev nD) (t : Fin cfg2.N) (p : Fin 400) (q : Fin 256) :
    iblk2 V c 4 t (ix2 p (0 : Fin 1)) = asE S10000x1 .f32 (V c (Pipeline.arrRef spec2 4)) (ix2 (n0 := 10000) ((((cfg2.win 7).blk t).view.emb (ix2 p q)) 0) (0 : Fin 1)) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts2 t
  show asE S10000x1 .f32 (V c (Pipeline.arrRef spec2 4)) (((cfg2.win 4).blk t).view.emb (ix2 p (0 : Fin 1))) = _
  refine congrArg _ ?_
  funext a; apply Fin.ext
  match a with
  | ⟨0, _⟩ => show win2_4.index t (0 : Fin 2) * 400 + 1 * p.val = win2_7.index t (0 : Fin 2) * 400 + 1 * p.val; omega
  | ⟨1, _⟩ => show win2_4.index t (1 : Fin 2) * 1 + 1 * 0 = 0; omega

/-- The residual block is the residual array at the output block's entries. -/
theorem blkR2 (c : Dev nD) (t : Fin cfg2.N) (p : Fin 400) (q : Fin 256) :
    iblk2 V c 5 t (ix2 p q) = asE S10000x256 .f32 (V c (Pipeline.arrRef spec2 5)) (((cfg2.win 7).blk t).view.emb (ix2 p q)) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts2 t
  show asE S10000x256 .f32 (V c (Pipeline.arrRef spec2 5)) (((cfg2.win 5).blk t).view.emb (ix2 p q)) = _
  refine congrArg _ ?_
  funext a; apply Fin.ext
  match a with
  | ⟨0, _⟩ => show win2_5.index t (0 : Fin 2) * 400 + 1 * p.val = win2_7.index t (0 : Fin 2) * 400 + 1 * p.val; omega
  | ⟨1, _⟩ => show win2_5.index t (1 : Fin 2) * 256 + 1 * q.val = win2_7.index t (1 : Fin 2) * 256 + 1 * q.val; omega

/-- The bias row, read through its block. -/
theorem blkB2 (c : Dev nD) (t : Fin cfg2.N) (p : Fin 400) (q : Fin 256) :
    iblk2 V c 6 t (ix2 (0 : Fin 1) q) = asE S1x256 .f32 (V c (Pipeline.arrRef spec2 6)) (ix2 (n1 := 256) (0 : Fin 1) ((((cfg2.win 7).blk t).view.emb (ix2 p q)) 1)) := by
  obtain ⟨⟨a0, a1⟩, ⟨b0, b1⟩, ⟨c0, c1⟩, ⟨d0, d1⟩, ⟨e0, e1⟩, ⟨f0, f1⟩, ⟨g0, g1⟩, ⟨h0, h1⟩, o1⟩ := idx_facts2 t
  show asE S1x256 .f32 (V c (Pipeline.arrRef spec2 6)) (((cfg2.win 6).blk t).view.emb (ix2 (0 : Fin 1) q)) = _
  refine congrArg _ ?_
  funext a; apply Fin.ext
  match a with
  | ⟨0, _⟩ => show win2_6.index t (0 : Fin 2) * 1 + 1 * 0 = 0; omega
  | ⟨1, _⟩ => show win2_6.index t (1 : Fin 2) * 256 + 1 * q.val = win2_7.index t (1 : Fin 2) * 256 + 1 * q.val; omega

/-- What point `t` writes back to the Laplacian output is block `t` of the Laplacian branch of the input arrays. -/
theorem flushed2_7_eq (c : Dev nD) (t : Fin cfg2.N) :
    (dat2 V c).flushed 7 t = ((cfg2.win 7).blk t).view.read (Elt Ideal)
      (lapReluArr (asE S10000x10000 .bf16 (V c (Pipeline.arrRef spec2 0))) (asE S10000x256 .bf16 (V c (Pipeline.arrRef spec2 1)))
        (asE S10000x1 .f32 (V c (Pipeline.arrRef spec2 3))) (asE S10000x256 .f32 (V c (Pipeline.arrRef spec2 5))) (asE S1x256 .f32 (V c (Pipeline.arrRef spec2 6)))) := by
  show (cfg2.win 7).cut (grid2.coords t) ((dat2 V c).after 7 t) = _
  rw [after2_7]
  unfold out2_7
  rw [View.canon_unit_zero zero_offset2]
  simp only [View.ld_unit_zero (S := S400x10000) zero_offset2, View.ld_unit_zero (S := S10000x256) zero_offset2,
    View.ld_unit_zero (S := S400x256) zero_offset2, View.ld_unit_zero (S := S1x256) zero_offset2, View.ld_unit_zero (S := S400x1) zero_offset2]
  funext j
  obtain ⟨p, q, rfl⟩ : ∃ (p : Fin 400) (q : Fin 256), j = ix2 p q := ⟨j 0, j 1, eq_ix2 j⟩
  show k2_pay3 (iblk2 V c 0 t) (iblk2 V c 1 t) (iblk2 V c 5 t) (iblk2 V c 6 t) (iblk2 V c 3 t) (ix2 p q)
    = (lapReluArr (asE S10000x10000 .bf16 (V c (Pipeline.arrRef spec2 0))) (asE S10000x256 .bf16 (V c (Pipeline.arrRef spec2 1)))
        (asE S10000x1 .f32 (V c (Pipeline.arrRef spec2 3))) (asE S10000x256 .f32 (V c (Pipeline.arrRef spec2 5))) (asE S1x256 .f32 (V c (Pipeline.arrRef spec2 6)))) (((cfg2.win 7).blk t).view.emb (ix2 p q))
  refine (pay2_lap_apply _ _ _ _ _ p q).trans ?_
  rw [blkR2 V c t p q, blkDr2 V c t p q, blkB2 V c t p q]
  simp only [blkA2 V c t p q, blkYl2 V c t p q]
  rfl

/-- What point `t` writes back to the adjacency output is block `t` of the adjacency branch of the input arrays. -/
theorem flushed2_8_eq (c : Dev nD) (t : Fin cfg2.N) :
    (dat2 V c).flushed 8 t = ((cfg2.win 8).blk t).view.read (Elt Ideal)
      (adjReluArr (asE S10000x10000 .bf16 (V c (Pipeline.arrRef spec2 0))) (asE S10000x256 .bf16 (V c (Pipeline.arrRef spec2 2)))
        (asE S10000x1 .f32 (V c (Pipeline.arrRef spec2 4))) (asE S1x256 .f32 (V c (Pipeline.arrRef spec2 6)))) := by
  show (cfg2.win 8).cut (grid2.coords t) ((dat2 V c).after 8 t) = _
  rw [after2_8]
  unfold out2_8
  rw [View.canon_unit_zero zero_offset2]
  simp only [View.ld_unit_zero (S := S400x10000) zero_offset2, View.ld_unit_zero (S := S10000x256) zero_offset2,
    View.ld_unit_zero (S := S400x256) zero_offset2, View.ld_unit_zero (S := S1x256) zero_offset2, View.ld_unit_zero (S := S400x1) zero_offset2]
  funext j
  obtain ⟨p, q, rfl⟩ : ∃ (p : Fin 400) (q : Fin 256), j = ix2 p q := ⟨j 0, j 1, eq_ix2 j⟩
  show k2_pay4 (iblk2 V c 0 t) (iblk2 V c 2 t) (iblk2 V c 6 t) (iblk2 V c 4 t) (ix2 p q)
    = (adjReluArr (asE S10000x10000 .bf16 (V c (Pipeline.arrRef spec2 0))) (asE S10000x256 .bf16 (V c (Pipeline.arrRef spec2 2)))
        (asE S10000x1 .f32 (V c (Pipeline.arrRef spec2 4))) (asE S1x256 .f32 (V c (Pipeline.arrRef spec2 6)))) (((cfg2.win 8).blk t).view.emb (ix2 p q))
  rw [emb8_eq2 t p q]
  refine (pay2_adj_apply _ _ _ _ p q).trans ?_
  rw [blkDc2 V c t p q, blkB2 V c t p q]
  simp only [blkA2 V c t p q, blkYa2 V c t p q]
  rfl

/-- An index of the array is in point `t`'s block of output 7 iff each coordinate is in the block's range on its axis. -/
theorem mem_blk2_7 (t : Fin cfg2.N) (i : S10000x256.Idx) :
    i ∈ ((cfg2.win 7).blk t).view.set ↔ ∀ a : Fin 2, win2_7.index t a * S400x256.size a ≤ (i a).val ∧ (i a).val < win2_7.index t a * S400x256.size a + S400x256.size a := by
  show i ∈ ((View.whole main_v42_0).slice (win2_7.rect t)).set ↔ _
  rw [View.set_slice_whole, Rect.mem_set_unit]
  exact Iff.rfl

/-- Row `r` lies in the block of point `r / 400`: the row blocks of output 7 cover the array. -/
theorem cover2_7 (i : S10000x256.Idx) : ∃ t : Fin cfg2.N, (cfg2.win 7).flush t = true ∧ i ∈ ((cfg2.win 7).blk t).view.set := by
  have hi0 : (i 0).val < 10000 := (i 0).isLt
  have hi1 : (i 1).val < 256 := (i 1).isLt
  obtain ⟨t, ht7, ht8⟩ := idx_onto2 ⟨(i 0).val / 400, by omega⟩
  have q0 : win2_7.index t (0 : Fin 2) = (i 0).val / 400 := congrFun ht7 0
  have q1 : win2_7.index t (1 : Fin 2) = 0 := congrFun ht7 1
  refine ⟨t, flush2_7 t, ?_⟩
  rw [mem_blk2_7]
  intro a
  match a with
  | ⟨0, _⟩ => show win2_7.index t (0 : Fin 2) * 400 ≤ (i 0).val ∧ (i 0).val < win2_7.index t (0 : Fin 2) * 400 + 400; omega
  | ⟨1, _⟩ => show win2_7.index t (1 : Fin 2) * 256 ≤ (i 1).val ∧ (i 1).val < win2_7.index t (1 : Fin 2) * 256 + 256; omega

/-- An index of the array is in point `t`'s block of output 8 iff each coordinate is in the block's range on its axis. -/
theorem mem_blk2_8 (t : Fin cfg2.N) (i : S10000x256.Idx) :
    i ∈ ((cfg2.win 8).blk t).view.set ↔ ∀ a : Fin 2, win2_8.index t a * S400x256.size a ≤ (i a).val ∧ (i a).val < win2_8.index t a * S400x256.size a + S400x256.size a := by
  show i ∈ ((View.whole main_v42_1).slice (win2_8.rect t)).set ↔ _
  rw [View.set_slice_whole, Rect.mem_set_unit]
  exact Iff.rfl

/-- Row `r` lies in the block of point `r / 400`: the row blocks of output 8 cover the array. -/
theorem cover2_8 (i : S10000x256.Idx) : ∃ t : Fin cfg2.N, (cfg2.win 8).flush t = true ∧ i ∈ ((cfg2.win 8).blk t).view.set := by
  have hi0 : (i 0).val < 10000 := (i 0).isLt
  have hi1 : (i 1).val < 256 := (i 1).isLt
  obtain ⟨t, ht7, ht8⟩ := idx_onto2 ⟨(i 0).val / 400, by omega⟩
  have q0 : win2_8.index t (0 : Fin 2) = (i 0).val / 400 := congrFun ht8 0
  have q1 : win2_8.index t (1 : Fin 2) = 0 := congrFun ht8 1
  refine ⟨t, flush2_8 t, ?_⟩
  rw [mem_blk2_8]
  intro a
  match a with
  | ⟨0, _⟩ => show win2_8.index t (0 : Fin 2) * 400 ≤ (i 0).val ∧ (i 0).val < win2_8.index t (0 : Fin 2) * 400 + 400; omega
  | ⟨1, _⟩ => show win2_8.index t (1 : Fin 2) * 256 ≤ (i 1).val ∧ (i 1).val < win2_8.index t (1 : Fin 2) * 256 + 256; omega

/-- The Laplacian output array of this step. -/
theorem fused2_lap_arr (c : Dev nD) :
    (dat2 V c).arrAt 7 cfg2.N = (lapReluArr (asE S10000x10000 .bf16 (V c (Pipeline.arrRef spec2 0))) (asE S10000x256 .bf16 (V c (Pipeline.arrRef spec2 1)))
        (asE S10000x1 .f32 (V c (Pipeline.arrRef spec2 3))) (asE S10000x256 .f32 (V c (Pipeline.arrRef spec2 5))) (asE S1x256 .f32 (V c (Pipeline.arrRef spec2 6)))) :=
  (dat2 V c).arrAt_eq_of_cover 7 _ (fun t _ => flushed2_7_eq V c t) cover2_7

/-- The adjacency output array of this step. -/
theorem fused2_adj_arr (c : Dev nD) :
    (dat2 V c).arrAt 8 cfg2.N = (adjReluArr (asE S10000x10000 .bf16 (V c (Pipeline.arrRef spec2 0))) (asE S10000x256 .bf16 (V c (Pipeline.arrRef spec2 2)))
        (asE S10000x1 .f32 (V c (Pipeline.arrRef spec2 4))) (asE S1x256 .f32 (V c (Pipeline.arrRef spec2 6)))) :=
  (dat2 V c).arrAt_eq_of_cover 8 _ (fun t _ => flushed2_8_eq V c t) cover2_8

/-- The Laplacian output, entry by entry. -/
theorem fused2_lap_apply (c : Dev nD) (r : Fin 10000) (j : Fin 256) :
    asE S10000x256 .f32 ((dat2 V c).arrAt 7 cfg2.N) (ix2 r j)
      = max ((asE S10000x256 .f32 (V c (Pipeline.arrRef spec2 5)) (ix2 r j)
          - asE S10000x1 .f32 (V c (Pipeline.arrRef spec2 3)) (ix2 r (0 : Fin 1))
            * ∑ q : Fin 10000, asE S10000x10000 .bf16 (V c (Pipeline.arrRef spec2 0)) (ix2 r q) * asE S10000x256 .bf16 (V c (Pipeline.arrRef spec2 1)) (ix2 q j))
        + asE S1x256 .f32 (V c (Pipeline.arrRef spec2 6)) (ix2 (0 : Fin 1) j)) 0 := by
  rw [fused2_lap_arr]; rfl

/-- The adjacency output, entry by entry. -/
theorem fused2_adj_apply (c : Dev nD) (r : Fin 10000) (j : Fin 256) :
    asE S10000x256 .f32 ((dat2 V c).arrAt 8 cfg2.N) (ix2 r j)
      = max ((asE S10000x1 .f32 (V c (Pipeline.arrRef spec2 4)) (ix2 r (0 : Fin 1))
            * ∑ q : Fin 10000, asE S10000x10000 .bf16 (V c (Pipeline.arrRef spec2 0)) (ix2 r q) * asE S10000x256 .bf16 (V c (Pipeline.arrRef spec2 2)) (ix2 q j))
        + asE S1x256 .f32 (V c (Pipeline.arrRef spec2 6)) (ix2 (0 : Fin 1) j)) 0 := by
  rw [fused2_adj_arr]; rfl

end Cert.KerValue

end
-- ==== Proof.LibRowLift.lean ====
/-
  A row index lifted back along the columns: for a reduction of `[M, N]` along its columns to `[M]`, the source index over
  row `r` with column coordinate `k` is `(r, k)`.
-/
import Idealize.ShloMosaic.Lib.ValueIdx
import Idealize.ShloMosaic.PureOps.Ideal.Laws

namespace Cert.RowLift

open Idealize.ShloMosaic Idealize.ShloMosaic.ValueIdx

/-- The source index over row `r` whose coordinate on the reduced column axis is `k` is `(r, k)`. -/
theorem lift_row {M N : ℕ} (h : (⟨2, ![M, N]⟩ : Shape).Reduces [(1 : Fin 2)] ⟨1, ![M]⟩) (r : Fin M) (k : Fin N) :
    h.lift (ix1 r) k = ix2 r k := by
  funext c
  apply Fin.ext
  match c with
  | ⟨0, _⟩ => rfl
  | ⟨1, _⟩ => rfl

end Cert.RowLift
-- ==== Proof.KerDegree.lean ====
/-
  The degree region read as sums of the adjacency. The region walks the row blocks of `A : [10000, 10000]`, fifty blocks of
  two hundred rows. At block `t` it leaves, in rows `200 t … 200 t + 199` of a column `[10000, 1]`, each row's sum over all
  columns; and it adds the block's column sums into one row `[1, 10000]` that it zeroes at the first block and keeps from one
  block to the next. So the column ends holding every row's sum, and the row every column's sum: the sum over the rows of a
  column is the sum over the blocks of the sums over each block's rows.
-/
import proofs.«165336_j42056319762462_2_alg».proof.Proof.Gen.KernelIdeal.Frame
import proofs.«165336_j42056319762462_2_alg».proof.Proof.LibDenseRows
import proofs.«165336_j42056319762462_2_alg».proof.Proof.LibRowLift
import proofs.«165336_j42056319762462_2_alg».proof.Proof.LibColumnLayout
import proofs.«165336_j42056319762462_2_alg».proof.Proof.IdealRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

namespace Cert.KerValue

/-! ## Sums over the rows, block by block -/

/-- The rows of `[10000]` are the fifty blocks of two hundred: row `200 t + p` is row `p` of block `t`. -/
theorem sum_rows_blocks (f : Fin 10000 → EReal) :
    ∑ t : Fin 50, ∑ p : Fin 200, f ⟨200 * t.val + p.val, by have := t.isLt; have := p.isLt; omega⟩ = ∑ r : Fin 10000, f r := by
  have e := (Equiv.sum_comp (finProdFinEquiv : Fin 50 × Fin 200 ≃ Fin (50 * 200)) f).symm
  refine Eq.trans ?_ e.symm
  rw [Fintype.sum_prod_type]
  refine Finset.sum_congr rfl fun t _ => Finset.sum_congr rfl fun p _ => congrArg f (Fin.ext ?_)
  show 200 * t.val + p.val = p.val + 200 * t.val
  omega

/-- The sum of column `q` of `A` over the rows of block `t` (zero past the last block). -/
def blockColSum (A : S10000x10000.Idx → EReal) (q : Fin 10000) (t : ℕ) : EReal :=
  if h : t < 50 then ∑ p : Fin 200, A (ix2 (⟨200 * t + p.val, by have := p.isLt; omega⟩ : Fin 10000) q) else 0

/-- The block sums of a column, over all fifty blocks, add up to the column's sum. -/
theorem sum_blockColSum (A : S10000x10000.Idx → EReal) (q : Fin 10000) :
    ∑ t ∈ Finset.range 50, blockColSum A q t = ∑ r : Fin 10000, A (ix2 r q) := by
  rw [Finset.sum_range (fun t => blockColSum A q t)]
  refine Eq.trans ?_ (sum_rows_blocks fun r => A (ix2 r q))
  refine Finset.sum_congr rfl fun t _ => ?_
  unfold blockColSum
  rw [dif_pos t.isLt]

/-! ## The body's arithmetic at an index -/

/-- The source index over column `q` whose coordinate on the reduced row axis is `k` is `(k, q)`. -/
theorem lift_col {M N : ℕ} (h : (⟨2, ![M, N]⟩ : Shape).Reduces [(0 : Fin 2)] ⟨1, ![N]⟩) (q : Fin N) (k : Fin M) :
    h.lift (ix1 q) k = ix2 k q := by
  funext c
  apply Fin.ext
  match c with
  | ⟨0, _⟩ => rfl
  | ⟨1, _⟩ => rfl

/-- The reduction of `[M, N]` along its rows from the zero word, at column `q`. -/
theorem colSum_apply {M N : ℕ} (src : FVec Ideal ⟨2, ![M, N]⟩ .f32) (h : (⟨2, ![M, N]⟩ : Shape).Reduces [(0 : Fin 2)] ⟨1, ![N]⟩)
    (hφ : FKind.Formats .f32) (hacc : (0x00000000#32 : BitVec 32) = FKind.add.neutral .f32 hφ) (q : Fin N) :
    multiReduction .add [(0 : Fin 2)] ⟨1, ![N]⟩ src 0x00000000#32 h hφ hacc (ix1 q) = ∑ k : Fin M, src (ix2 k q) :=
  (Ideal.multiReduction_add_single src 0x00000000#32 h hφ hacc (ix1 q)).trans
    (Finset.sum_congr rfl fun k _ => congrArg src (lift_col h q k))

/-- The block widened to f32 is the block: a change of format is the identity on the extended reals. -/
theorem widened_apply (x0 : Vec Ideal S200x10000 .bf16) (p : Fin 200) (k : Fin 10000) :
    k0_pay1 (F := Ideal) x0 (ix2 p k) = x0 (ix2 p k) := by
  unfold k0_pay1
  exact congrFun (shapeCast_self x0 _) (ix2 p k)

/-- The column the body stores: row `p` of it is the sum of the block's row `p` over all columns. -/
theorem rowSums_apply (x0 : Vec Ideal S200x10000 .bf16) (p : Fin 200) (u : Fin 1) :
    k0_pay2 (F := Ideal) x0 (ix2 p u) = ∑ k : Fin 10000, x0 (ix2 p k) := by
  unfold k0_pay2
  refine (Cert.ColumnLayout.shapeCast_a_a1_apply _ _ p u).trans ?_
  refine (Cert.DenseRows.laneSum_apply _ _ _ _ (Cert.RowLift.lift_row _) p).trans ?_
  exact Finset.sum_congr rfl fun k _ => widened_apply x0 p k

/-- The zero row the body stores at the first block. -/
theorem zeroRow_apply (u : Fin 1) (q : Fin 10000) : k0_pay3 (F := Ideal) (ix2 u q) = 0 := by
  unfold k0_pay3
  exact Ideal.ofBits_zero_f32

/-- The row the body stores: the row it held plus the block's column sums. -/
theorem colSums_apply (x0 : Vec Ideal S200x10000 .bf16) (acc : Vec Ideal S1x10000 .f32) (u : Fin 1) (q : Fin 10000) :
    k0_pay4 (F := Ideal) x0 acc (ix2 u q) = acc (ix2 u q) + ∑ p : Fin 200, x0 (ix2 p q) := by
  unfold k0_pay4
  refine (addf_apply _ _ _).trans ?_
  refine congrArg₂ (· + ·) (congrFun (shapeCast_self acc _) (ix2 u q)) ?_
  refine (shapeCast_a_1a_apply _ _ u q).trans ?_
  refine (colSum_apply _ _ _ _ q).trans ?_
  exact Finset.sum_congr rfl fun p _ => widened_apply x0 p q

/-! ## What each case of the body leaves -/

theorem hz : (![0, 0] : Fin 2 → Nat) = fun _ => 0 := funext fun a => by fin_cases a <;> rfl

/-- At the first block the column's buffer is left at the row sums of the block. -/
theorem left_A_1 (c : Dev nD) (i : grid0.Coords) (a1 : Memref sig .tc .vmem S200x10000 .bf16) (h1 : a1.IsWhole)
    (a2 : Memref sig .tc .vmem S200x1 .f32) (h2 : a2.IsWhole) (a3 : Memref sig .tc .vmem S1x10000 .f32) (h3 : a3.IsWhole)
    (hc : cond0_0 i) (x0 : Vec Ideal S200x10000 .bf16) :
    out0_A_1 (F := Ideal) c i a1 h1 a2 h2 a3 h3 hc x0 = k0_pay2 x0 := by
  unfold out0_A_1
  rw [View.read_writes_eq_canon _ _ _ (cover0_A_1 c i a1 h1 a2 h2 a3 h3 hc x0)]
  unfold kernelRun0_A
  dsimp only
  rw [View.canon_unit_zero hz]
  simp only [View.readAt_eq_ld, h1.read_unread, View.ld_unit_zero (S := S200x10000) hz]

/-- At every later block too. -/
theorem left_B_1 (c : Dev nD) (i : grid0.Coords) (a1 : Memref sig .tc .vmem S200x10000 .bf16) (h1 : a1.IsWhole)
    (a2 : Memref sig .tc .vmem S200x1 .f32) (h2 : a2.IsWhole) (a3 : Memref sig .tc .vmem S1x10000 .f32) (h3 : a3.IsWhole)
    (hc : ¬cond0_0 i) (x0 : Vec Ideal S200x10000 .bf16) (xo : Vec Ideal S1x10000 .f32) :
    out0_B_1 (F := Ideal) c i a1 h1 a2 h2 a3 h3 hc x0 xo = k0_pay2 x0 := by
  unfold out0_B_1
  rw [View.read_writes_eq_canon _ _ _ (cover0_B_1 c i a1 h1 a2 h2 a3 h3 hc x0 xo)]
  unfold kernelRun0_B
  dsimp only
  rw [View.canon_unit_zero hz]
  simp only [View.readAt_eq_ld, h1.read_unread, View.ld_unit_zero (S := S200x10000) hz]

/-- At the first block the row's buffer is zeroed, read back, and left at zero plus the block's column sums. -/
theorem left_A_2 (c : Dev nD) (i : grid0.Coords) (a1 : Memref sig .tc .vmem S200x10000 .bf16) (h1 : a1.IsWhole)
    (a2 : Memref sig .tc .vmem S200x1 .f32) (h2 : a2.IsWhole) (a3 : Memref sig .tc .vmem S1x10000 .f32) (h3 : a3.IsWhole)
    (hc : cond0_0 i) (x0 : Vec Ideal S200x10000 .bf16) :
    out0_A_2 (F := Ideal) c i a1 h1 a2 h2 a3 h3 hc x0 = k0_pay4 x0 (k0_pay3 (F := Ideal)) := by
  unfold out0_A_2
  rw [View.read_writes_eq_canon _ _ _ (cover0_A_2 c i a1 h1 a2 h2 a3 h3 hc x0)]
  unfold kernelRun0_A
  dsimp only
  sl_unfold_words
  rw [View.canon_cons_unit_zero (S := S1x10000) hz, View.readCov_unit_zero (S := S1x10000) _ hz]
  simp only [View.readAt_eq_ld, h1.read_unread, View.ld_unit_zero (S := S200x10000) hz]

/-- At a later block the row's buffer, holding `xo`, is left at `xo` plus the block's column sums. -/
theorem left_B_2 (c : Dev nD) (i : grid0.Coords) (a1 : Memref sig .tc .vmem S200x10000 .bf16) (h1 : a1.IsWhole)
    (a2 : Memref sig .tc .vmem S200x1 .f32) (h2 : a2.IsWhole) (a3 : Memref sig .tc .vmem S1x10000 .f32) (h3 : a3.IsWhole)
    (hc : ¬cond0_0 i) (x0 : Vec Ideal S200x10000 .bf16) (xo : Vec Ideal S1x10000 .f32) :
    out0_B_2 (F := Ideal) c i a1 h1 a2 h2 a3 h3 hc x0 xo = k0_pay4 x0 xo := by
  unfold out0_B_2
  rw [View.read_writes_eq_canon _ _ _ (cover0_B_2 c i a1 h1 a2 h2 a3 h3 hc x0 xo)]
  unfold kernelRun0_B
  dsimp only
  rw [View.canon_unit_zero hz]
  simp only [View.readAt_eq_ld, h1.read_unread, h3.read_unread, View.ld_unit_zero (S := S200x10000) hz, View.ld_unit_zero (S := S1x10000) hz]

/-! ## The blocks and the index maps -/

variable (V : (c : Dev nD) → (b : Ref sig .tc) → Buf (Elt Ideal) ((c : Thread nD τ).loc b))

/-- The adjacency as the region finds it. -/
abbrev adj (c : Dev nD) : S10000x10000.Idx → EReal := Cert.Gcn.asE S10000x10000 .bf16 (V c (Pipeline.arrRef spec0 0))

/-- The printed index maps, decided over the grid: at point `t` the adjacency's and the column's blocks are block row `t`,
    and the row's block is the whole row. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

theorem lt50 (t : Fin cfg0.N) : t.val < 50 := lt_of_lt_of_eq t.isLt (show cfg0.N = 50 from N_0)

/-- Row `p` of the adjacency's block at point `t` is row `200 t + p` of the adjacency. -/
theorem block_apply (c : Dev nD) (t : Fin cfg0.N) (p : Fin 200) (k : Fin 10000) :
    Cert.Gcn.asE S200x10000 .bf16 (iblk0 V c 0 t) (ix2 p k)
      = adj V c (ix2 (⟨200 * t.val + p.val, by have := lt50 t; have := p.isLt; omega⟩ : Fin 10000) k) := by
  obtain ⟨e0, e1, -⟩ := idx_facts t
  unfold adj Cert.Gcn.asE iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 200 + 1 * p.val = 200 * t.val + p.val; rw [e0]; omega
  | ⟨1, _⟩ => show win0_0.index t (1 : Fin 2) * 10000 + 1 * k.val = k.val; rw [e1]; omega

/-! ## The column of row sums -/

/-- Each row's sum over all columns, as a column. -/
def rowSumsOf (A : S10000x10000.Idx → EReal) : S10000x1.Idx → EReal := fun i => ∑ q : Fin 10000, A (ix2 (i 0) q)

/-- After every point the column's buffer holds the row sums of the point's block. -/
theorem rows_left (c : Dev nD) (t : Fin cfg0.N) :
    (outsAt0 V c t.val t.isLt).1 = k0_pay2 (iblk0 V c 0 t) := by
  by_cases h0 : t.val % 50 = 0
  · rw [outsAt0_A V c t h0]
    exact left_A_1 c (grid0.coords t) (ms0_0 t) (hs0_0 t) (ms0_1 t) (hs0_1 t) (ms0_2 t) (hs0_2 t) ((hcond0_0 t).mpr h0) (iblk0 V c 0 t)
  · rw [outsAt0_B V c t h0]
    exact left_B_1 c (grid0.coords t) (ms0_0 t) (hs0_0 t) (ms0_1 t) (hs0_1 t) (ms0_2 t) (hs0_2 t) (fun h => h0 ((hcond0_0 t).mp h)) (iblk0 V c 0 t)
      (outsAt0 V c (t.val - 1) (Nat.lt_of_le_of_lt (Nat.sub_le _ _) t.isLt)).2

/-- What point `t` writes back to the column is rows `200 t … 200 t + 199` of the row sums of the adjacency. -/
theorem rows_flushed (c : Dev nD) (t : Fin cfg0.N) :
    (dat0 V c).flushed 1 t = ((cfg0.win 1).blk t).view.read (Elt Ideal) (rowSumsOf (adj V c)) := by
  show (cfg0.win 1).cut (grid0.coords t) ((dat0 V c).after 1 t) = _
  rw [after0_1, rows_left]
  obtain ⟨-, -, e2, e3, -⟩ := idx_facts t
  funext j
  show k0_pay2 (iblk0 V c 0 t) (ix2 (j 0) (j 1)) = rowSumsOf (adj V c) (((cfg0.win 1).blk t).view.emb j)
  refine (rowSums_apply (iblk0 V c 0 t) (j 0) (j 1)).trans ?_
  unfold rowSumsOf
  refine Finset.sum_congr rfl fun k _ => ?_
  refine (block_apply V c t (j 0) k).trans (congrArg (adj V c) (congrArg (fun r => ix2 r k) (Fin.ext ?_)))
  show 200 * t.val + (j 0).val = win0_1.index t (0 : Fin 2) * 200 + 1 * (j 0).val
  rw [e2]; omega

/-- An index of the column is in point `t`'s block iff each coordinate is in the block's range on its axis. -/
theorem rows_mem_blk (t : Fin cfg0.N) (i : S10000x1.Idx) :
    i ∈ ((cfg0.win 1).blk t).view.set ↔ ∀ a : Fin 2, win0_1.index t a * S200x1.size a ≤ (i a).val ∧ (i a).val < win0_1.index t a * S200x1.size a + S200x1.size a := by
  show i ∈ ((View.whole main_v20_0).slice (win0_1.rect t)).set ↔ _
  rw [View.set_slice_whole, Rect.mem_set_unit]
  exact Iff.rfl

/-- Row `r` of the column is written back by point `r / 200`. -/
theorem rows_cover (i : S10000x1.Idx) : ∃ t : Fin cfg0.N, (cfg0.win 1).flush t = true ∧ i ∈ ((cfg0.win 1).blk t).view.set := by
  have hi0 : (i 0).val < 10000 := (i 0).isLt
  have hi1 : (i 1).val < 1 := (i 1).isLt
  have hN : cfg0.N = 50 := N_0
  have ht : (i 0).val / 200 < cfg0.N := by rw [hN]; omega
  obtain ⟨-, -, e2, e3, -⟩ := idx_facts ⟨(i 0).val / 200, ht⟩
  refine ⟨⟨(i 0).val / 200, ht⟩, flush0_1 _, ?_⟩
  rw [rows_mem_blk]
  intro a
  match a with
  | ⟨0, _⟩ =>
    show win0_1.index ⟨(i 0).val / 200, ht⟩ (0 : Fin 2) * 200 ≤ (i 0).val ∧ (i 0).val < win0_1.index ⟨(i 0).val / 200, ht⟩ (0 : Fin 2) * 200 + 200
    rw [e2]; dsimp only; omega
  | ⟨1, _⟩ =>
    show win0_1.index ⟨(i 0).val / 200, ht⟩ (1 : Fin 2) * 1 ≤ (i 1).val ∧ (i 1).val < win0_1.index ⟨(i 0).val / 200, ht⟩ (1 : Fin 2) * 1 + 1
    rw [e3]; omega

/-- The column the region leaves: every row's sum over all columns. -/
theorem deg_rows (c : Dev nD) : (dat0 V c).arrAt 1 cfg0.N = rowSumsOf (adj V c) :=
  (dat0 V c).arrAt_eq_of_cover 1 (rowSumsOf (adj V c)) (fun t _ => rows_flushed V c t) rows_cover

/-- Row `r` of the column the region leaves is the sum of row `r` of the adjacency. -/
theorem deg_rows_apply (c : Dev nD) (r : Fin 10000) :
    Cert.Gcn.asE S10000x1 .f32 ((dat0 (F := Ideal) V c).arrAt 1 cfg0.N) (ix2 r (0 : Fin 1))
      = ∑ q : Fin 10000, Cert.Gcn.asE S10000x10000 .bf16 (V c (Pipeline.arrRef spec0 0)) (ix2 r q) := by
  unfold Cert.Gcn.asE
  rw [deg_rows]
  rfl

end Cert.KerValue

end
-- ==== Proof.KerDegreeCols.lean ====
/-
  The row of column sums the degree region leaves. The row's one staging buffer is zeroed at the first block of rows and
  gains each block's column sums, so after block `n` it holds, at column `q`, the sum of column `q` over the rows of blocks
  `0 … n`; it is written back once, after the last block, when that is the sum over all rows.
-/
import proofs.«165336_j42056319762462_2_alg».proof.Proof.KerDegree

set_option maxRecDepth 16384

noncomputable section

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

namespace Cert.KerValue

variable (V : (c : Dev nD) → (b : Ref sig .tc) → Buf (Elt Ideal) ((c : Thread nD τ).loc b))

/-! ## The row of column sums -/

/-- Each column's sum over all rows, as a row. -/
def colSumsOf (A : S10000x10000.Idx → EReal) : S1x10000.Idx → EReal := fun i => ∑ r : Fin 10000, A (ix2 r (i 1))

/-- The column sums of the block at point `t` are the block sums of the adjacency's columns. -/
theorem cols_block (c : Dev nD) (t : Fin cfg0.N) (q : Fin 10000) :
    ∑ p : Fin 200, Cert.Gcn.asE S200x10000 .bf16 (iblk0 V c 0 t) (ix2 p q) = blockColSum (adj V c) q t.val := by
  unfold blockColSum
  rw [dif_pos (lt50 t)]
  exact Finset.sum_congr rfl fun p _ => block_apply V c t p q

/-- At the first point the row's buffer is left at zero plus the block's column sums. -/
theorem cols_first (c : Dev nD) (t : Fin cfg0.N) (h0 : t.val % 50 = 0) :
    (outsAt0 V c t.val t.isLt).2 = k0_pay4 (iblk0 V c 0 t) (k0_pay3 (F := Ideal)) := by
  rw [outsAt0_A V c t h0]
  dsimp only
  exact left_A_2 c (grid0.coords t) (ms0_0 t) (hs0_0 t) (ms0_1 t) (hs0_1 t) (ms0_2 t) (hs0_2 t) ((hcond0_0 t).mpr h0) (iblk0 V c 0 t)

/-- At a later point it is left at what the point before left plus the block's column sums. -/
theorem cols_later (c : Dev nD) (t : Fin cfg0.N) (h0 : ¬t.val % 50 = 0) :
    (outsAt0 V c t.val t.isLt).2
      = k0_pay4 (iblk0 V c 0 t) (outsAt0 V c (t.val - 1) (Nat.lt_of_le_of_lt (Nat.sub_le _ _) t.isLt)).2 := by
  rw [outsAt0_B V c t h0]
  dsimp only
  exact left_B_2 c (grid0.coords t) (ms0_0 t) (hs0_0 t) (ms0_1 t) (hs0_1 t) (ms0_2 t) (hs0_2 t) (fun h => h0 ((hcond0_0 t).mp h)) (iblk0 V c 0 t)
    (outsAt0 V c (t.val - 1) (Nat.lt_of_le_of_lt (Nat.sub_le _ _) t.isLt)).2

theorem cols_first_apply (c : Dev nD) (t : Fin cfg0.N) (h0 : t.val % 50 = 0) (u : Fin 1) (q : Fin 10000) :
    Cert.Gcn.asE S1x10000 .f32 (outsAt0 V c t.val t.isLt).2 (ix2 u q) = blockColSum (adj V c) q t.val := by
  rw [cols_first V c t h0]
  unfold Cert.Gcn.asE
  refine (colSums_apply (iblk0 V c 0 t) (k0_pay3 (F := Ideal)) u q).trans ?_
  rw [zeroRow_apply, zero_add]
  exact cols_block V c t q

theorem cols_later_apply (c : Dev nD) (t : Fin cfg0.N) (h0 : ¬t.val % 50 = 0) (u : Fin 1) (q : Fin 10000) :
    Cert.Gcn.asE S1x10000 .f32 (outsAt0 V c t.val t.isLt).2 (ix2 u q)
      = Cert.Gcn.asE S1x10000 .f32 (outsAt0 V c (t.val - 1) (Nat.lt_of_le_of_lt (Nat.sub_le _ _) t.isLt)).2 (ix2 u q)
        + blockColSum (adj V c) q t.val := by
  rw [cols_later V c t h0]
  unfold Cert.Gcn.asE
  refine (colSums_apply (iblk0 V c 0 t) (outsAt0 V c (t.val - 1) (Nat.lt_of_le_of_lt (Nat.sub_le _ _) t.isLt)).2 u q).trans ?_
  exact congrArg _ (cols_block V c t q)

/-- After point `n` the row's buffer holds, at column `q`, the sum of column `q` over the rows of the blocks up to `n`. -/
theorem cols_left (c : Dev nD) (q : Fin 10000) (u : Fin 1) : ∀ (n : ℕ) (hn : n < cfg0.N),
    Cert.Gcn.asE S1x10000 .f32 (outsAt0 V c n hn).2 (ix2 u q) = ∑ t ∈ Finset.range (n + 1), blockColSum (adj V c) q t
  | 0, hn => by
    rw [Finset.sum_range_one]
    exact cols_first_apply V c ⟨0, hn⟩ rfl u q
  | n + 1, hn => by
    have hN : cfg0.N = 50 := N_0
    have hB : ¬(⟨n + 1, hn⟩ : Fin cfg0.N).val % 50 = 0 := by dsimp only; omega
    rw [Finset.sum_range_succ, ← cols_left c q u n (Nat.lt_of_succ_lt hn)]
    exact cols_later_apply V c ⟨n + 1, hn⟩ hB u q

/-- The one write-back of the row, at the last point, writes every column's sum over all rows. -/
theorem cols_flushed (c : Dev nD) (t : Fin cfg0.N) (hf : (cfg0.win 2).flush t = true) :
    (dat0 V c).flushed 2 t = ((cfg0.win 2).blk t).view.read (Elt Ideal) (colSumsOf (adj V c)) := by
  have h49 : t.val + 1 = 50 := by have := (flush0_2 t).mp hf; have := lt50 t; omega
  show (cfg0.win 2).cut (grid0.coords t) ((dat0 V c).after 2 t) = _
  rw [after0_2]
  obtain ⟨-, -, -, -, e4, e5⟩ := idx_facts t
  have key : ∀ i : S1x10000.Idx, (outsAt0 V c t.val t.isLt).2 i = ∑ r : Fin 10000, adj V c (ix2 r (i 1)) := by
    intro i
    obtain ⟨u, q, rfl⟩ : ∃ (u : Fin 1) (q : Fin 10000), i = ix2 u q := ⟨i 0, i 1, eq_ix2 i⟩
    refine (cols_left V c q u t.val t.isLt).trans ?_
    rw [h49]
    exact sum_blockColSum (adj V c) q
  funext j
  show (outsAt0 V c t.val t.isLt).2 j = colSumsOf (adj V c) (((cfg0.win 2).blk t).view.emb j)
  refine (key j).trans ?_
  unfold colSumsOf
  refine Finset.sum_congr rfl fun r _ => congrArg (adj V c) (congrArg (ix2 r) (Fin.ext ?_))
  show (j 1).val = win0_2.index t (1 : Fin 2) * 10000 + 1 * (j 1).val
  rw [e5]; omega

/-- An index of the row is in point `t`'s block iff each coordinate is in the block's range on its axis. -/
theorem cols_mem_blk (t : Fin cfg0.N) (i : S1x10000.Idx) :
    i ∈ ((cfg0.win 2).blk t).view.set ↔ ∀ a : Fin 2, win0_2.index t a * S1x10000.size a ≤ (i a).val ∧ (i a).val < win0_2.index t a * S1x10000.size a + S1x10000.size a := by
  show i ∈ ((View.whole main_v20_1).slice (win0_2.rect t)).set ↔ _
  rw [View.set_slice_whole, Rect.mem_set_unit]
  exact Iff.rfl

/-- The last point's block is the whole row. -/
theorem cols_cover (i : S1x10000.Idx) : ∃ t : Fin cfg0.N, (cfg0.win 2).flush t = true ∧ i ∈ ((cfg0.win 2).blk t).view.set := by
  have hi0 : (i 0).val < 1 := (i 0).isLt
  have hi1 : (i 1).val < 10000 := (i 1).isLt
  have hN : cfg0.N = 50 := N_0
  have ht : 49 < cfg0.N := by rw [hN]; omega
  obtain ⟨-, -, -, -, e4, e5⟩ := idx_facts ⟨49, ht⟩
  refine ⟨⟨49, ht⟩, (flush0_2 _).mpr rfl, ?_⟩
  rw [cols_mem_blk]
  intro a
  match a with
  | ⟨0, _⟩ =>
    show win0_2.index ⟨49, ht⟩ (0 : Fin 2) * 1 ≤ (i 0).val ∧ (i 0).val < win0_2.index ⟨49, ht⟩ (0 : Fin 2) * 1 + 1
    rw [e4]; omega
  | ⟨1, _⟩ =>
    show win0_2.index ⟨49, ht⟩ (1 : Fin 2) * 10000 ≤ (i 1).val ∧ (i 1).val < win0_2.index ⟨49, ht⟩ (1 : Fin 2) * 10000 + 10000
    rw [e5]; omega

/-- The row the region leaves: every column's sum over all rows. -/
theorem deg_cols (c : Dev nD) : (dat0 V c).arrAt 2 cfg0.N = colSumsOf (adj V c) :=
  (dat0 V c).arrAt_eq_of_cover 2 (colSumsOf (adj V c)) (cols_flushed V c) cols_cover

/-- Column `q` of the row the region leaves is the sum of column `q` of the adjacency. -/
theorem deg_cols_apply (c : Dev nD) (q : Fin 10000) :
    Cert.Gcn.asE S1x10000 .f32 ((dat0 (F := Ideal) V c).arrAt 2 cfg0.N) (ix2 (0 : Fin 1) q)
      = ∑ r : Fin 10000, Cert.Gcn.asE S10000x10000 .bf16 (V c (Pipeline.arrRef spec0 0)) (ix2 r q) := by
  unfold Cert.Gcn.asE
  rw [deg_cols]
  rfl

end Cert.KerValue

end
-- ==== Proof.KerNet.lean ====
/-
  The idealized kernel program's two results as the two-layer networks of the specification, in the separated arrangement.

  The program runs six regions among stretches of host operations. Read in order: the scatter leaves the adjacency `adjK`;
  region 0 leaves its row sums and column sums, of which the host makes the row factors `drK` and the column factors `dcK`
  (`facOf` of a sum, entry by entry); region 1 leaves the projected features `x · W1`; the host scales their rows by each
  factor vector; region 2 leaves, per branch, the rectified layer `relu (lapSep …)` / `relu (adjSep …)`; regions 3 and 4
  project each branch's hidden features by `W2`; the host scales again; region 5 leaves the two second layers. Each lemma
  below states what one buffer holds at one segment boundary, in terms of the launch memory, by composing: the boundary
  identity that names a region's output array, that region's value lemma at its entry contents, the lemmas that carry a
  buffer unchanged from the boundary that wrote it, and the host stages read at an index.
-/
import proofs.«165336_j42056319762462_2_alg».proof.Proof.KerWalk
import proofs.«165336_j42056319762462_2_alg».proof.Proof.KerHost
import proofs.«165336_j42056319762462_2_alg».proof.Proof.KerDense
import proofs.«165336_j42056319762462_2_alg».proof.Proof.KerFused
import proofs.«165336_j42056319762462_2_alg».proof.Proof.KerDegree
import proofs.«165336_j42056319762462_2_alg».proof.Proof.KerDegreeCols

set_option maxRecDepth 16384

noncomputable section

namespace Cert.KernelIdeal.Net

open Cert.KernelIdeal Cert.KernelIdeal.Gen Cert.KernelIdeal.Walk Cert.KernelIdeal.HostStages
open Idealize.ShloMosaic Idealize.ShloMosaic.TcCoe Idealize.ShloMosaic.ValueIdx Idealize.SL.Sem Cert.Gcn
open Idealize.ShloMosaic.Pipeline (Dat Cfg Window)

variable (m : (ℓ : Loc nD τ sig) → Buf (Elt Ideal) ℓ) (ρ : Dev nD → PrngReg) (c : Dev nD)

/-! ## The network's data, read off the kernel program's memory -/

/-- The adjacency as the kernel program's scatter leaves it. -/
def adjK (r q : Fin 10000) : EReal := asE S10000x10000 .bf16 (W1 (F := Ideal) m ρ c (Proc.devRef .tc main_v19)) (ix2 r q)
/-- The row factors: `facOf` of the row sums. -/
def drK (r : Fin 10000) : EReal := facOf (∑ q : Fin 10000, adjK m ρ c r q)
/-- The column factors: `facOf` of the column sums. -/
def dcK (r : Fin 10000) : EReal := facOf (∑ p : Fin 10000, adjK m ρ c p r)
/-- The features, the two weight matrices and the two biases, as launched. -/
def xK (r : Fin 10000) (q : Fin 256) : EReal := asE S10000x256 .f32 (m ((c.tc : Thread nD τ).loc main_arg0)) (ix2 r q)
def w1K (q j : Fin 256) : EReal := asE S256x256 .f32 (m ((c.tc : Thread nD τ).loc main_arg2)) (ix2 q j)
def b1K (j : Fin 256) : EReal := asE S256 .f32 (m ((c.tc : Thread nD τ).loc main_arg3)) (ix1 j)
def w2K (q j : Fin 256) : EReal := asE S256x256 .f32 (m ((c.tc : Thread nD τ).loc main_arg4)) (ix2 q j)
def b2K (j : Fin 256) : EReal := asE S256 .f32 (m ((c.tc : Thread nD τ).loc main_arg5)) (ix1 j)

/-- Reading a buffer through `asE` respects equality of buffers. -/
theorem asE_congr {S : Shape} {φ : FTy} {f g : FVec Ideal S φ} (h : f = g) (i : S.Idx) : asE S φ f i = asE S φ g i := by
  rw [h]

/-! ## Region 0: the degrees, and the factors the host makes of them -/

theorem degr (r : Fin 10000) :
    asE S10000x1 .f32 (W2 (F := Ideal) m ρ c (Proc.devRef .tc main_v20_0)) (ix2 r (0 : Fin 1)) = ∑ q : Fin 10000, adjK m ρ c r q :=
  (asE_congr (W2_arr m ρ c 1) _).trans (Cert.KerValue.deg_rows_apply (V1 m ρ) c r)

theorem degc (q : Fin 10000) :
    asE S1x10000 .f32 (W2 (F := Ideal) m ρ c (Proc.devRef .tc main_v20_1)) (ix2 (0 : Fin 1) q) = ∑ p : Fin 10000, adjK m ρ c p q :=
  (asE_congr (W2_arr m ρ c 2) _).trans (Cert.KerValue.deg_cols_apply (V1 m ρ) c q)

theorem dr4 (r : Fin 10000) : asE S10000x1 .f32 (W4 (F := Ideal) m ρ c (Proc.devRef .tc main_v26)) (ix2 r (0 : Fin 1)) = drK m ρ c r :=
  (fac_rows m ρ c r).trans (congrArg facOf (degr m ρ c r))

theorem dc7 (r : Fin 10000) : asE S10000x1 .f32 (W7 (F := Ideal) m ρ c (Proc.devRef .tc main_v33)) (ix2 r (0 : Fin 1)) = dcK m ρ c r :=
  (col_of_row m ρ c r).trans ((fac_cols m ρ c r).trans
    (congrArg facOf ((asE_congr (keep_v20_1_4_2 m ρ c) _).trans (degc m ρ c r))))

/-- The factors at any later boundary where they are read. -/
theorem dr8 (r : Fin 10000) : asE S10000x1 .f32 (W8 (F := Ideal) m ρ c (Proc.devRef .tc main_v26)) (ix2 r (0 : Fin 1)) = drK m ρ c r :=
  (asE_congr (keep_v26_8_4 m ρ c) _).trans (dr4 m ρ c r)
theorem dc8 (r : Fin 10000) : asE S10000x1 .f32 (W8 (F := Ideal) m ρ c (Proc.devRef .tc main_v33)) (ix2 r (0 : Fin 1)) = dcK m ρ c r :=
  (asE_congr (keep_v33_8_7 m ρ c) _).trans (dc7 m ρ c r)
theorem dr9 (r : Fin 10000) : asE S10000x1 .f32 (W9 (F := Ideal) m ρ c (Proc.devRef .tc main_v26)) (ix2 r (0 : Fin 1)) = drK m ρ c r :=
  (asE_congr (keep_v26_9_8 m ρ c) _).trans (dr8 m ρ c r)
theorem dc9 (r : Fin 10000) : asE S10000x1 .f32 (W9 (F := Ideal) m ρ c (Proc.devRef .tc main_v33)) (ix2 r (0 : Fin 1)) = dcK m ρ c r :=
  (asE_congr (keep_v33_9_8 m ρ c) _).trans (dc8 m ρ c r)
theorem dr12 (r : Fin 10000) : asE S10000x1 .f32 (W12 (F := Ideal) m ρ c (Proc.devRef .tc main_v26)) (ix2 r (0 : Fin 1)) = drK m ρ c r :=
  (asE_congr (keep_v26_12_9 m ρ c) _).trans (dr9 m ρ c r)
theorem dc12 (r : Fin 10000) : asE S10000x1 .f32 (W12 (F := Ideal) m ρ c (Proc.devRef .tc main_v33)) (ix2 r (0 : Fin 1)) = dcK m ρ c r :=
  (asE_congr (keep_v33_12_9 m ρ c) _).trans (dc9 m ρ c r)
theorem dr13 (r : Fin 10000) : asE S10000x1 .f32 (W13 (F := Ideal) m ρ c (Proc.devRef .tc main_v26)) (ix2 r (0 : Fin 1)) = drK m ρ c r :=
  (asE_congr (keep_v26_13_12 m ρ c) _).trans (dr12 m ρ c r)
theorem dc13 (r : Fin 10000) : asE S10000x1 .f32 (W13 (F := Ideal) m ρ c (Proc.devRef .tc main_v33)) (ix2 r (0 : Fin 1)) = dcK m ρ c r :=
  (asE_congr (keep_v33_13_12 m ρ c) _).trans (dc12 m ρ c r)

/-- The adjacency at the boundaries where the two graph layers read it. -/
theorem adj9 (r q : Fin 10000) : asE S10000x10000 .bf16 (W9 (F := Ideal) m ρ c (Proc.devRef .tc main_v19)) (ix2 r q) = adjK m ρ c r q :=
  asE_congr (keep_v19_9_1 m ρ c) _
theorem adj13 (r q : Fin 10000) : asE S10000x10000 .bf16 (W13 (F := Ideal) m ρ c (Proc.devRef .tc main_v19)) (ix2 r q) = adjK m ρ c r q :=
  (asE_congr (keep_v19_13_9 m ρ c) _).trans (adj9 m ρ c r q)

/-! ## Region 1: the first projection -/

theorem xw8 (r : Fin 10000) (j : Fin 256) :
    asE S10000x256 .f32 (W8 (F := Ideal) m ρ c (Proc.devRef .tc main_v34)) (ix2 r j) = mm (xK m c) (w1K m c) r j := by
  refine (asE_congr (W8_arr m ρ c 2) _).trans ((Cert.KerValue.proj1_apply (V7 m ρ) c r j).trans ?_)
  unfold mm xK w1K
  refine Finset.sum_congr rfl fun q _ => ?_
  exact congrArg₂ (· * ·) (asE_congr (at_arg0_7 m ρ c) _) (asE_congr (at_arg2_7 m ρ c) _)

theorem xw9 (r : Fin 10000) (j : Fin 256) :
    asE S10000x256 .f32 (W9 (F := Ideal) m ρ c (Proc.devRef .tc main_v34)) (ix2 r j) = mm (xK m c) (w1K m c) r j :=
  (asE_congr (keep_v34_9_8 m ρ c) _).trans (xw8 m ρ c r j)

/-! ## Layer 1 -/

theorem ylap1 (r : Fin 10000) (j : Fin 256) :
    asE S10000x256 .bf16 (W9 (F := Ideal) m ρ c (Proc.devRef .tc main_v37)) (ix2 r j) = drK m ρ c r * mm (xK m c) (w1K m c) r j :=
  (pre_lap1 m ρ c r j).trans (congrArg₂ (· * ·) (dr8 m ρ c r) (xw8 m ρ c r j))
theorem yadj1 (r : Fin 10000) (j : Fin 256) :
    asE S10000x256 .bf16 (W9 (F := Ideal) m ρ c (Proc.devRef .tc main_v40)) (ix2 r j) = dcK m ρ c r * mm (xK m c) (w1K m c) r j :=
  (pre_adj1 m ρ c r j).trans (congrArg₂ (· * ·) (dc8 m ρ c r) (xw8 m ρ c r j))
theorem b1row (j : Fin 256) : asE S1x256 .f32 (W9 (F := Ideal) m ρ c (Proc.devRef .tc main_v41)) (ix2 (0 : Fin 1) j) = b1K m c j :=
  (bias1 m ρ c j).trans (asE_congr (at_arg3_8 m ρ c) _)

/-- The Laplacian branch's hidden features: the rectified first Laplacian layer. -/
theorem hlap (r : Fin 10000) (j : Fin 256) :
    asE S10000x256 .f32 (W10 (F := Ideal) m ρ c (Proc.devRef .tc main_v42_0)) (ix2 r j)
      = relu (lapSep (adjK m ρ c) (drK m ρ c) (mm (xK m c) (w1K m c)) (b1K m c)) r j := by
  refine (asE_congr (W10_arr m ρ c 7) _).trans ((Cert.KerValue.fused2_lap_apply (V9 m ρ) c r j).trans ?_)
  show max ((asE S10000x256 .f32 (W9 (F := Ideal) m ρ c (Proc.devRef .tc main_v34)) (ix2 r j)
      - asE S10000x1 .f32 (W9 (F := Ideal) m ρ c (Proc.devRef .tc main_v26)) (ix2 r (0 : Fin 1))
        * ∑ q : Fin 10000, asE S10000x10000 .bf16 (W9 (F := Ideal) m ρ c (Proc.devRef .tc main_v19)) (ix2 r q) * asE S10000x256 .bf16 (W9 (F := Ideal) m ρ c (Proc.devRef .tc main_v37)) (ix2 q j))
      + asE S1x256 .f32 (W9 (F := Ideal) m ρ c (Proc.devRef .tc main_v41)) (ix2 (0 : Fin 1) j)) 0
    = max (((mm (xK m c) (w1K m c)) r j - drK m ρ c r * ∑ q : Fin 10000, adjK m ρ c r q * (drK m ρ c q * (mm (xK m c) (w1K m c)) q j)) + b1K m c j) 0
  rw [xw9, dr9, b1row, Finset.sum_congr rfl fun q _ => congrArg₂ (· * ·) (adj9 m ρ c r q) (ylap1 m ρ c q j)]

/-- The adjacency branch's hidden features: the rectified first adjacency layer. -/
theorem hadj (r : Fin 10000) (j : Fin 256) :
    asE S10000x256 .f32 (W10 (F := Ideal) m ρ c (Proc.devRef .tc main_v42_1)) (ix2 r j)
      = relu (adjSep (adjK m ρ c) (dcK m ρ c) (mm (xK m c) (w1K m c)) (b1K m c)) r j := by
  refine (asE_congr (W10_arr m ρ c 8) _).trans ((Cert.KerValue.fused2_adj_apply (V9 m ρ) c r j).trans ?_)
  show max ((asE S10000x1 .f32 (W9 (F := Ideal) m ρ c (Proc.devRef .tc main_v33)) (ix2 r (0 : Fin 1))
        * ∑ q : Fin 10000, asE S10000x10000 .bf16 (W9 (F := Ideal) m ρ c (Proc.devRef .tc main_v19)) (ix2 r q) * asE S10000x256 .bf16 (W9 (F := Ideal) m ρ c (Proc.devRef .tc main_v40)) (ix2 q j))
      + asE S1x256 .f32 (W9 (F := Ideal) m ρ c (Proc.devRef .tc main_v41)) (ix2 (0 : Fin 1) j)) 0
    = max ((dcK m ρ c r * ∑ q : Fin 10000, adjK m ρ c r q * (dcK m ρ c q * (mm (xK m c) (w1K m c)) q j)) + b1K m c j) 0
  rw [dc9, b1row, Finset.sum_congr rfl fun q _ => congrArg₂ (· * ·) (adj9 m ρ c r q) (yadj1 m ρ c q j)]

/-! ## Regions 3 and 4: the second projections -/

theorem hwlap11 (r : Fin 10000) (j : Fin 256) :
    asE S10000x256 .f32 (W11 (F := Ideal) m ρ c (Proc.devRef .tc main_v43)) (ix2 r j)
      = mm (relu (lapSep (adjK m ρ c) (drK m ρ c) (mm (xK m c) (w1K m c)) (b1K m c))) (w2K m c) r j := by
  refine (asE_congr (W11_arr m ρ c 2) _).trans ((Cert.KerValue.proj3_apply (V10 m ρ) c r j).trans ?_)
  unfold mm w2K
  refine Finset.sum_congr rfl fun q _ => ?_
  exact congrArg₂ (· * ·) (hlap m ρ c r q) (asE_congr (at_arg4_10 m ρ c) _)

theorem hwadj12 (r : Fin 10000) (j : Fin 256) :
    asE S10000x256 .f32 (W12 (F := Ideal) m ρ c (Proc.devRef .tc main_v44)) (ix2 r j)
      = mm (relu (adjSep (adjK m ρ c) (dcK m ρ c) (mm (xK m c) (w1K m c)) (b1K m c))) (w2K m c) r j := by
  refine (asE_congr (W12_arr m ρ c 2) _).trans ((Cert.KerValue.proj4_apply (V11 m ρ) c r j).trans ?_)
  unfold mm w2K
  refine Finset.sum_congr rfl fun q _ => ?_
  exact congrArg₂ (· * ·) ((asE_congr (keep_v42_1_11_10 m ρ c) _).trans (hadj m ρ c r q))
    ((asE_congr (keep_arg4_11_10 m ρ c) _).trans (asE_congr (at_arg4_10 m ρ c) _))

theorem hwlap12 (r : Fin 10000) (j : Fin 256) :
    asE S10000x256 .f32 (W12 (F := Ideal) m ρ c (Proc.devRef .tc main_v43)) (ix2 r j)
      = mm (relu (lapSep (adjK m ρ c) (drK m ρ c) (mm (xK m c) (w1K m c)) (b1K m c))) (w2K m c) r j :=
  (asE_congr (keep_v43_12_11 m ρ c) _).trans (hwlap11 m ρ c r j)
theorem hwlap13 (r : Fin 10000) (j : Fin 256) :
    asE S10000x256 .f32 (W13 (F := Ideal) m ρ c (Proc.devRef .tc main_v43)) (ix2 r j)
      = mm (relu (lapSep (adjK m ρ c) (drK m ρ c) (mm (xK m c) (w1K m c)) (b1K m c))) (w2K m c) r j :=
  (asE_congr (keep_v43_13_12 m ρ c) _).trans (hwlap12 m ρ c r j)

/-! ## Layer 2 -/

theorem ylap2 (r : Fin 10000) (j : Fin 256) :
    asE S10000x256 .bf16 (W13 (F := Ideal) m ρ c (Proc.devRef .tc main_v47)) (ix2 r j)
      = drK m ρ c r * mm (relu (lapSep (adjK m ρ c) (drK m ρ c) (mm (xK m c) (w1K m c)) (b1K m c))) (w2K m c) r j :=
  (pre_lap2 m ρ c r j).trans (congrArg₂ (· * ·) (dr12 m ρ c r) (hwlap12 m ρ c r j))
theorem yadj2 (r : Fin 10000) (j : Fin 256) :
    asE S10000x256 .bf16 (W13 (F := Ideal) m ρ c (Proc.devRef .tc main_v50)) (ix2 r j)
      = dcK m ρ c r * mm (relu (adjSep (adjK m ρ c) (dcK m ρ c) (mm (xK m c) (w1K m c)) (b1K m c))) (w2K m c) r j :=
  (pre_adj2 m ρ c r j).trans (congrArg₂ (· * ·) (dc12 m ρ c r) (hwadj12 m ρ c r j))
theorem b2row (j : Fin 256) : asE S1x256 .f32 (W13 (F := Ideal) m ρ c (Proc.devRef .tc main_v51)) (ix2 (0 : Fin 1) j) = b2K m c j :=
  (bias2 m ρ c j).trans (asE_congr (at_arg5_12 m ρ c) _)

/-- THE FIRST RESULT of the kernel program (the Laplacian branch): two Laplacian layers in the separated arrangement. -/
theorem z1K (r : Fin 10000) (j : Fin 256) :
    asE S10000x256 .f32 (W14 (F := Ideal) m ρ c (Proc.devRef .tc main_v52_0)) (ix2 r j)
      = lapNetSep (adjK m ρ c) (drK m ρ c) (xK m c) (w1K m c) (b1K m c) (w2K m c) (b2K m c) r j := by
  refine (asE_congr (W14_arr m ρ c 7) _).trans ((Cert.KerValue.fused5_lap_apply (V13 m ρ) c r j).trans ?_)
  show (asE S10000x256 .f32 (W13 (F := Ideal) m ρ c (Proc.devRef .tc main_v43)) (ix2 r j)
      - asE S10000x1 .f32 (W13 (F := Ideal) m ρ c (Proc.devRef .tc main_v26)) (ix2 r (0 : Fin 1))
        * ∑ q : Fin 10000, asE S10000x10000 .bf16 (W13 (F := Ideal) m ρ c (Proc.devRef .tc main_v19)) (ix2 r q) * asE S10000x256 .bf16 (W13 (F := Ideal) m ρ c (Proc.devRef .tc main_v47)) (ix2 q j))
      + asE S1x256 .f32 (W13 (F := Ideal) m ρ c (Proc.devRef .tc main_v51)) (ix2 (0 : Fin 1) j)
    = ((mm (relu (lapSep (adjK m ρ c) (drK m ρ c) (mm (xK m c) (w1K m c)) (b1K m c))) (w2K m c)) r j - drK m ρ c r * ∑ q : Fin 10000, adjK m ρ c r q * (drK m ρ c q * (mm (relu (lapSep (adjK m ρ c) (drK m ρ c) (mm (xK m c) (w1K m c)) (b1K m c))) (w2K m c)) q j)) + b2K m c j
  rw [hwlap13, dr13, b2row, Finset.sum_congr rfl fun q _ => congrArg₂ (· * ·) (adj13 m ρ c r q) (ylap2 m ρ c q j)]

/-- THE SECOND RESULT (the adjacency branch): two adjacency layers in the separated arrangement. -/
theorem z2K (r : Fin 10000) (j : Fin 256) :
    asE S10000x256 .f32 (W14 (F := Ideal) m ρ c (Proc.devRef .tc main_v52_1)) (ix2 r j)
      = adjNetSep (adjK m ρ c) (dcK m ρ c) (xK m c) (w1K m c) (b1K m c) (w2K m c) (b2K m c) r j := by
  refine (asE_congr (W14_arr m ρ c 8) _).trans ((Cert.KerValue.fused5_adj_apply (V13 m ρ) c r j).trans ?_)
  show (asE S10000x1 .f32 (W13 (F := Ideal) m ρ c (Proc.devRef .tc main_v33)) (ix2 r (0 : Fin 1))
        * ∑ q : Fin 10000, asE S10000x10000 .bf16 (W13 (F := Ideal) m ρ c (Proc.devRef .tc main_v19)) (ix2 r q) * asE S10000x256 .bf16 (W13 (F := Ideal) m ρ c (Proc.devRef .tc main_v50)) (ix2 q j))
      + asE S1x256 .f32 (W13 (F := Ideal) m ρ c (Proc.devRef .tc main_v51)) (ix2 (0 : Fin 1) j)
    = (dcK m ρ c r * ∑ q : Fin 10000, adjK m ρ c r q * (dcK m ρ c q * (mm (relu (adjSep (adjK m ρ c) (dcK m ρ c) (mm (xK m c) (w1K m c)) (b1K m c))) (w2K m c)) q j)) + b2K m c j
  rw [dc13, b2row, Finset.sum_congr rfl fun q _ => congrArg₂ (· * ·) (adj13 m ρ c r q) (yadj2 m ρ c q j)]

end Cert.KernelIdeal.Net

end
-- ==== Proof.RefRead.lean ====
/-
  The reference's host program read one operation at a time: this module brings the reference's run and its
  read-at-an-index lemmas into scope for the modules that state what each stage holds.
-/
import proofs.«165336_j42056319762462_2_alg».proof.Proof.RefReadP
-- ==== Proof.RefFactors.lean ====
/-
  The reference's matrices, entry by entry.

  The reference forms the dense 0/1 adjacency `A` (kept opaque here), its column sums and its row sums, a degree factor from
  each (where the degree is positive, the reciprocal square root of the larger of the degree and a small constant; elsewhere
  zero), the identity matrix as the comparison of two coordinate grids, and from these the normalised adjacency
  `d c · A r c · d c`-style products: `(d r · A r c) · d c` with the column-sum factor, and the identity minus the same
  product with the row-sum factor. Each is read here at explicit coordinates.
-/
import proofs.«165336_j42056319762462_2_alg».proof.Proof.RefRead
import proofs.«165336_j42056319762462_2_alg».proof.Proof.GcnFactor

noncomputable section

namespace Cert.RefNet

open Cert.ReferenceIdeal Cert.ReferenceIdeal.ReadP Idealize.ShloMosaic Idealize.ShloMosaic.ValueIdx Cert.Gcn
open scoped BigOperators

/-- The dense adjacency the reference scatters from the edge list, as a function of row and column. -/
def adjR (x1 : (⟨S2x320000, .i32⟩ : BufTy).Contents (Elt Ideal)) (r c : Fin 10000) : EReal :=
  val_main_v19 (F := Ideal) x1 (ix2 r c)

/-- The column sums: the sum over the rows, from the initial value zero. -/
theorem ref_degc (x1 : (⟨S2x320000, .i32⟩ : BufTy).Contents (Elt Ideal)) (c : Fin 10000) :
    val_main_v20 (F := Ideal) x1 (ix1 c) = ∑ r : Fin 10000, adjR x1 r c := by
  rw [val_main_v20_apply]
  show Ideal.ofBits .f32 0x00000000#32 + _ = _
  rw [Ideal.ofBits_zero_f32, zero_add]
  refine Finset.sum_congr rfl fun k _ => ?_
  exact congrArg (val_main_v19 (F := Ideal) x1) (funext fun a => Fin.ext (by match a with | ⟨0, _⟩ => rfl | ⟨1, _⟩ => rfl))

/-- The row sums: the sum over the columns, from the initial value zero. -/
theorem ref_degr (x1 : (⟨S2x320000, .i32⟩ : BufTy).Contents (Elt Ideal)) (r : Fin 10000) :
    val_main_v33 (F := Ideal) x1 (ix1 r) = ∑ c : Fin 10000, adjR x1 r c := by
  rw [val_main_v33_apply]
  show Ideal.ofBits .f32 0x00000000#32 + _ = _
  rw [Ideal.ofBits_zero_f32, zero_add]
  refine Finset.sum_congr rfl fun k _ => ?_
  exact congrArg (val_main_v19 (F := Ideal) x1) (funext fun a => Fin.ext (by match a with | ⟨0, _⟩ => rfl | ⟨1, _⟩ => rfl))

/-- The degree factor made from the column sums. -/
theorem ref_dc (x1 : (⟨S2x320000, .i32⟩ : BufTy).Contents (Elt Ideal)) (c : Fin 10000) :
    val_main_v26 (F := Ideal) x1 (ix1 c) = facOf (∑ r : Fin 10000, adjR x1 r c) := by
  rw [val_main_v26_apply, val_main_v22_apply, val_main_v25_apply, val_main_v24_apply, val_main_v21_apply,
    val_main_v23_apply, val_main_call0_v1_apply, val_main_call0_v0_apply, val_main_cst_5_apply, val_main_cst_6_apply,
    val_main_cst_7_apply, ref_degc]
  rfl

/-- The degree factor made from the row sums. -/
theorem ref_dr (x1 : (⟨S2x320000, .i32⟩ : BufTy).Contents (Elt Ideal)) (r : Fin 10000) :
    val_main_v39 (F := Ideal) x1 (ix1 r) = facOf (∑ c : Fin 10000, adjR x1 r c) := by
  rw [val_main_v39_apply, val_main_v35_apply, val_main_v38_apply, val_main_v37_apply, val_main_v34_apply,
    val_main_v36_apply, val_main_call1_v1_apply, val_main_call1_v0_apply, val_main_cst_9_apply, val_main_cst_10_apply,
    val_main_cst_11_apply, ref_degr]
  rfl

/-- The identity matrix: the row coordinate's word (plus the zero word) compared with the column coordinate's word, the
    one-bit answer read as an unsigned integer. Two coordinates below 10000 have equal 32-bit words only when equal. -/
theorem ref_eye (r c : Fin 10000) : val_main_v45 (F := Ideal) (ix2 r c) = eye r c := by
  rw [val_main_v45_apply, val_main_v44_apply, val_main_v43_apply, val_main_v40_apply, val_main_v41_apply,
    val_main_v42_apply, val_main_c_12_apply]
  show (((IntOp.cmpi .eq (IntOp.addi (BitVec.ofNat 32 r.val) 0#32) (BitVec.ofNat 32 c.val)).toNat : ℝ) : EReal) = eye r c
  unfold eye IntOp.cmpi IntOp.addi
  by_cases h : r = c
  · subst h
    simp
  · have hne : ¬ (BitVec.ofNat 32 r.val = BitVec.ofNat 32 c.val) := by
      intro e
      have e' := congrArg BitVec.toNat e
      simp only [BitVec.toNat_ofNat] at e'
      have hr := r.isLt
      have hc := c.isLt
      exact h (Fin.ext (by omega))
    simp [h, hne]

/-- The normalised adjacency with the column-sum factor: `(d r · A r c) · d c`. -/
theorem ref_anorm (x1 : (⟨S2x320000, .i32⟩ : BufTy).Contents (Elt Ideal)) (r c : Fin 10000) :
    val_main_v32 (F := Ideal) x1 (ix2 r c)
      = facOf (∑ r' : Fin 10000, adjR x1 r' r) * adjR x1 r c * facOf (∑ r' : Fin 10000, adjR x1 r' c) := by
  rw [val_main_v32_apply, val_main_v29_apply, val_main_v28_apply, val_main_v27_apply, val_main_v31_apply,
    val_main_v30_apply]
  have e1 : idx_main_v27 (idx_main_v28 (ix2 r c)) = ix1 r :=
    funext fun a => Fin.ext (by match a with | ⟨0, _⟩ => rfl)
  have e2 : idx_main_v30 (idx_main_v31 (ix2 r c)) = ix1 c :=
    funext fun a => Fin.ext (by match a with | ⟨0, _⟩ => rfl)
  rw [e1, e2, ref_dc, ref_dc]
  rfl

/-- The Laplacian with the row-sum factor: the identity minus `(d r · A r c) · d c`. -/
theorem ref_lap (x1 : (⟨S2x320000, .i32⟩ : BufTy).Contents (Elt Ideal)) (r c : Fin 10000) :
    val_main_v52 (F := Ideal) x1 (ix2 r c)
      = eye r c - facOf (∑ c' : Fin 10000, adjR x1 r c') * adjR x1 r c * facOf (∑ c' : Fin 10000, adjR x1 c c') := by
  rw [val_main_v52_apply, val_main_v51_apply, val_main_v48_apply, val_main_v47_apply, val_main_v46_apply,
    val_main_v50_apply, val_main_v49_apply, ref_eye]
  have e1 : idx_main_v46 (idx_main_v47 (ix2 r c)) = ix1 r :=
    funext fun a => Fin.ext (by match a with | ⟨0, _⟩ => rfl)
  have e2 : idx_main_v49 (idx_main_v50 (ix2 r c)) = ix1 c :=
    funext fun a => Fin.ext (by match a with | ⟨0, _⟩ => rfl)
  rw [e1, e2, ref_dr, ref_dr]
  rfl

end Cert.RefNet

end
-- ==== Proof.RefNet.lean ====
/-
  The reference's two outputs are the dense networks of the specification.

  With the normalised matrices read entry by entry (the identity minus `d r · A r c · d c` with the row-sum factor, and
  `d r · A r c · d c` with the column-sum factor), each later stage is read at explicit coordinates: a matrix product is
  the sum over the contraction index, the bias is added along the rows, the rectifier is the larger of the entry and zero.
  Chaining the stages gives the two layers of each branch in the dense arrangement.
-/
import proofs.«165336_j42056319762462_2_alg».proof.Proof.RefFactors

noncomputable section

namespace Cert.RefNet

open Cert.ReferenceIdeal Cert.ReferenceIdeal.ReadP Idealize.ShloMosaic Idealize.ShloMosaic.ValueIdx Cert.Gcn
open scoped BigOperators

variable (x0 : (⟨S10000x256, .f32⟩ : BufTy).Contents (Elt Ideal)) (x1 : (⟨S2x320000, .i32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))

/-- The degree factor of each node from its row sum. -/
local notation "rowFac[" x "]" => (fun r : Fin 10000 => facOf (Finset.sum Finset.univ fun c : Fin 10000 => adjR x r c))
/-- The degree factor of each node from its column sum. -/
local notation "colFac[" x "]" => (fun c : Fin 10000 => facOf (Finset.sum Finset.univ fun r : Fin 10000 => adjR x r c))
/-- A [10000, 256] array as a function of row and column. -/
local notation "feat[" x "]" => (fun (r : Fin 10000) (q : Fin 256) => x (ix2 r q))
/-- A [256, 256] array as a function of row and column. -/
local notation "wmat[" x "]" => (fun (q : Fin 256) (j : Fin 256) => x (ix2 q j))
/-- A [256] array as a function of its coordinate. -/
local notation "bias[" x "]" => (fun (j : Fin 256) => x (ix1 j))

/-- Two index functions on a rank-two shape agree when their two coordinates do. -/
local macro "idx2" : term => `(funext fun a => Fin.ext (by match a with | ⟨0, _⟩ => rfl | ⟨1, _⟩ => rfl))
/-- Two index functions on a rank-one shape agree when their coordinate does. -/
local macro "idx1" : term => `(funext fun a => Fin.ext (by match a with | ⟨0, _⟩ => rfl))

/-! ## The Laplacian branch -/

/-- The feature projection `x · W1`. -/
theorem ref_v53 (r : Fin 10000) (j : Fin 256) :
    val_main_v53 (F := Ideal) x0 x2 (ix2 r j) = mm feat[x0] wmat[x2] r j := by
  rw [val_main_v53_apply]
  exact Finset.sum_congr rfl fun k _ => by
    rw [show lidx_main_v53 (ix2 r j) k = ix2 r k from idx2, show ridx_main_v53 (ix2 r j) k = ix2 k j from idx2]

/-- The Laplacian times the projected features. -/
theorem ref_v54 (r : Fin 10000) (j : Fin 256) :
    val_main_v54 (F := Ideal) x0 x1 x2 (ix2 r j)
      = ∑ c : Fin 10000, (eye r c - rowFac[x1] r * adjR x1 r c * rowFac[x1] c) * mm feat[x0] wmat[x2] c j := by
  rw [val_main_v54_apply]
  exact Finset.sum_congr rfl fun k _ => by
    rw [show lidx_main_v54 (ix2 r j) k = ix2 r k from idx2, show ridx_main_v54 (ix2 r j) k = ix2 k j from idx2,
      ref_lap, ref_v53]

/-- The first Laplacian layer: the product plus the bias along the rows. -/
theorem ref_v57 (r : Fin 10000) (j : Fin 256) :
    val_main_v57 (F := Ideal) x0 x1 x2 x3 (ix2 r j)
      = lapDense (adjR x1) rowFac[x1] (mm feat[x0] wmat[x2]) bias[x3] r j := by
  rw [val_main_v57_apply, ref_v54, val_main_v56_apply, val_main_v55_apply,
    show idx_main_v55 (idx_main_v56 (ix2 r j)) = ix1 j from idx1]
  rfl

/-- The rectifier after the first Laplacian layer. -/
theorem ref_v58 (r : Fin 10000) (j : Fin 256) :
    val_main_v58 (F := Ideal) x0 x1 x2 x3 (ix2 r j)
      = relu (lapDense (adjR x1) rowFac[x1] (mm feat[x0] wmat[x2]) bias[x3]) r j := by
  rw [val_main_v58_apply, ref_v57, val_main_call2_v0_apply, val_main_call2_cst_apply]
  show max _ (Ideal.ofBits .f32 0x00000000#32) = _
  rw [Ideal.ofBits_zero_f32]
  rfl

/-- The second feature projection. -/
theorem ref_v59 (r : Fin 10000) (j : Fin 256) :
    val_main_v59 (F := Ideal) x0 x1 x2 x3 x4 (ix2 r j)
      = mm (relu (lapDense (adjR x1) rowFac[x1] (mm feat[x0] wmat[x2]) bias[x3])) wmat[x4] r j := by
  rw [val_main_v59_apply]
  exact Finset.sum_congr rfl fun k _ => by
    rw [show lidx_main_v59 (ix2 r j) k = ix2 r k from idx2, show ridx_main_v59 (ix2 r j) k = ix2 k j from idx2,
      ref_v58]

/-- The Laplacian times the second projection. -/
theorem ref_v60 (r : Fin 10000) (j : Fin 256) :
    val_main_v60 (F := Ideal) x0 x1 x2 x3 x4 (ix2 r j)
      = ∑ c : Fin 10000, (eye r c - rowFac[x1] r * adjR x1 r c * rowFac[x1] c)
          * mm (relu (lapDense (adjR x1) rowFac[x1] (mm feat[x0] wmat[x2]) bias[x3])) wmat[x4] c j := by
  rw [val_main_v60_apply]
  exact Finset.sum_congr rfl fun k _ => by
    rw [show lidx_main_v60 (ix2 r j) k = ix2 r k from idx2, show ridx_main_v60 (ix2 r j) k = ix2 k j from idx2,
      ref_lap, ref_v59]

/-- The first output: two Laplacian layers in the dense arrangement, the degree factor made from the row sums. -/
theorem ref_z1 (r : Fin 10000) (j : Fin 256) :
    val_main_v63 (F := Ideal) x0 x1 x2 x3 x4 x5 (ix2 r j)
      = lapNetDense (adjR x1) (fun r => facOf (∑ c : Fin 10000, adjR x1 r c)) (fun r q => x0 (ix2 r q))
          (fun q j => x2 (ix2 q j)) (fun j => x3 (ix1 j)) (fun q j => x4 (ix2 q j)) (fun j => x5 (ix1 j)) r j := by
  rw [val_main_v63_apply, ref_v60, val_main_v62_apply, val_main_v61_apply,
    show idx_main_v61 (idx_main_v62 (ix2 r j)) = ix1 j from idx1]
  rfl

/-! ## The adjacency branch -/

/-- The feature projection `x · W1`, computed again for this branch. -/
theorem ref_v64 (r : Fin 10000) (j : Fin 256) :
    val_main_v64 (F := Ideal) x0 x2 (ix2 r j) = mm feat[x0] wmat[x2] r j := by
  rw [val_main_v64_apply]
  exact Finset.sum_congr rfl fun k _ => by
    rw [show lidx_main_v64 (ix2 r j) k = ix2 r k from idx2, show ridx_main_v64 (ix2 r j) k = ix2 k j from idx2]

/-- The normalised adjacency times the projected features. -/
theorem ref_v65 (r : Fin 10000) (j : Fin 256) :
    val_main_v65 (F := Ideal) x0 x1 x2 (ix2 r j)
      = ∑ c : Fin 10000, (colFac[x1] r * adjR x1 r c * colFac[x1] c) * mm feat[x0] wmat[x2] c j := by
  rw [val_main_v65_apply]
  exact Finset.sum_congr rfl fun k _ => by
    rw [show lidx_main_v65 (ix2 r j) k = ix2 r k from idx2, show ridx_main_v65 (ix2 r j) k = ix2 k j from idx2,
      ref_anorm, ref_v64]

/-- The first adjacency layer: the product plus the bias along the rows. -/
theorem ref_v68 (r : Fin 10000) (j : Fin 256) :
    val_main_v68 (F := Ideal) x0 x1 x2 x3 (ix2 r j)
      = adjDense (adjR x1) colFac[x1] (mm feat[x0] wmat[x2]) bias[x3] r j := by
  rw [val_main_v68_apply, ref_v65, val_main_v67_apply, val_main_v66_apply,
    show idx_main_v66 (idx_main_v67 (ix2 r j)) = ix1 j from idx1]
  rfl

/-- The rectifier after the first adjacency layer. -/
theorem ref_v69 (r : Fin 10000) (j : Fin 256) :
    val_main_v69 (F := Ideal) x0 x1 x2 x3 (ix2 r j)
      = relu (adjDense (adjR x1) colFac[x1] (mm feat[x0] wmat[x2]) bias[x3]) r j := by
  rw [val_main_v69_apply, ref_v68, val_main_call3_v0_apply, val_main_call3_cst_apply]
  show max _ (Ideal.ofBits .f32 0x00000000#32) = _
  rw [Ideal.ofBits_zero_f32]
  rfl

/-- The second feature projection. -/
theorem ref_v70 (r : Fin 10000) (j : Fin 256) :
    val_main_v70 (F := Ideal) x0 x1 x2 x3 x4 (ix2 r j)
      = mm (relu (adjDense (adjR x1) colFac[x1] (mm feat[x0] wmat[x2]) bias[x3])) wmat[x4] r j := by
  rw [val_main_v70_apply]
  exact Finset.sum_congr rfl fun k _ => by
    rw [show lidx_main_v70 (ix2 r j) k = ix2 r k from idx2, show ridx_main_v70 (ix2 r j) k = ix2 k j from idx2,
      ref_v69]

/-- The normalised adjacency times the second projection. -/
theorem ref_v71 (r : Fin 10000) (j : Fin 256) :
    val_main_v71 (F := Ideal) x0 x1 x2 x3 x4 (ix2 r j)
      = ∑ c : Fin 10000, (colFac[x1] r * adjR x1 r c * colFac[x1] c)
          * mm (relu (adjDense (adjR x1) colFac[x1] (mm feat[x0] wmat[x2]) bias[x3])) wmat[x4] c j := by
  rw [val_main_v71_apply]
  exact Finset.sum_congr rfl fun k _ => by
    rw [show lidx_main_v71 (ix2 r j) k = ix2 r k from idx2, show ridx_main_v71 (ix2 r j) k = ix2 k j from idx2,
      ref_anorm, ref_v70]

/-- The second output: two adjacency layers in the dense arrangement, the degree factor made from the column sums. -/
theorem ref_z2 (r : Fin 10000) (j : Fin 256) :
    val_main_v74 (F := Ideal) x0 x1 x2 x3 x4 x5 (ix2 r j)
      = adjNetDense (adjR x1) (fun c => facOf (∑ r : Fin 10000, adjR x1 r c)) (fun r q => x0 (ix2 r q))
          (fun q j => x2 (ix2 q j)) (fun j => x3 (ix1 j)) (fun q j => x4 (ix2 q j)) (fun j => x5 (ix1 j)) r j := by
  rw [val_main_v74_apply, ref_v71, val_main_v73_apply, val_main_v72_apply,
    show idx_main_v72 (idx_main_v73 (ix2 r j)) = ix1 j from idx1]
  rfl

end Cert.RefNet

end
-- ==== Proof.LibScatterKeeps.lean ====
import Idealize.ShloMosaic.Lib.ValueIdx

/-!
# A scatter whose body returns the update keeps any property shared by the operand and the updates

A scatter visits the update's indices one after another; at each one whose landing index is inside the operand it
overwrites the result's element there by the body applied to the old element and the update's element, and it leaves the
result alone when the landing index is outside. When the body returns the update's element, every element of the result
is therefore either an element of the operand or an element of the update. So a property that holds of every element of
the operand and of every element of the update holds of every element of the result — whatever the scatter indices are,
and whether or not two updates meet at one element.
-/

namespace Cert.ScatterKeeps
open Idealize.ShloMosaic

/-- A fold of steps each of which keeps "all values have `P`", started from a function all of whose values have `P`:
    all values of the result have `P`. By induction on the list with the starting function general. -/
theorem foldl_keeps {ι κ α : Type} (P : α → Prop) (step : (ι → α) → κ → (ι → α))
    (hstep : ∀ r n, (∀ i, P (r i)) → ∀ i, P (step r n i))
    (L : List κ) (r : ι → α) (hr : ∀ i, P (r i)) (i : ι) : P (L.foldl step r i) := by
  induction L generalizing r with
  | nil => exact hr i
  | cons a L ih =>
    rw [List.foldl_cons]
    exact ih _ (hstep r a hr)

/-- A scatter whose body returns the update's element: a property of every element of the operand `x` and of every
    element of the update `upd` is a property of every element of the result, for any dimension numbers and any scatter
    indices. One step either leaves the result alone (landing index outside) or overwrites one element by an element of
    the update. -/
theorem scatter_set_keeps {α : Type} {s si u : Shape} {w : Nat} (d : ScatterDims s si u) (P : α → Prop)
    (x : s.Idx → α) (idx : IVec si w) (upd : u.Idx → α)
    (hx : ∀ i, P (x i)) (hu : ∀ j, P (upd j)) (i : s.Idx) :
    P (Host.scatter d (fun _ b => b) x idx upd i) := by
  unfold Host.scatter
  refine foldl_keeps P _ ?_ (List.finRange u.numel) x hx i
  intro r n hr i'
  generalize d.resultIdx? (u.rowMajor.symm n) idx = o
  cases o with
  | none => exact hr i'
  | some i0 =>
    show P (if i' = i0 then upd (u.rowMajor.symm n) else r i')
    split_ifs
    · exact hu _
    · exact hr i'

end Cert.ScatterKeeps
-- ==== Proof.GcnLaws.lean ====
/-
  The two arrangements of a graph-convolution layer agree on real entries.

  Every statement here is about extended reals that are real numbers (`IsFin`). On such entries addition, subtraction,
  multiplication, maximum and finite sums are the real operations, so a layer in the separated arrangement and the same
  layer in the dense arrangement are two spellings of one real polynomial identity: distribute the outer factor over the
  sum, and use  Σ_c eye r c · Y c j = Y r j.  The two-layer statements follow because every intermediate (a product of
  matrices, a rectifier, a layer) again has real entries.
-/
import proofs.«165336_j42056319762462_2_alg».proof.Proof.GcnSpec

noncomputable section

namespace Cert.Gcn

open scoped BigOperators

variable {n k h : ℕ}

/-! ### Real entries are closed under the operations -/

theorem isFin_coe (x : ℝ) : IsFin (x : EReal) := ⟨x, rfl⟩

theorem isFin_zero : IsFin (0 : EReal) := ⟨0, rfl⟩

theorem isFin_one : IsFin (1 : EReal) := ⟨1, rfl⟩

theorem isFin_add {a b : EReal} (ha : IsFin a) (hb : IsFin b) : IsFin (a + b) := by
  obtain ⟨x, rfl⟩ := ha; obtain ⟨y, rfl⟩ := hb; exact ⟨x + y, (EReal.coe_add x y).symm⟩

theorem isFin_sub {a b : EReal} (ha : IsFin a) (hb : IsFin b) : IsFin (a - b) := by
  obtain ⟨x, rfl⟩ := ha; obtain ⟨y, rfl⟩ := hb; exact ⟨x - y, (EReal.coe_sub x y).symm⟩

theorem isFin_mul {a b : EReal} (ha : IsFin a) (hb : IsFin b) : IsFin (a * b) := by
  obtain ⟨x, rfl⟩ := ha; obtain ⟨y, rfl⟩ := hb; exact ⟨x * y, (EReal.coe_mul x y).symm⟩

/-- The maximum of two coerced reals is the coerced real maximum. -/
theorem coe_max (x y : ℝ) : ((max x y : ℝ) : EReal) = max (x : EReal) (y : EReal) :=
  EReal.coe_strictMono.monotone.map_max

theorem isFin_max {a b : EReal} (ha : IsFin a) (hb : IsFin b) : IsFin (max a b) := by
  obtain ⟨x, rfl⟩ := ha; obtain ⟨y, rfl⟩ := hb; exact ⟨max x y, (coe_max x y).symm⟩

/-- A finite sum of coerced reals is the coerced real sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isFin_sum {ι : Type*} (s : Finset ι) (f : ι → EReal) (hf : ∀ i ∈ s, IsFin (f i)) :
    IsFin (∑ i ∈ s, f i) := by
  classical
  induction s using Finset.induction_on with
  | empty => simpa using isFin_zero
  | insert a s ha ih =>
    rw [Finset.sum_insert ha]
    exact isFin_add (hf a (Finset.mem_insert_self a s)) (ih fun i hi => hf i (Finset.mem_insert_of_mem hi))

theorem isFin_eye (r c : Fin n) : IsFin (eye r c) := by
  unfold eye; split_ifs
  · exact isFin_one
  · exact isFin_zero

theorem isFin_mm {X : Fin n → Fin k → EReal} {W : Fin k → Fin h → EReal}
    (hX : ∀ r q, IsFin (X r q)) (hW : ∀ q j, IsFin (W q j)) (r : Fin n) (j : Fin h) : IsFin (mm X W r j) :=
  isFin_sum _ _ fun q _ => isFin_mul (hX r q) (hW q j)

theorem isFin_relu {Z : Fin n → Fin h → EReal} (hZ : ∀ r j, IsFin (Z r j)) (r : Fin n) (j : Fin h) :
    IsFin (relu Z r j) :=
  isFin_max (hZ r j) isFin_zero

theorem isFin_propSep {A : Fin n → Fin n → EReal} {d : Fin n → EReal} {Y : Fin n → Fin h → EReal}
    (hA : ∀ r c, IsFin (A r c)) (hd : ∀ r, IsFin (d r)) (hY : ∀ r j, IsFin (Y r j)) (r : Fin n) (j : Fin h) :
    IsFin (propSep A d Y r j) :=
  isFin_mul (hd r) (isFin_sum _ _ fun c _ => isFin_mul (hA r c) (isFin_mul (hd c) (hY c j)))

theorem isFin_lapSep {A : Fin n → Fin n → EReal} {d : Fin n → EReal} {Y : Fin n → Fin h → EReal} {b : Fin h → EReal}
    (hA : ∀ r c, IsFin (A r c)) (hd : ∀ r, IsFin (d r)) (hY : ∀ r j, IsFin (Y r j)) (hb : ∀ j, IsFin (b j))
    (r : Fin n) (j : Fin h) : IsFin (lapSep A d Y b r j) :=
  isFin_add (isFin_sub (hY r j) (isFin_propSep hA hd hY r j)) (hb j)

theorem isFin_adjSep {A : Fin n → Fin n → EReal} {d : Fin n → EReal} {Y : Fin n → Fin h → EReal} {b : Fin h → EReal}
    (hA : ∀ r c, IsFin (A r c)) (hd : ∀ r, IsFin (d r)) (hY : ∀ r j, IsFin (Y r j)) (hb : ∀ j, IsFin (b j))
    (r : Fin n) (j : Fin h) : IsFin (adjSep A d Y b r j) :=
  isFin_add (isFin_propSep hA hd hY r j) (hb j)

theorem isFin_lapDense {A : Fin n → Fin n → EReal} {d : Fin n → EReal} {Y : Fin n → Fin h → EReal} {b : Fin h → EReal}
    (hA : ∀ r c, IsFin (A r c)) (hd : ∀ r, IsFin (d r)) (hY : ∀ r j, IsFin (Y r j)) (hb : ∀ j, IsFin (b j))
    (r : Fin n) (j : Fin h) : IsFin (lapDense A d Y b r j) :=
  isFin_add (isFin_sum _ _ fun c _ =>
    isFin_mul (isFin_sub (isFin_eye r c) (isFin_mul (isFin_mul (hd r) (hA r c)) (hd c))) (hY c j)) (hb j)

theorem isFin_adjDense {A : Fin n → Fin n → EReal} {d : Fin n → EReal} {Y : Fin n → Fin h → EReal} {b : Fin h → EReal}
    (hA : ∀ r c, IsFin (A r c)) (hd : ∀ r, IsFin (d r)) (hY : ∀ r j, IsFin (Y r j)) (hb : ∀ j, IsFin (b j))
    (r : Fin n) (j : Fin h) : IsFin (adjDense A d Y b r j) :=
  isFin_add (isFin_sum _ _ fun c _ => isFin_mul (isFin_mul (isFin_mul (hd r) (hA r c)) (hd c)) (hY c j)) (hb j)

/-! ### The layer laws -/

/-- The identity matrix as a coerced real. -/
theorem eye_eq_coe (r c : Fin n) : eye r c = (((if r = c then 1 else 0 : ℝ)) : EReal) := by
  unfold eye; split_ifs <;> simp

/-- The propagation step on real entries:  d r · Σ_c A r c · (d c · Y c j) = Σ_c (d r · A r c · d c) · Y c j. -/
theorem propSep_eq_sum (A : Fin n → Fin n → EReal) (d : Fin n → EReal) (Y : Fin n → Fin h → EReal)
    (hA : ∀ r c, IsFin (A r c)) (hd : ∀ r, IsFin (d r)) (hY : ∀ r j, IsFin (Y r j)) (r : Fin n) (j : Fin h) :
    propSep A d Y r j = ∑ c : Fin n, (d r * A r c * d c) * Y c j := by
  choose a ha using hA
  choose e he using hd
  choose y hy using hY
  unfold propSep
  simp only [ha, he, hy, ← EReal.coe_mul, ← coe_sum]
  congr 1
  rw [Finset.mul_sum]
  exact Finset.sum_congr rfl fun c _ => by ring

/-- The Laplacian layer: separated and dense arrangements agree on real entries (the bias may be anything). -/
theorem lapSep_eq_lapDense (A : Fin n → Fin n → EReal) (d : Fin n → EReal) (Y : Fin n → Fin h → EReal)
    (b : Fin h → EReal) (hA : ∀ r c, IsFin (A r c)) (hd : ∀ r, IsFin (d r)) (hY : ∀ r j, IsFin (Y r j)) :
    lapSep A d Y b = lapDense A d Y b := by
  funext r j
  choose a ha using hA
  choose e he using hd
  choose y hy using hY
  unfold lapSep lapDense propSep
  congr 1
  simp only [ha, he, hy, eye_eq_coe, ← EReal.coe_mul, ← EReal.coe_sub, ← coe_sum]
  congr 1
  simp only [sub_mul, Finset.sum_sub_distrib, ite_mul, one_mul, zero_mul, Finset.sum_ite_eq, Finset.mem_univ,
    if_true, Finset.mul_sum]
  congr 1
  exact Finset.sum_congr rfl fun c _ => by ring

/-- The adjacency layer: separated and dense arrangements agree on real entries (the bias may be anything). -/
theorem adjSep_eq_adjDense (A : Fin n → Fin n → EReal) (d : Fin n → EReal) (Y : Fin n → Fin h → EReal)
    (b : Fin h → EReal) (hA : ∀ r c, IsFin (A r c)) (hd : ∀ r, IsFin (d r)) (hY : ∀ r j, IsFin (Y r j)) :
    adjSep A d Y b = adjDense A d Y b := by
  funext r j
  unfold adjSep adjDense
  rw [propSep_eq_sum A d Y hA hd hY r j]

/-! ### Two layers -/

theorem lapNet_eq (A : Fin n → Fin n → EReal) (d : Fin n → EReal) (x : Fin n → Fin k → EReal)
    (W1 : Fin k → Fin h → EReal) (b1 : Fin h → EReal) (W2 : Fin h → Fin h → EReal) (b2 : Fin h → EReal)
    (hA : ∀ r c, IsFin (A r c)) (hd : ∀ r, IsFin (d r)) (hx : ∀ r q, IsFin (x r q))
    (hW1 : ∀ q j, IsFin (W1 q j)) (hb1 : ∀ j, IsFin (b1 j)) (hW2 : ∀ q j, IsFin (W2 q j))
    (hb2 : ∀ j, IsFin (b2 j)) :
    lapNetSep A d x W1 b1 W2 b2 = lapNetDense A d x W1 b1 W2 b2 := by
  unfold lapNetSep lapNetDense
  have h1 : ∀ r j, IsFin (mm x W1 r j) := isFin_mm hx hW1
  have h2 : ∀ r j, IsFin (lapSep A d (mm x W1) b1 r j) := isFin_lapSep hA hd h1 hb1
  have h3 : ∀ r j, IsFin (mm (relu (lapSep A d (mm x W1) b1)) W2 r j) := isFin_mm (isFin_relu h2) hW2
  rw [lapSep_eq_lapDense A d _ b2 hA hd h3, lapSep_eq_lapDense A d _ b1 hA hd h1]

theorem adjNet_eq (A : Fin n → Fin n → EReal) (d : Fin n → EReal) (x : Fin n → Fin k → EReal)
    (W1 : Fin k → Fin h → EReal) (b1 : Fin h → EReal) (W2 : Fin h → Fin h → EReal) (b2 : Fin h → EReal)
    (hA : ∀ r c, IsFin (A r c)) (hd : ∀ r, IsFin (d r)) (hx : ∀ r q, IsFin (x r q))
    (hW1 : ∀ q j, IsFin (W1 q j)) (hb1 : ∀ j, IsFin (b1 j)) (hW2 : ∀ q j, IsFin (W2 q j))
    (hb2 : ∀ j, IsFin (b2 j)) :
    adjNetSep A d x W1 b1 W2 b2 = adjNetDense A d x W1 b1 W2 b2 := by
  unfold adjNetSep adjNetDense
  have h1 : ∀ r j, IsFin (mm x W1 r j) := isFin_mm hx hW1
  have h2 : ∀ r j, IsFin (adjSep A d (mm x W1) b1 r j) := isFin_adjSep hA hd h1 hb1
  have h3 : ∀ r j, IsFin (mm (relu (adjSep A d (mm x W1) b1)) W2 r j) := isFin_mm (isFin_relu h2) hW2
  rw [adjSep_eq_adjDense A d _ b2 hA hd h3, adjSep_eq_adjDense A d _ b1 hA hd h1]

end Cert.Gcn

end
-- ==== Proof.AdjBridge.lean ====
/-
  The two programs build one adjacency.

  Both host programs turn the edge list into a dense matrix the same way: split the list into its two rows, move the
  negative numbers of each up by the node count, pair the two columns, and scatter a one into a matrix of zeros at every
  pair. The kernel program does it in half width, the reference in single precision; the integer operations are the same
  operations on the same array, and at the ideal values the zero words of both formats denote 0 and the words of one
  denote 1, so the two scatters are the same scatter. A scatter that returns the update leaves only entries of the
  operand or of the update, so every entry of the adjacency is 0 or 1, a real.
-/
import proofs.«165336_j42056319762462_2_alg».proof.Proof.Gen.KernelIdeal.Frame
import proofs.«165336_j42056319762462_2_alg».proof.Proof.RefRead
import proofs.«165336_j42056319762462_2_alg».proof.Proof.IdealRead
import proofs.«165336_j42056319762462_2_alg».proof.Proof.LibScatterKeeps
import proofs.«165336_j42056319762462_2_alg».proof.Proof.GcnLaws
import Idealize.ShloMosaic.Lib.StableHlo.Run
import Idealize.ShloMosaic.Lib.ValueIdx
import Idealize.ShloMosaic.PureOps.Ideal.Laws

set_option maxRecDepth 16384

noncomputable section

namespace Cert.AdjBridge

open Cert.KernelIdeal.Gen Idealize.ShloMosaic Idealize.SL.Sem

/-- Scatters with equal dimension numbers, operands, scatter indices and updates are equal. -/
theorem scatter_congr {α : Type} {s si u : Shape} {w : Nat} (d d' : ScatterDims s si u) (f : α → α → α)
    (x x' : s.Idx → α) (idx idx' : IVec si w) (upd upd' : u.Idx → α)
    (hd : d = d') (hx : x = x') (hi : idx = idx') (hu : upd = upd') :
    Host.scatter d f x idx upd = Host.scatter d' f x' idx' upd' := by
  subst hd hx hi hu; rfl

/-- Joins of two arrays of one shape along an axis are equal when the arrays are. -/
theorem concat2_congr {α : Type} (t : Shape) (a : Fin t.rank) (s : Shape) (p p' q q' : s.Idx → α)
    (h h' : Shape.Concatenates [s, s] t a) (hp : p = p') (hq : q = q') :
    concatenate t a [⟨s, p⟩, ⟨s, q⟩] h = concatenate t a [⟨s, p'⟩, ⟨s, q'⟩] h' := by
  subst hp hq; rfl

/-- The half-width zero word denotes 0. -/
theorem zero_bf16 : Ideal.ofBits .bf16 0x0000#16 = (0 : EReal) := by simp [Ideal.ofBits, Ideal.ieee]

/-- The half-width word `0x3F80` denotes 1 (exponent field at the bias, zero fraction). -/
theorem one_bf16 : Ideal.ofBits .bf16 0x3F80#16 = (1 : EReal) := by
  simp [Ideal.ofBits, Ideal.ieee]
  rw [← EReal.coe_mul]
  norm_num

/-- The single-precision word `0x3F800000` denotes 1 (exponent field at the bias, zero fraction). -/
theorem one_f32 : Ideal.ofBits .f32 0x3F800000#32 = (1 : EReal) := by
  simp [Ideal.ofBits, Ideal.ieee]
  rw [← EReal.coe_mul]
  norm_num

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

set_option maxHeartbeats 400000 in
/-- The adjacency the kernel program's host stretch builds is the reference's: the same scatter of ones into zeros at
    the same indices, the kernel's in half width and the reference's in single precision, which denote the same reals. -/
theorem ker_adj_eq_ref :
    Cert.Gcn.asE Cert.KernelIdeal.S10000x10000 .bf16
        (Cert.KernelIdeal.Gen.W1 (F := Ideal) m ρ c (Proc.devRef .tc Cert.KernelIdeal.main_v19))
      = Cert.Gcn.asE Cert.ReferenceIdeal.S10000x10000 .f32
          (Cert.ReferenceIdeal.ReadP.val_main_v19 (F := Ideal)
            (m ((c.tc : Thread Cert.KernelIdeal.nD Cert.KernelIdeal.τ).loc Cert.KernelIdeal.main_arg1))) := by
  unfold Cert.Gcn.asE
  show StableHlo.after Cert.KernelIdeal.Gen.hostOps0 (Cert.KernelIdeal.Gen.W0 m ρ c)
    (Proc.devRef .tc Cert.KernelIdeal.main_v19) = _
  after_results_simp
  unfold Cert.ReferenceIdeal.ReadP.val_main_v19 Cert.ReferenceIdeal.ReadP.val_main_v17
  refine scatter_congr (α := EReal) _ _ _ _ _ _ _ _ _ ?_ ?_ ?_ ?_
  · rfl
  · funext i
    show Ideal.ofBits .bf16 0x0000#16 = Ideal.ofBits .f32 0x00000000#32
    rw [zero_bf16, Ideal.ofBits_zero_f32]
  · refine concat2_congr (α := BitVec 32) _ _ _ _ _ _ _ _ _ ?_ ?_
    · after_results_simp
      rfl
    · after_results_simp
      rfl
  · funext j
    show Ideal.ofBits .bf16 0x3F80#16 = Ideal.ofBits .f32 0x3F800000#32
    rw [one_bf16, one_f32]

/-- Every entry of the reference's adjacency is a real: the scatter returns the update, so each entry is an entry of
    the operand (the zero word) or of the update (the word of 1). -/
theorem ref_adj_isFin (x1 : (⟨Cert.ReferenceIdeal.S2x320000, .i32⟩ : BufTy).Contents (Elt Ideal))
    (i : Cert.ReferenceIdeal.S10000x10000.Idx) :
    Cert.Gcn.IsFin (Cert.ReferenceIdeal.ReadP.val_main_v19 (F := Ideal) x1 i) := by
  unfold Cert.ReferenceIdeal.ReadP.val_main_v19
  refine Cert.ScatterKeeps.scatter_set_keeps _ Cert.Gcn.IsFin _ _ _ (fun i => ?_) (fun j => ?_) i
  · show Cert.Gcn.IsFin (Ideal.ofBits .f32 0x00000000#32)
    rw [Ideal.ofBits_zero_f32]; exact ⟨0, rfl⟩
  · show Cert.Gcn.IsFin (Ideal.ofBits .f32 0x3F800000#32)
    rw [one_f32]; exact ⟨1, rfl⟩

end Cert.AdjBridge

end
-- ==== Proof.GcnFactorFin.lean ====
/-
  The degree factor of a node of real degree is a real number.

  The factor is zero where the degree is not positive. Where it is, it is the reciprocal square root of the larger of the
  degree and a constant ε; ε is the value of a normal single-precision pattern, a positive real, so the larger of the
  two is a positive real and its reciprocal square root is the real  (√·)⁻¹.  Either way the result is real.
-/
import proofs.«165336_j42056319762462_2_alg».proof.Proof.GcnFactor

noncomputable section

namespace Cert.Gcn

open Idealize.ShloMosaic

/-- The word `0x2B8CBCCC` denotes a positive real (a normal pattern: exponent field 87, about 1e-12). -/
theorem eps_pos : ∃ e : ℝ, 0 < e ∧ Ideal.ofBits .f32 0x2B8CBCCC#32 = (e : EReal) := by
  refine ⟨9223372 * (2 ^ 63)⁻¹, by positivity, ?_⟩
  simp [Ideal.ofBits, Ideal.ieee]

/-- The degree factor of a real degree is real. -/
theorem isFin_facOf (x : EReal) (hx : IsFin x) : IsFin (facOf x) := by
  obtain ⟨r, rfl⟩ := hx
  obtain ⟨e, he, hε⟩ := eps_pos
  unfold facOf Scalar.select
  split_ifs
  · have hpos : 0 < max r e := lt_max_of_lt_right he
    have hmax : max (r : EReal) (e : EReal) = ((max r e : ℝ) : EReal) :=
      (EReal.coe_strictMono.monotone.map_max).symm
    rw [Ideal.hostUnary_rsqrt_def, Ideal.maximumf_def, Ideal.ofBits_def, hε, hmax, Ideal.rsqrt_coe,
      if_neg (not_lt.mpr hpos.le), if_neg hpos.ne']
    exact ⟨_, rfl⟩
  · rw [Ideal.ofBits_def, Ideal.ofBits_zero_f32]
    exact ⟨0, rfl⟩

end Cert.Gcn

end
-- ==== Proof.FiniteInputs.lean ====
/-
  From the precondition to: every floating-point input entry is a real number.

  The precondition is the conjunction, over the five floating-point inputs, of "every entry's absolute value is below
  +∞". A conjunction of one-bit words that is 1 has every conjunct 1; a conjunction over all entries of an array that is
  1 has a 1 at every entry; and an extended real whose absolute value  max x (−x)  is below +∞ is neither +∞ nor −∞, so
  it is a real. The word `0x7F800000` denotes +∞ (all-ones exponent, zero fraction, sign clear).
-/
import proofs.«165336_j42056319762462_2_alg».proof.Defs
import Idealize.ShloMosaic.Lib.ReduceAll
import proofs.«165336_j42056319762462_2_alg».proof.Proof.GcnSpec

namespace Cert.FiniteInputs

open Idealize.ShloMosaic Cert.Pre_finite_inputs

/-- The shape with no axes has one index. -/
instance : Subsingleton S_.Idx := ⟨fun _ _ => funext fun d => d.elim0⟩

/-- The word `0x7F800000` denotes +∞. -/
theorem top_word : Ideal.ofBits .f32 0x7F800000#32 = (⊤ : EReal) := by
  simp [Ideal.ofBits, Ideal.ieee]

/-- An extended real whose absolute value  max x (−x)  compares below +∞ is a real: at +∞ the maximum is +∞, at −∞ the
    negation is +∞. -/
theorem isFin_of_abs_lt (x : EReal)
    (h : Ideal.cmp .olt (max x (-x)) (Ideal.ofBits .f32 0x7F800000#32) = 1#1) : Cert.Gcn.IsFin x := by
  rw [top_word] at h
  induction x using EReal.rec with
  | bot => simp [Ideal.cmp] at h
  | top => simp [Ideal.cmp] at h
  | coe r => exact ⟨r, rfl⟩

/-- Under the precondition every entry of each of the five floating-point inputs is a real. -/
theorem finite_of_pre [Cert.Pre_finite_inputs.Facts] (x0 : FVec Ideal S10000x256 .f32) (x1 : IVec S2x320000 32)
    (x2 : FVec Ideal S256x256 .f32) (x3 : FVec Ideal S256 .f32) (x4 : FVec Ideal S256x256 .f32)
    (x5 : FVec Ideal S256 .f32)
    (h : Cert.Pre_finite_inputs.fn (F := Ideal) x0 x1 x2 x3 x4 x5 = (fun _ => 1#1)) :
    (∀ i, Cert.Gcn.IsFin (x0 i)) ∧ (∀ i, Cert.Gcn.IsFin (x2 i)) ∧ (∀ i, Cert.Gcn.IsFin (x3 i)) ∧
      (∀ i, Cert.Gcn.IsFin (x4 i)) ∧ (∀ i, Cert.Gcn.IsFin (x5 i)) := by
  have h0 := congrFun h (fun a => a.elim0 : S_.Idx)
  dsimp only [fn, fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨fun i => isFin_of_abs_lt _ (Host.reduce_andi_all _ _ _ _ _ e0 i),
    fun i => isFin_of_abs_lt _ (Host.reduce_andi_all _ _ _ _ _ e2 i),
    fun i => isFin_of_abs_lt _ (Host.reduce_andi_all _ _ _ _ _ e3 i),
    fun i => isFin_of_abs_lt _ (Host.reduce_andi_all _ _ _ _ _ e4 i),
    fun i => isFin_of_abs_lt _ (Host.reduce_andi_all _ _ _ _ _ e5 i)⟩

end Cert.FiniteInputs
-- ==== Proof.Bridge.lean ====
/-
  The two programs compute one function. The kernel program's results are the two-layer networks in the separated
  arrangement over its own adjacency and factors (KerNet); the reference's are the same networks in the dense arrangement
  over its adjacency and factors (RefNet). The two adjacencies are one array — the same scatter of the same edge list, its
  entries zeros and ones — so the factors, `facOf` of its row and column sums, agree too; every input entry is a real by
  the precondition; and on real entries the separated and the dense arrangement of a layer agree (distributivity, which
  needs the entries finite), so the networks agree.
-/
import proofs.«165336_j42056319762462_2_alg».proof.Proof.KerNet
import proofs.«165336_j42056319762462_2_alg».proof.Proof.RefNet
import proofs.«165336_j42056319762462_2_alg».proof.Proof.AdjBridge
import proofs.«165336_j42056319762462_2_alg».proof.Proof.GcnLaws
import proofs.«165336_j42056319762462_2_alg».proof.Proof.GcnFactorFin
import proofs.«165336_j42056319762462_2_alg».proof.Proof.FiniteInputs
import proofs.«165336_j42056319762462_2_alg».proof.Proof.Gen.Pre_finite_inputs

set_option maxRecDepth 16384

noncomputable section

namespace Cert.Bridge

open Idealize.ShloMosaic Idealize.ShloMosaic.TcCoe Idealize.ShloMosaic.ValueIdx Idealize.SL.Sem Cert.Gcn
open Cert.KernelIdeal.Net

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The kernel program's adjacency is the reference's, of the same edge list. -/
theorem adj_eq : adjK m ρ c = Cert.RefNet.adjR (m ((c.tc : Thread Cert.KernelIdeal.nD Cert.KernelIdeal.τ).loc Cert.KernelIdeal.main_arg1)) := by
  funext r q
  unfold adjK Cert.RefNet.adjR
  exact (congrFun (Cert.AdjBridge.ker_adj_eq_ref m ρ c) (ix2 r q)).trans (asE_apply _ _ _ _)

/-- Its entries are reals (zeros and ones). -/
theorem adj_isFin (r q : Fin 10000) : IsFin (adjK m ρ c r q) := by
  rw [adj_eq]; unfold Cert.RefNet.adjR; exact Cert.AdjBridge.ref_adj_isFin _ _

/-- So are the factors: `facOf` of a finite sum of reals. -/
theorem dr_isFin (r : Fin 10000) : IsFin (drK m ρ c r) :=
  isFin_facOf _ (isFin_sum _ _ fun q _ => adj_isFin m ρ c r q)
theorem dc_isFin (r : Fin 10000) : IsFin (dcK m ρ c r) :=
  isFin_facOf _ (isFin_sum _ _ fun p _ => adj_isFin m ρ c p r)

/-- The kernel program's first result is the reference's second returned value (the Laplacian branch), at every index. -/
theorem z1_agree (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = (fun _ => 1#1))
    (r : Fin 10000) (j : Fin 256) :
    asE Cert.KernelIdeal.S10000x256 .f32 (Cert.KernelIdeal.Gen.W14 (F := Ideal) m ρ c (Proc.devRef .tc Cert.KernelIdeal.main_v52_0)) (ix2 r j)
      = Cert.ReferenceIdeal.ReadP.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (ix2 r j) := by
  obtain ⟨h0, h2, h3, h4, h5⟩ := Cert.FiniteInputs.finite_of_pre _ _ _ _ _ _ hpre
  have hd : drK m ρ c = fun r => facOf (∑ q : Fin 10000, Cert.RefNet.adjR (m ((c.tc : Thread Cert.KernelIdeal.nD Cert.KernelIdeal.τ).loc Cert.KernelIdeal.main_arg1)) r q) := by
    funext r; unfold drK; rw [adj_eq]
  rw [z1K, lapNet_eq (adjK m ρ c) (drK m ρ c) (xK m c) (w1K m c) (b1K m c) (w2K m c) (b2K m c) (adj_isFin m ρ c) (dr_isFin m ρ c)
    (fun r q => h0 _) (fun q j => h2 _) (fun j => h3 _) (fun q j => h4 _) (fun j => h5 _), Cert.RefNet.ref_z1, hd, adj_eq]
  rfl

/-- The kernel program's second result is the reference's first and third returned value (the adjacency branch). -/
theorem z2_agree (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = (fun _ => 1#1))
    (r : Fin 10000) (j : Fin 256) :
    asE Cert.KernelIdeal.S10000x256 .f32 (Cert.KernelIdeal.Gen.W14 (F := Ideal) m ρ c (Proc.devRef .tc Cert.KernelIdeal.main_v52_1)) (ix2 r j)
      = Cert.ReferenceIdeal.ReadP.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (ix2 r j) := by
  obtain ⟨h0, h2, h3, h4, h5⟩ := Cert.FiniteInputs.finite_of_pre _ _ _ _ _ _ hpre
  have hd : dcK m ρ c = fun q => facOf (∑ p : Fin 10000, Cert.RefNet.adjR (m ((c.tc : Thread Cert.KernelIdeal.nD Cert.KernelIdeal.τ).loc Cert.KernelIdeal.main_arg1)) p q) := by
    funext q; unfold dcK; rw [adj_eq]
  rw [z2K, adjNet_eq (adjK m ρ c) (dcK m ρ c) (xK m c) (w1K m c) (b1K m c) (w2K m c) (b2K m c) (adj_isFin m ρ c) (dc_isFin m ρ c)
    (fun r q => h0 _) (fun q j => h2 _) (fun j => h3 _) (fun q j => h4 _) (fun j => h5 _), Cert.RefNet.ref_z2, hd, adj_eq]
  rfl

end Cert.Bridge

end
-- ==== Proof.lean ====
/-
  Two-layer graph convolution over a dense adjacency built from an edge list: a kernel program of six kernel regions among
  host operations, against a plain reference. Both compute, for a Laplacian branch and an adjacency branch,
  `M · (relu (M · (x · W1) + b1) · W2) + b2` with `M = I − D_r A D_r` and `M = D_c A D_c`, where `A` is the 0/1 adjacency
  and `D_r`, `D_c` the diagonal matrices of `1/√` of the positive row and column sums. The reference forms the dense
  matrix `M` and multiplies; the kernel program multiplies the raw adjacency by row-scaled features and scales the
  result's rows (and, for the Laplacian, subtracts from the features) — equal on real entries by distributivity, which is
  where the precondition (every float input finite) is used.

  The frames of the two kernel programs are the generated ones; the reference has no kernel, and its frame is its run with
  the results dropped. The ideal pass rewrote nothing, so `preserves` has no conjunct. For `algebraic` the kernel
  program's run names its results at the last segment boundary (KerRun), KerNet reads them as the specification's networks
  in the separated arrangement, RefNet reads the reference's results as the dense arrangement, and Bridge joins the two.
-/
import proofs.«165336_j42056319762462_2_alg».proof.Defs
import proofs.«165336_j42056319762462_2_alg».proof.Proof.Gen.Kernel
import proofs.«165336_j42056319762462_2_alg».proof.Proof.Gen.Kernel.Skeleton
import proofs.«165336_j42056319762462_2_alg».proof.Proof.Gen.Kernel.Launch
import proofs.«165336_j42056319762462_2_alg».proof.Proof.Gen.Kernel.Points
import proofs.«165336_j42056319762462_2_alg».proof.Proof.Gen.Kernel.Frame
import proofs.«165336_j42056319762462_2_alg».proof.Proof.Gen.KernelIdeal
import proofs.«165336_j42056319762462_2_alg».proof.Proof.Gen.KernelIdeal.Skeleton
import proofs.«165336_j42056319762462_2_alg».proof.Proof.Gen.KernelIdeal.Launch
import proofs.«165336_j42056319762462_2_alg».proof.Proof.Gen.KernelIdeal.Points
import proofs.«165336_j42056319762462_2_alg».proof.Proof.Gen.KernelIdeal.Frame
import proofs.«165336_j42056319762462_2_alg».proof.Proof.Gen.ReferenceIdeal
import proofs.«165336_j42056319762462_2_alg».proof.Proof.Gen.Pre_finite_inputs
import proofs.«165336_j42056319762462_2_alg».proof.Proof.KerRun
import proofs.«165336_j42056319762462_2_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.Gcn

theorem frame_k : Cert.frame_Kernel := fun m ρ _ => Cert.Kernel.Gen.frame m ρ
theorem frame_ki : Cert.frame_KernelIdeal := fun m ρ _ => Cert.KernelIdeal.Gen.frame m ρ
/-- The reference is host operations only: its frame is its run with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- A buffer of shape [10000, 256] is determined by its entries at coordinates. -/
theorem ext256 {f g : Cert.KernelIdeal.S10000x256.Idx → EReal} (h : ∀ (r : Fin 10000) (j : Fin 256), f (ix2 r j) = g (ix2 r j)) : f = g := by
  funext i
  obtain ⟨r, j, rfl⟩ : ∃ (r : Fin 10000) (j : Fin 256), i = ix2 r j := ⟨_, _, eq_ix2 i⟩
  exact h r j

/-- From memories agreeing on the arguments both programs run, and the reference's three returned values are the kernel
    program's: the adjacency branch's result first and third, the Laplacian branch's second. -/
theorem algebraic : Cert.algebraic_KernelIdeal_ReferenceIdeal := by
  intro m ρ m' ρ' hpre hagree
  refine ⟨fun c => Cert.KernelIdeal.Gen.W14 (F := Ideal) m ρ c (Proc.devRef .tc Cert.KernelIdeal.main_v52_1),
    fun c => Cert.KernelIdeal.Gen.W14 (F := Ideal) m ρ c (Proc.devRef .tc Cert.KernelIdeal.main_v52_0),
    fun c => Cert.KernelIdeal.Gen.W14 (F := Ideal) m ρ c (Proc.devRef .tc Cert.KernelIdeal.main_v52_1), ?_, ?_⟩
  · exact (θ_run Cert.KernelIdeal.defs _ _).mono (fun r h c => ⟨(h c).1, (h c).2.1, (h c).1, (h c).2.2⟩) (Cert.KernelIdeal.Gen.run_results m ρ)
  · refine (θ_run Cert.ReferenceIdeal.defs _ _).mono (fun r h c => ?_) (Cert.ReferenceIdeal.ValueP.run (F := Ideal) m' ρ')
    obtain ⟨e74, e63, -, hargs⟩ := h c
    have hz2 : Cert.ReferenceIdeal.ValueP.res_main_v74 m' c = Cert.KernelIdeal.Gen.W14 (F := Ideal) m ρ c (Proc.devRef .tc Cert.KernelIdeal.main_v52_1) := by
      rw [Cert.ReferenceIdeal.ReadP.val_main_v74_eq, (hagree c).1, (hagree c).2.1, (hagree c).2.2.1, (hagree c).2.2.2.1, (hagree c).2.2.2.2.1, (hagree c).2.2.2.2.2]
      exact (ext256 fun r j => Cert.Bridge.z2_agree m ρ c (hpre c) r j).symm
    have hz1 : Cert.ReferenceIdeal.ValueP.res_main_v63 m' c = Cert.KernelIdeal.Gen.W14 (F := Ideal) m ρ c (Proc.devRef .tc Cert.KernelIdeal.main_v52_0) := by
      rw [Cert.ReferenceIdeal.ReadP.val_main_v63_eq, (hagree c).1, (hagree c).2.1, (hagree c).2.2.1, (hagree c).2.2.2.1, (hagree c).2.2.2.2.1, (hagree c).2.2.2.2.2]
      exact (ext256 fun r j => Cert.Bridge.z1_agree m ρ c (hpre c) r j).symm
    exact ⟨e74.trans hz2, e63.trans hz1, e74.trans hz2, hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
